-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x8192 : Shape := ⟨3, ![1, 3, 8192]⟩
abbrev S2 : Shape := ⟨1, ![2]⟩
abbrev S_ : Shape := ⟨0, ![]⟩

class Facts : Prop where
  bcast_S_S1x3x8192 : S_.BroadcastsInDim S1x3x8192 (![] : Fin 0 → Fin S1x3x8192.rank)
  reducesTo_S1x3x8192_S_d0_1_2 : S1x3x8192.ReducesTo [0, 1, 2] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S1x3x8192 .f32) (main_arg1 : FVec F S1x3x8192 .f32) (main_arg2 : FVec F S2 .f32) : IVec S_ 1 :=
  let main_v0 : FVec F S1x3x8192 .f32 := Host.absf main_arg0
  let main_cst : FVec F S_ .f32 := constant S_ .f32 0x7F800000#32
  let main_v1 : FVec F S1x3x8192 .f32 := broadcastInDim S1x3x8192 ![] bcast_S_S1x3x8192 main_cst
  let main_v2 : IVec S1x3x8192 1 := cmpf .olt main_v0 main_v1
  let main_c : IVec S_ 1 := constantI S_ 1 1#1
  let main_v3 : IVec S_ 1 := (fun x v => Host.reduce IntOp.andi x v reducesTo_S1x3x8192_S_d0_1_2 h_S_) main_v2 main_c
  let main_v4 : FVec F S1x3x8192 .f32 := Host.absf main_arg1
  let main_cst_0 : FVec F S_ .f32 := constant S_ .f32 0x7F800000#32
  let main_v5 : FVec F S1x3x8192 .f32 := broadcastInDim S1x3x8192 ![] bcast_S_S1x3x8192 main_cst_0
  let main_v6 : IVec S1x3x8192 1 := cmpf .olt main_v4 main_v5
  let main_c_1 : IVec S_ 1 := constantI S_ 1 1#1
  let main_v7 : IVec S_ 1 := (fun x v => Host.reduce IntOp.andi x v reducesTo_S1x3x8192_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S1x3x8192 : Shape := ⟨3, ![1, 3, 8192]⟩
abbrev S2 : Shape := ⟨1, ![2]⟩
abbrev S3x8192 : Shape := ⟨2, ![3, 8192]⟩
abbrev S_ : Shape := ⟨0, ![]⟩
abbrev S8192 : Shape := ⟨1, ![8192]⟩
abbrev S1x8192 : Shape := ⟨2, ![1, 8192]⟩
abbrev S5x8192 : Shape := ⟨2, ![5, 8192]⟩
abbrev S8x1x8192 : Shape := ⟨3, ![8, 1, 8192]⟩
abbrev S5x1024 : Shape := ⟨2, ![5, 1024]⟩
abbrev S5x4096 : Shape := ⟨2, ![5, 4096]⟩
abbrev S1x1024 : Shape := ⟨2, ![1, 1024]⟩
abbrev S1x1x8192 : Shape := ⟨3, ![1, 1, 8192]⟩
abbrev S1024x1 : Shape := ⟨2, ![1024, 1]⟩
abbrev S1024x4096 : Shape := ⟨2, ![1024, 4096]⟩
abbrev S1024 : Shape := ⟨1, ![1024]⟩
abbrev S4096 : Shape := ⟨1, ![4096]⟩
abbrev S1x4096 : Shape := ⟨2, ![1, 4096]⟩
abbrev S8x8192 : Shape := ⟨2, ![8, 8192]⟩
abbrev S2x1 : Shape := ⟨2, ![2, 1]⟩
abbrev S2x8192 : Shape := ⟨2, ![2, 8192]⟩
abbrev S1 : Shape := ⟨1, ![1]⟩
abbrev S3 : Shape := ⟨1, ![3]⟩

abbrev nBuf : Space → Nat
  | .hbm => 77
  | .vmem => 10
  | .smem => 0
  | _ => 0

abbrev bufTy : (tb : Table) → Fin (tcTables nBuf tb) → BufTy
  | .hbm, ⟨0, _⟩ => ⟨S1x3x8192, .f32⟩
  | .hbm, ⟨1, _⟩ => ⟨S1x3x8192, .f32⟩
  | .hbm, ⟨2, _⟩ => ⟨S2, .f32⟩
  | .hbm, ⟨3, _⟩ => ⟨S3x8192, .f32⟩
  | .hbm, ⟨4, _⟩ => ⟨S3x8192, .f32⟩
  | .hbm, ⟨5, _⟩ => ⟨S3x8192, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S3x8192, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S_, .f32⟩
  | .hbm, ⟨14, _⟩ => ⟨S1x8192, .f32⟩
  | .hbm, ⟨15, _⟩ => ⟨S_, .f32⟩
  | .hbm, ⟨16, _⟩ => ⟨S1x8192, .f32⟩
  | .hbm, ⟨17, _⟩ => ⟨S5x8192, .f32⟩
  | .hbm, ⟨18, _⟩ => ⟨S_, .f32⟩
  | .hbm, ⟨19, _⟩ => ⟨S3x8192, .f32⟩
  | .hbm, ⟨20, _⟩ => ⟨S3x8192, .f32⟩
  | .hbm, ⟨21, _⟩ => ⟨S5x8192, .f32⟩
  | .hbm, ⟨22, _⟩ => ⟨S1x8192, .f32⟩
  | .hbm, ⟨23, _⟩ => ⟨S8x1x8192, .f32⟩
  | .hbm, ⟨24, _⟩ => ⟨S8192, .f32⟩
  | .hbm, ⟨25, _⟩ => ⟨S8x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8192, .f32⟩
  | .hbm, ⟨42, _⟩ => ⟨S2x1, .f32⟩
  | .hbm, ⟨43, _⟩ => ⟨S2x8192, .f32⟩
  | .hbm, ⟨44, _⟩ => ⟨S2x8192, .f32⟩
  | .hbm, ⟨45, _⟩ => ⟨S2x8192, .i1⟩
  | .hbm, ⟨46, _⟩ => ⟨S2x8192, .i32⟩
  | .hbm, ⟨47, _⟩ => ⟨S_, .i32⟩
  | .hbm, ⟨48, _⟩ => ⟨S2, .i32⟩
  | .hbm, ⟨49, _⟩ => ⟨S2, .f32⟩
  | .hbm, ⟨50, _⟩ => ⟨S_, .f32⟩
  | .hbm, ⟨51, _⟩ => ⟨S2, .f32⟩
  | .hbm, ⟨52, _⟩ => ⟨S2, .f32⟩
  | .hbm, ⟨53, _⟩ => ⟨S1x8192, .f32⟩
  | .hbm, ⟨54, _⟩ => ⟨S2x1, .f32⟩
  | .hbm, ⟨55, _⟩ => ⟨S2x8192, .f32⟩
  | .hbm, ⟨56, _⟩ => ⟨S2x8192, .f32⟩
  | .hbm, ⟨57, _⟩ => ⟨S2x8192, .i1⟩
  | .hbm, ⟨58, _⟩ => ⟨S2x8192, .i32⟩
  | .hbm, ⟨59, _⟩ => ⟨S_, .i32⟩
  | .hbm, ⟨60, _⟩ => ⟨S2, .i32⟩
  | .hbm, ⟨61, _⟩ => ⟨S2, .f32⟩
  | .hbm, ⟨62, _⟩ => ⟨S_, .f32⟩
  | .hbm, ⟨63, _⟩ => ⟨S2, .f32⟩
  | .hbm, ⟨64, _⟩ => ⟨S2, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S_, .f32⟩
  | .hbm, ⟨71, _⟩ => ⟨S2, .f32⟩
  | .hbm, ⟨72, _⟩ => ⟨S2, .f32⟩
  | .hbm, ⟨73, _⟩ => ⟨S2, .f32⟩
  | .hbm, ⟨74, _⟩ => ⟨S1, .f32⟩
  | .hbm, ⟨75, _⟩ => ⟨S2, .f32⟩
  | .hbm, ⟨76, _⟩ => ⟨S3, .f32⟩
  | .local _ .vmem, ⟨0, _⟩ => ⟨S5x1024, .f32⟩
  | .local _ .vmem, ⟨1, _⟩ => ⟨S5x1024, .f32⟩
  | .local _ .vmem, ⟨2, _⟩ => ⟨S5x4096, .f32⟩
  | .local _ .vmem, ⟨3, _⟩ => ⟨S5x4096, .f32⟩
  | .local _ .vmem, ⟨4, _⟩ => ⟨S1x1024, .f32⟩
  | .local _ .vmem, ⟨5, _⟩ => ⟨S1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1024x1, .f32⟩
  | .local _ .vmem, ⟨9, _⟩ => ⟨S1x8192, .f32⟩
  | _, _ => ⟨S1x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_cst_9 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c4096_i32 : BitVec 32 := 4096#32
  let v19 : BitVec 32 := Scalar.muli arg1 c4096_i32
  v19
def k0_off1 (i : grid0.Coords) : Fin 2 → Nat :=
  let c0_11 : Index := 0#32
  let arg1 : BitVec 32 := BitVec.ofNat 32 (i 1).val
  let c4096_i32 : BitVec 32 := 4096#32
  let v19 : BitVec 32 := Scalar.muli arg1 c4096_i32
  let v20 : BitVec 32 := v19
  let v21 : Index := Scalar.indexCast v20
  ![0, v21.toNat]
def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x3x8192_S3x8192 : S1x3x8192.ShapeCasts S3x8192
  reducesTo_S3x8192_S8192_d0 : S3x8192.ReducesTo [0] S8192
  h_S_ : 0 < S_.numel
  bcast_S8192_S1x8192_1 : S8192.BroadcastsInDim S1x8192 (![1] : Fin 1 → Fin S1x8192.rank)
  bcast_S_S1x8192 : S_.BroadcastsInDim S1x8192 (![] : Fin 0 → Fin S1x8192.rank)
  concatenates_S3x8192_S1x8192_S1x8192_S5x8192_d0 : Shape.Concatenates [S3x8192, S1x8192, S1x8192] S5x8192 0
  bcast_S_S3x8192 : S_.BroadcastsInDim S3x8192 (![] : Fin 0 → Fin S3x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S5x1024_S5x1024_0_0 : ∀ a, (![0, 0] : Fin 2 → Nat) a + S5x1024.size a ≤ S5x1024.size a
  h_S5x1024 : 0 < S5x1024.numel
  shapeCasts_S5x1024_S5x1024 : S5x1024.ShapeCasts S5x1024
  inb_S5x4096_S5x4096_0_0 : ∀ a, (![0, 0] : Fin 2 → Nat) a + S5x4096.size a ≤ S5x4096.size a
  h_S5x4096 : 0 < S5x4096.numel
  shapeCasts_S5x4096_S5x4096 : S5x4096.ShapeCasts S5x4096
  reduces_S1024x4096_S1024 : S1024x4096.Reduces [1] S1024
  shapeCasts_S1024_S1024x1 : S1024.ShapeCasts S1024x1
  reduces_S1024x4096_S4096 : S1024x4096.Reduces [0] S4096
  shapeCasts_S4096_S1x4096 : S4096.ShapeCasts S1x4096
  h_S1x4096 : 0 < S1x4096.numel
  shapeCasts_S1x4096_S1x4096 : S1x4096.ShapeCasts S1x4096
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x8192_S8192 : S1x8192.ShapeCasts S8192
  shapeCasts_S8x1x8192_S8x8192 : S8x1x8192.ShapeCasts S8x8192
  reducesTo_S8x8192_S8192_d0 : S8x8192.ReducesTo [0] S8192
  reducesTo_S8192_S_d0 : S8192.ReducesTo [0] S_
  bcast_S2_S2x1_0 : S2.BroadcastsInDim S2x1 (![0] : Fin 1 → Fin S2x1.rank)
  bcast_S1x8192_S2x8192_0_1 : S1x8192.BroadcastsInDim S2x8192 (![0, 1] : Fin 2 → Fin S2x8192.rank)
  bcast_S2x1_S2x8192_0_1 : S2x1.BroadcastsInDim S2x8192 (![0, 1] : Fin 2 → Fin S2x8192.rank)
  natLt_1_32 : 1 < 32
  reducesTo_S2x8192_S2_d1 : S2x8192.ReducesTo [1] S2
  bcast_S_S2 : S_.BroadcastsInDim S2 (![] : Fin 0 → Fin S2.rank)
  bcast_S_S1 : S_.BroadcastsInDim S1 (![] : Fin 0 → Fin S1.rank)
  concatenates_S1_S2_S3_d0 : Shape.Concatenates [S1, S2] S3 0
  dot_S5x1024_S5x4096_S1024x4096_0_0_1_1_n_n_wf : DotDims.WF S5x1024 S5x4096 S1024x4096 [0] [0] [1] [1] [] []
  hrank0 : 0 < grid0.rank
  k0_mult1_dvd : ∀ i : grid0.Coords, 4096 ∣ (k0_mult1 i).toNat
  k0_off1_inb : ∀ i : grid0.Coords, ∀ a, (k0_off1 i) a + S1x4096.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x1024.size a ≤ S5x8192.size a
  hwx0_0 : ∀ i : grid0.Coords, EltTy.bits .f32 = 32 ∨ (Rect.block (s := S5x8192) S5x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x4096.size a ≤ S5x8192.size a
  hwx0_1 : ∀ i : grid0.Coords, EltTy.bits .f32 = 32 ∨ (Rect.block (s := S5x8192) S5x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S8x1x8192.size a
  hwx0_3 : ∀ i : grid0.Coords, EltTy.bits .f32 = 32 ∨ (Rect.block (s := S8x1x8192) S1x1x8192.size (cc0_transform_3 i) (hinb0_3 i)).WholeWords (EltTy.packing .f32)

variable [Facts₀]

def dot_S5x1024_S5x4096_S1024x4096_0_0_1_1_n_n : DotDims S5x1024 S5x4096 S1024x4096 where
  lhsContracting := [0]
  rhsContracting := [0]
  lhsNonContracting := [1]
  rhsNonContracting := [1]
  lhsBatch := []
  rhsBatch := []
  wf := dot_S5x1024_S5x4096_S1024x4096_0_0_1_1_n_n_wf

abbrev win0_0 : Pipeline.Window sig grid0 :=
  Pipeline.Window.ofSpec (Memref.whole main_v10) S5x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x3x8192 : Shape := ⟨3, ![1, 3, 8192]⟩
abbrev S2 : Shape := ⟨1, ![2]⟩
abbrev S3x8192 : Shape := ⟨2, ![3, 8192]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x1 : Shape := ⟨2, ![2, 1]⟩
abbrev S2x8192 : Shape := ⟨2, ![2, 8192]⟩
abbrev S1 : Shape := ⟨1, ![1]⟩
abbrev S3 : Shape := ⟨1, ![3]⟩

abbrev nBuf : Space → Nat
  | .hbm => 82
  | .vmem => 0
  | .smem => 0
  | _ => 0

abbrev bufTy : (tb : Table) → Fin (tcTables nBuf tb) → BufTy
  | .hbm, ⟨0, _⟩ => ⟨S1x3x8192, .f32⟩
  | .hbm, ⟨1, _⟩ => ⟨S1x3x8192, .f32⟩
  | .hbm, ⟨2, _⟩ => ⟨S2, .f32⟩
  | .hbm, ⟨3, _⟩ => ⟨S3x8192, .f32⟩
  | .hbm, ⟨4, _⟩ => ⟨S8192x3, .f32⟩
  | .hbm, ⟨5, _⟩ => ⟨S3x8192, .f32⟩
  | .hbm, ⟨6, _⟩ => ⟨S8192x3, .f32⟩
  | .hbm, ⟨7, _⟩ => ⟨S8192x3, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x3, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S3x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x8192, .f32⟩
  | .hbm, ⟨47, _⟩ => ⟨S2x1, .f32⟩
  | .hbm, ⟨48, _⟩ => ⟨S2x8192, .f32⟩
  | .hbm, ⟨49, _⟩ => ⟨S2x8192, .f32⟩
  | .hbm, ⟨50, _⟩ => ⟨S2x8192, .i1⟩
  | .hbm, ⟨51, _⟩ => ⟨S2x8192, .i32⟩
  | .hbm, ⟨52, _⟩ => ⟨S_, .i32⟩
  | .hbm, ⟨53, _⟩ => ⟨S2, .i32⟩
  | .hbm, ⟨54, _⟩ => ⟨S2, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S1x8192, .f32⟩
  | .hbm, ⟨59, _⟩ => ⟨S2x1, .f32⟩
  | .hbm, ⟨60, _⟩ => ⟨S2x8192, .f32⟩
  | .hbm, ⟨61, _⟩ => ⟨S2x8192, .f32⟩
  | .hbm, ⟨62, _⟩ => ⟨S2x8192, .i1⟩
  | .hbm, ⟨63, _⟩ => ⟨S2x8192, .i32⟩
  | .hbm, ⟨64, _⟩ => ⟨S_, .i32⟩
  | .hbm, ⟨65, _⟩ => ⟨S2, .i32⟩
  | .hbm, ⟨66, _⟩ => ⟨S2, .f32⟩
  | .hbm, ⟨67, _⟩ => ⟨S_, .f32⟩
  | .hbm, ⟨68, _⟩ => ⟨S2, .f32⟩
  | .hbm, ⟨69, _⟩ => ⟨S2, .f32⟩
  | .hbm, ⟨70, _⟩ => ⟨S_, .f32⟩
  | .hbm, ⟨71, _⟩ => ⟨S2, .f32⟩
  | .hbm, ⟨72, _⟩ => ⟨S2, .f32⟩
  | .hbm, ⟨73, _⟩ => ⟨S2, .f32⟩
  | .hbm, ⟨74, _⟩ => ⟨S2, .f32⟩
  | .hbm, ⟨75, _⟩ => ⟨S_, .f32⟩
  | .hbm, ⟨76, _⟩ => ⟨S2, .f32⟩
  | .hbm, ⟨77, _⟩ => ⟨S2, .f32⟩
  | .hbm, ⟨78, _⟩ => ⟨S2, .f32⟩
  | .hbm, ⟨79, _⟩ => ⟨S1, .f32⟩
  | .hbm, ⟨80, _⟩ => ⟨S2, .f32⟩
  | .hbm, ⟨81, _⟩ => ⟨S3, .f32⟩
  | _, _ => ⟨S1x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  shapeCasts_S1x3x8192_S3x8192 : S1x3x8192.ShapeCasts S3x8192
  transposes_S3x8192_S8192x3_1_0 : S3x8192.Transposes [1, 0] S8192x3
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  reducesTo_S8192x8192_S8192_d0 : S8192x8192.ReducesTo [0] S8192
  reducesTo_S8192_S_d0 : S8192.ReducesTo [0] S_
  bcast_S2_S2x1_0 : S2.BroadcastsInDim S2x1 (![0] : Fin 1 → Fin S2x1.rank)
  bcast_S1x8192_S2x8192_0_1 : S1x8192.BroadcastsInDim S2x8192 (![0, 1] : Fin 2 → Fin S2x8192.rank)
  bcast_S2x1_S2x8192_0_1 : S2x1.BroadcastsInDim S2x8192 (![0, 1] : Fin 2 → Fin S2x8192.rank)
  natLt_1_32 : 1 < 32
  reducesTo_S2x8192_S2_d1 : S2x8192.ReducesTo [1] S2
  bcast_S_S2 : S_.BroadcastsInDim S2 (![] : Fin 0 → Fin S2.rank)
  bcast_S_S1 : S_.BroadcastsInDim S1 (![] : Fin 0 → Fin S1.rank)
  concatenates_S1_S2_S3_d0 : Shape.Concatenates [S1, S2] S3 0
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.FrameB.Runs.lean ====
/-
  The run of `Kernel`'s @main around its one kernel launch, and what the kernel body's runs are stated over.

  @main is 19 host operations (which build the two five-row arrays the kernel reads), the launch over a grid of
  8 × 2 points, and 53 host operations after it.  Here: the buffer contents when the launch is entered (`V`: the
  fold of the 19 operations over the launch memory), that the three argument arrays are still as launched there,
  that the later operations touch no scoped buffer and write none of the four arrays the launch stages, each
  window's block at a grid point, and the two conditions the body branches on in closed form: the second grid
  coordinate is 0 at the even points (there the two running minima are reset to +∞) and 1 at the odd points
  (there the square roots of the minima are stored into the two output blocks).
-/
import proofs.«136692_j54992761258145_2_alg».proof.Proof.Gen.Kernel.Launch
import proofs.«136692_j54992761258145_2_alg».proof.Proof.Gen.Kernel.Skeleton
import proofs.«136692_j54992761258145_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore's buffer contents when the launch is entered: the 19 host operations folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the four arrays the launch stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the launch writes an argument array: the launch finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (`pl.when(j == 0)`): the running minima are reset. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second branch (`pl.when(j == last)`): the outputs are stored. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)
/-- The second grid coordinate at a point. -/
theorem coord1_eq : ∀ t : Fin cfg0.N, ((grid0.coords t) 1).val = t.val % 2 :=
  (by decide +kernel : ∀ t : Fin grid0.N, ((grid0.coords t) 1).val = t.val % 2)
/-- The first grid coordinate at a point. -/
theorem coord0_eq : ∀ t : Fin cfg0.N, ((grid0.coords t) 0).val = t.val / 2 :=
  (by decide +kernel : ∀ t : Fin grid0.N, ((grid0.coords t) 0).val = t.val / 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the body stores nothing into either output block, and the pipeline writes neither back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points it stores into both. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The memrefs the body is called with -/

abbrev VO0_2 : View sig .tc .vmem S1x1024 .f32 := (Memref.whole cc0_stg2_0 : Memref sig .tc .vmem S1x1024 .f32).view
abbrev VO0_3 : View sig .tc .vmem S1x1x8192 .f32 := (Memref.whole cc0_stg3_0 : Memref sig .tc .vmem S1x1x8192 .f32).view
abbrev ms0_0 (t : Fin cfg0.N) : Memref sig .tc .vmem S5x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two scratch buffers: the running row minima [1024, 1] and the running column minima [1, 8192]. -/
abbrev scM0_0 : Memref sig .tc .vmem S1024x1 .f32 := Memref.whole cc0_scratch0
abbrev scM0_1 : Memref sig .tc .vmem S1x8192 .f32 := Memref.whole cc0_scratch1

/-- What the launch lends the body besides the windows: the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.FrameB.RunA.lean ====
/-
  The kernel body run at an even grid point (second coordinate 0) of `Kernel`: the two running minima are reset to +∞,
  then the block's clamped squared distances are folded in — the row minima into the whole [1024, 1] scratch, the column
  minima into the first half of the [1, 8192] scratch — and nothing is stored into the output blocks.  The run finds, as
  lists of stores, what the two scratch buffers end with.
-/
import proofs.«136692_j54992761258145_2_alg».proof.Proof.FrameB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an even point, on any whole staging memrefs: the two input blocks are handed back as found, the two output
    buffers untouched, and each scratch buffer ends with the listed stores written over whatever it held. -/
noncomputable def kernelRun0_A (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) :
    Σ' (LS0 : List (View.Piece (Elt F) S1024x1 .f32)), { LS1 : List (View.Piece (Elt F) S1x8192 .f32) //
      ∀ (xi2 : Vec F S1x1024 .f32) (xi3 : Vec F S1x1x8192 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.Kernel.Fr

end
-- ==== Proof.FrameB.RunB.lean ====
/-
  The kernel body run at an odd grid point (second coordinate 1) of `Kernel`: the block's clamped squared distances are
  folded into the running minima the point before left — the row minima into the whole [1024, 1] scratch, the column minima
  into the second half of the [1, 8192] scratch, whose first half stays as it was — and the square roots of the two scratch
  buffers are stored into the two output blocks.  The run finds, as lists of stores, what each buffer ends with.
-/
import proofs.«136692_j54992761258145_2_alg».proof.Proof.FrameB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an odd point, on any whole staging memrefs: the two input blocks are handed back as found; the row-minima
    scratch, found at `xs0`, ends with the listed stores over it; the column-minima scratch, found at `xs1`, ends with the
    listed stores written over `xs1` (they do not cover it); the two output buffers end with their listed stores. -/
noncomputable def kernelRun0_B (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) :
    Σ' (L2 : List (View.Piece (Elt F) S1x1024 .f32)) (L3 : List (View.Piece (Elt F) S1x1x8192 .f32)) (LS0 : List (View.Piece (Elt F) S1024x1 .f32)), { LS1 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexact HS1

end Cert.Kernel.Fr

end
-- ==== Proof.FrameB.Outs.lean ====
/-
  What each of the kernel body's two cases of `Kernel` leaves in the buffers it stores into, read back as whole arrays: at an
  even grid point the two scratch buffers (both stored whole there); at an odd point the two output blocks and the row-minima
  scratch (stored whole) and the column-minima scratch (its second half stored over what the even point left).
-/
import proofs.«136692_j54992761258145_2_alg».proof.Proof.FrameB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VS0_0 : View sig .tc .vmem S1024x1 .f32 := scM0_0.view
abbrev VS0_1 : View sig .tc .vmem S1x8192 .f32 := scM0_1.view

/-! ## An even point -/

theorem scover0_A_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) (y : S1024x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x1.size (by sl_kernel_rfl) y

/-- The running row minima after an even point. -/
def sout0_A_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).1)

theorem scover0_A_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) (y : S1x8192.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x8192.size (by sl_kernel_rfl) y

/-- The running column minima after an even point. -/
def sout0_A_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) : Vec F S1x8192 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-! ## An odd point -/

theorem cover0_B_2 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1x1024.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1x1024.size (by sl_kernel_rfl) y

/-- The forward-distance block an odd point stores. -/
def out0_B_2 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

theorem cover0_B_3 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1x1x8192.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x1x8192.size (by sl_kernel_rfl) y

/-- The row of partial backward distances an odd point stores. -/
def out0_B_3 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x1x8192 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

theorem scover0_B_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y

/-- The running row minima after an odd point. -/
def sout0_B_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- The running column minima after an odd point: the stores written over what the point found (`xs1`). -/
def sout0_B_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x8192 .f32 :=
  arg7.view.read (Elt F) (arg7.view.writes (Elt F) (harg7.unread xs1) (kernelRun0_B c i arg2 harg2 arg3 harg3 arg4 harg4 arg5 harg5 arg6 harg6 arg7 harg7 hc0 hc1 x0 x1 xs0 xs1).2.2.2.1)

end Cert.Kernel.Fr

end
-- ==== Proof.FrameB.Frame.lean ====
/-
  The frame of `Kernel`: what the kernel leaves in its two output blocks and its two scratch buffers after each of the 16
  grid points, and from it the run of the whole program.

  The grid is 8 row blocks × 2 column blocks, walked row block by row block.  At an even point (first column block of
  a row block) the running minima start from +∞ and take in the block; at the odd point after it they take in the second
  column block and their square roots are stored: into block `i` of the [1, 8192] result, and into row `i` of the
  [8, 1, 8192] result.  The scratch buffers carry the minima from the even point to the odd one; what the even point of the
  next row block finds in them is overwritten before it is read.
-/
import proofs.«136692_j54992761258145_2_alg».proof.Proof.FrameB.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem hA0 (t : Fin cfg0.N) (h : t.val % 2 = 0) : cond0_0 (grid0.coords t) := (hcond0_0 t).mpr h
theorem hA1 (t : Fin cfg0.N) (h : t.val % 2 = 0) : ¬cond0_1 (grid0.coords t) := fun hc => by
  have := (hcond0_1 t).mp hc; omega
theorem hB0 (t : Fin cfg0.N) (h : ¬t.val % 2 = 0) : ¬cond0_0 (grid0.coords t) := fun hc => h ((hcond0_0 t).mp hc)
theorem hB1 (t : Fin cfg0.N) (h : ¬t.val % 2 = 0) : cond0_1 (grid0.coords t) := (hcond0_1 t).mpr (by omega)

/-! ## What the buffers hold after each point -/

/-- The two scratch buffers after an even point `t`. -/
def ptA (c : Dev nD) (t : Fin cfg0.N) (h : t.val % 2 = 0) : Vec F S1024x1 .f32 × Vec F S1x8192 .f32 :=
  (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h) (hA1 t h) (iblk m c 0 t) (iblk m c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h) (hA1 t h) (iblk m c 0 t) (iblk m c 1 t))

/-- The two output blocks and the two scratch buffers after an odd point `t` that found the scratch buffers at `xs0`, `xs1`. -/
def ptB (c : Dev nD) (t : Fin cfg0.N) (h : ¬t.val % 2 = 0) (xs0 : Vec F S1024x1 .f32) (xs1 : Vec F S1x8192 .f32) :
    Vec F S1x1024 .f32 × Vec F S1x1x8192 .f32 × Vec F S1024x1 .f32 × Vec F S1x8192 .f32 :=
  (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1)

/-- The output blocks (placeholders at the even points, where nothing is stored or written back) and the scratch buffers
    after position `n`, by recursion on the position: an odd point continues from what the even point before it left. -/
def outsAt0 (c : Dev nD) : (n : ℕ) → n < cfg0.N → Vec F S1x1024 .f32 × Vec F S1x1x8192 .f32 × Vec F S1024x1 .f32 × Vec F S1x8192 .f32
  | 0, hn => (VO0_2.read (Elt F) VO0_2.junk, VO0_3.read (Elt F) VO0_3.junk, (ptA m c ⟨0, hn⟩ (Nat.zero_mod _)).1, (ptA m c ⟨0, hn⟩ (Nat.zero_mod _)).2)
  | n + 1, hn =>
    if h0 : (n + 1) % 2 = 0 then
      (VO0_2.read (Elt F) VO0_2.junk, VO0_3.read (Elt F) VO0_3.junk, (ptA m c ⟨n + 1, hn⟩ h0).1, (ptA m c ⟨n + 1, hn⟩ h0).2)
    else
      ptB m c ⟨n + 1, hn⟩ h0 (outsAt0 c n (Nat.lt_of_succ_lt hn)).2.2.1 (outsAt0 c n (Nat.lt_of_succ_lt hn)).2.2.2

theorem outsAt0_A (c : Dev nD) (t : Fin cfg0.N) (h0 : t.val % 2 = 0) :
    outsAt0 m c t.val t.isLt = (VO0_2.read (Elt F) VO0_2.junk, VO0_3.read (Elt F) VO0_3.junk, (ptA m c t h0).1, (ptA m c t h0).2) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- What the kernel holds between points besides the windows: before the first point the two scratch buffers at anything;
    afterwards each at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the launch finds them; after the body at a point each input's buffer at its block, each output's at
    `outsAt0`'s component; between points `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the parity of the point says which case it is in; the
    scratch buffers are handed over at what the point before left (at anything at the first point) and taken back at this
    point's contents; at an even point the output buffers go back untouched, at an odd one with the stored blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t (hA0 t h0) (hA1 t h0)) (noFlush0_2_A t (hA0 t h0) (hA1 t h0))]
    rw [Dat.leavesExact_idle (dats m 0 c) 3 t (idleAt0_3_A t (hA0 t h0) (hA1 t h0)) (noFlush0_3_A t (hA0 t h0) (hA1 t h0))]
    rw [outsAt0_A m c t h0]
    unfold ptA sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (hA0 t h0) (hA1 t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (hA0 t h0) (hA1 t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
      unfold Dat.leavesExact; rw [liveAt0_2_B t (hB0 t h0) (hB1 t h0)], after0_2]
    rw [show (dats m 0 c).leavesExact 3 t = owns (c : Thread nD τ) (ms0_3 t) fullShare ((dats m 0 c).after 3 t) from by
      unfold Dat.leavesExact; rw [liveAt0_3_B t (hB0 t h0) (hB1 t h0)], after0_3]
    rw [outsAt0_B m c t h0]
    unfold ptB out0_B_2 out0_B_3 sout0_B_0 sout0_B_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (hB0 t h0) (hB1 t h0) (iblk m c 0 t) (iblk m c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, HS1⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _)
        · unfold owns; iexists _; isplitr
          swap; · iexact HS1
          ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the launch at what the
    proof data's write-backs leave and every other unscoped buffer as the operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_arg0 (by decide) |>.trans (V_main_arg0 m c), (h c).2 main_arg1 (by decide) |>.trans (V_main_arg1 m c), (h c).2 main_arg2 (by decide) |>.trans (V_main_arg2 m c)⟩) (run_main m ρ)

end Cert.Kernel.Fr

end
-- ==== Proof.FrameI.Runs.lean ====
/-
  The run of `KernelIdeal`'s @main around its one kernel launch, and what the kernel body's runs are stated over.

  @main is 19 host operations (which build the two five-row arrays the kernel reads), the launch over a grid of
  8 × 2 points, and 53 host operations after it.  Here: the buffer contents when the launch is entered (`V`: the
  fold of the 19 operations over the launch memory), that the three argument arrays are still as launched there,
  that the later operations touch no scoped buffer and write none of the four arrays the launch stages, each
  window's block at a grid point, and the two conditions the body branches on in closed form: the second grid
  coordinate is 0 at the even points (there the two running minima are reset to +∞) and 1 at the odd points
  (there the square roots of the minima are stored into the two output blocks).
-/
import proofs.«136692_j54992761258145_2_alg».proof.Proof.Gen.KernelIdeal.Launch
import proofs.«136692_j54992761258145_2_alg».proof.Proof.Gen.KernelIdeal.Skeleton
import proofs.«136692_j54992761258145_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore's buffer contents when the launch is entered: the 19 host operations folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the launch touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the four arrays the launch stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the launch writes an argument array: the launch finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (`pl.when(j == 0)`): the running minima are reset. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second branch (`pl.when(j == last)`): the outputs are stored. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)
/-- The second grid coordinate at a point. -/
theorem coord1_eq : ∀ t : Fin cfg0.N, ((grid0.coords t) 1).val = t.val % 2 :=
  (by decide +kernel : ∀ t : Fin grid0.N, ((grid0.coords t) 1).val = t.val % 2)
/-- The first grid coordinate at a point. -/
theorem coord0_eq : ∀ t : Fin cfg0.N, ((grid0.coords t) 0).val = t.val / 2 :=
  (by decide +kernel : ∀ t : Fin grid0.N, ((grid0.coords t) 0).val = t.val / 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the body stores nothing into either output block, and the pipeline writes neither back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points it stores into both. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The memrefs the body is called with -/

abbrev VO0_2 : View sig .tc .vmem S1x1024 .f32 := (Memref.whole cc0_stg2_0 : Memref sig .tc .vmem S1x1024 .f32).view
abbrev VO0_3 : View sig .tc .vmem S1x1x8192 .f32 := (Memref.whole cc0_stg3_0 : Memref sig .tc .vmem S1x1x8192 .f32).view
abbrev ms0_0 (t : Fin cfg0.N) : Memref sig .tc .vmem S5x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two scratch buffers: the running row minima [1024, 1] and the running column minima [1, 8192]. -/
abbrev scM0_0 : Memref sig .tc .vmem S1024x1 .f32 := Memref.whole cc0_scratch0
abbrev scM0_1 : Memref sig .tc .vmem S1x8192 .f32 := Memref.whole cc0_scratch1

/-- What the launch lends the body besides the windows: the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.FrameI.RunA.lean ====
/-
  The kernel body run at an even grid point (second coordinate 0) of `KernelIdeal`: the two running minima are reset to +∞,
  then the block's clamped squared distances are folded in — the row minima into the whole [1024, 1] scratch, the column
  minima into the first half of the [1, 8192] scratch — and nothing is stored into the output blocks.  The run finds, as
  lists of stores, what the two scratch buffers end with.
-/
import proofs.«136692_j54992761258145_2_alg».proof.Proof.FrameI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an even point, on any whole staging memrefs: the two input blocks are handed back as found, the two output
    buffers untouched, and each scratch buffer ends with the listed stores written over whatever it held. -/
noncomputable def kernelRun0_A (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) :
    Σ' (LS0 : List (View.Piece (Elt F) S1024x1 .f32)), { LS1 : List (View.Piece (Elt F) S1x8192 .f32) //
      ∀ (xi2 : Vec F S1x1024 .f32) (xi3 : Vec F S1x1x8192 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    iexists _; iexact HS1

end Cert.KernelIdeal.Fr

end
-- ==== Proof.FrameI.RunB.lean ====
/-
  The kernel body run at an odd grid point (second coordinate 1) of `KernelIdeal`: the block's clamped squared distances are
  folded into the running minima the point before left — the row minima into the whole [1024, 1] scratch, the column minima
  into the second half of the [1, 8192] scratch, whose first half stays as it was — and the square roots of the two scratch
  buffers are stored into the two output blocks.  The run finds, as lists of stores, what each buffer ends with.
-/
import proofs.«136692_j54992761258145_2_alg».proof.Proof.FrameI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an odd point, on any whole staging memrefs: the two input blocks are handed back as found; the row-minima
    scratch, found at `xs0`, ends with the listed stores over it; the column-minima scratch, found at `xs1`, ends with the
    listed stores written over `xs1` (they do not cover it); the two output buffers end with their listed stores. -/
noncomputable def kernelRun0_B (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) :
    Σ' (L2 : List (View.Piece (Elt F) S1x1024 .f32)) (L3 : List (View.Piece (Elt F) S1x1x8192 .f32)) (LS0 : List (View.Piece (Elt F) S1024x1 .f32)), { LS1 : List (View.Piece (Elt F) S1x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; iexact HS0
    iexact HS1

end Cert.KernelIdeal.Fr

end
-- ==== Proof.FrameI.Outs.lean ====
/-
  What each of the kernel body's two cases of `KernelIdeal` leaves in the buffers it stores into, read back as whole arrays: at an
  even grid point the two scratch buffers (both stored whole there); at an odd point the two output blocks and the row-minima
  scratch (stored whole) and the column-minima scratch (its second half stored over what the even point left).
-/
import proofs.«136692_j54992761258145_2_alg».proof.Proof.FrameI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VS0_0 : View sig .tc .vmem S1024x1 .f32 := scM0_0.view
abbrev VS0_1 : View sig .tc .vmem S1x8192 .f32 := scM0_1.view

/-! ## An even point -/

theorem scover0_A_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) (y : S1024x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x1.size (by sl_kernel_rfl) y

/-- The running row minima after an even point. -/
def sout0_A_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).1)

theorem scover0_A_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) (y : S1x8192.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x8192.size (by sl_kernel_rfl) y

/-- The running column minima after an even point. -/
def sout0_A_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec F S5x1024 .f32) (x1 : Vec F S5x4096 .f32) : Vec F S1x8192 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-! ## An odd point -/

theorem cover0_B_2 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1x1024.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1x1024.size (by sl_kernel_rfl) y

/-- The forward-distance block an odd point stores. -/
def out0_B_2 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

theorem cover0_B_3 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1x1x8192.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x1x8192.size (by sl_kernel_rfl) y

/-- The row of partial backward distances an odd point stores. -/
def out0_B_3 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x1x8192 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

theorem scover0_B_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y

/-- The running row minima after an odd point. -/
def sout0_B_0 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- The running column minima after an odd point: the stores written over what the point found (`xs1`). -/
def sout0_B_1 (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec F S5x1024 .f32) (x1 : Vec F S5x4096 .f32) (xs0 : Vec F S1024x1 .f32) (xs1 : Vec F S1x8192 .f32) : Vec F S1x8192 .f32 :=
  arg7.view.read (Elt F) (arg7.view.writes (Elt F) (harg7.unread xs1) (kernelRun0_B c i arg2 harg2 arg3 harg3 arg4 harg4 arg5 harg5 arg6 harg6 arg7 harg7 hc0 hc1 x0 x1 xs0 xs1).2.2.2.1)

end Cert.KernelIdeal.Fr

end
-- ==== Proof.FrameI.Frame.lean ====
/-
  The frame of `KernelIdeal`: what the kernel leaves in its two output blocks and its two scratch buffers after each of the 16
  grid points, and from it the run of the whole program.

  The grid is 8 row blocks × 2 column blocks, walked row block by row block.  At an even point (first column block of
  a row block) the running minima start from +∞ and take in the block; at the odd point after it they take in the second
  column block and their square roots are stored: into block `i` of the [1, 8192] result, and into row `i` of the
  [8, 1, 8192] result.  The scratch buffers carry the minima from the even point to the odd one; what the even point of the
  next row block finds in them is overwritten before it is read.
-/
import proofs.«136692_j54992761258145_2_alg».proof.Proof.FrameI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem hA0 (t : Fin cfg0.N) (h : t.val % 2 = 0) : cond0_0 (grid0.coords t) := (hcond0_0 t).mpr h
theorem hA1 (t : Fin cfg0.N) (h : t.val % 2 = 0) : ¬cond0_1 (grid0.coords t) := fun hc => by
  have := (hcond0_1 t).mp hc; omega
theorem hB0 (t : Fin cfg0.N) (h : ¬t.val % 2 = 0) : ¬cond0_0 (grid0.coords t) := fun hc => h ((hcond0_0 t).mp hc)
theorem hB1 (t : Fin cfg0.N) (h : ¬t.val % 2 = 0) : cond0_1 (grid0.coords t) := (hcond0_1 t).mpr (by omega)

/-! ## What the buffers hold after each point -/

/-- The two scratch buffers after an even point `t`. -/
def ptA (c : Dev nD) (t : Fin cfg0.N) (h : t.val % 2 = 0) : Vec F S1024x1 .f32 × Vec F S1x8192 .f32 :=
  (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h) (hA1 t h) (iblk m c 0 t) (iblk m c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h) (hA1 t h) (iblk m c 0 t) (iblk m c 1 t))

/-- The two output blocks and the two scratch buffers after an odd point `t` that found the scratch buffers at `xs0`, `xs1`. -/
def ptB (c : Dev nD) (t : Fin cfg0.N) (h : ¬t.val % 2 = 0) (xs0 : Vec F S1024x1 .f32) (xs1 : Vec F S1x8192 .f32) :
    Vec F S1x1024 .f32 × Vec F S1x1x8192 .f32 × Vec F S1024x1 .f32 × Vec F S1x8192 .f32 :=
  (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h) (hB1 t h) (iblk m c 0 t) (iblk m c 1 t) xs0 xs1)

/-- The output blocks (placeholders at the even points, where nothing is stored or written back) and the scratch buffers
    after position `n`, by recursion on the position: an odd point continues from what the even point before it left. -/
def outsAt0 (c : Dev nD) : (n : ℕ) → n < cfg0.N → Vec F S1x1024 .f32 × Vec F S1x1x8192 .f32 × Vec F S1024x1 .f32 × Vec F S1x8192 .f32
  | 0, hn => (VO0_2.read (Elt F) VO0_2.junk, VO0_3.read (Elt F) VO0_3.junk, (ptA m c ⟨0, hn⟩ (Nat.zero_mod _)).1, (ptA m c ⟨0, hn⟩ (Nat.zero_mod _)).2)
  | n + 1, hn =>
    if h0 : (n + 1) % 2 = 0 then
      (VO0_2.read (Elt F) VO0_2.junk, VO0_3.read (Elt F) VO0_3.junk, (ptA m c ⟨n + 1, hn⟩ h0).1, (ptA m c ⟨n + 1, hn⟩ h0).2)
    else
      ptB m c ⟨n + 1, hn⟩ h0 (outsAt0 c n (Nat.lt_of_succ_lt hn)).2.2.1 (outsAt0 c n (Nat.lt_of_succ_lt hn)).2.2.2

theorem outsAt0_A (c : Dev nD) (t : Fin cfg0.N) (h0 : t.val % 2 = 0) :
    outsAt0 m c t.val t.isLt = (VO0_2.read (Elt F) VO0_2.junk, VO0_3.read (Elt F) VO0_3.junk, (ptA m c t h0).1, (ptA m c t h0).2) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- What the kernel holds between points besides the windows: before the first point the two scratch buffers at anything;
    afterwards each at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the launch finds them; after the body at a point each input's buffer at its block, each output's at
    `outsAt0`'s component; between points `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the parity of the point says which case it is in; the
    scratch buffers are handed over at what the point before left (at anything at the first point) and taken back at this
    point's contents; at an even point the output buffers go back untouched, at an odd one with the stored blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t (hA0 t h0) (hA1 t h0)) (noFlush0_2_A t (hA0 t h0) (hA1 t h0))]
    rw [Dat.leavesExact_idle (dats m 0 c) 3 t (idleAt0_3_A t (hA0 t h0) (hA1 t h0)) (noFlush0_3_A t (hA0 t h0) (hA1 t h0))]
    rw [outsAt0_A m c t h0]
    unfold ptA sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (hA0 t h0) (hA1 t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (hA0 t h0) (hA1 t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
      unfold Dat.leavesExact; rw [liveAt0_2_B t (hB0 t h0) (hB1 t h0)], after0_2]
    rw [show (dats m 0 c).leavesExact 3 t = owns (c : Thread nD τ) (ms0_3 t) fullShare ((dats m 0 c).after 3 t) from by
      unfold Dat.leavesExact; rw [liveAt0_3_B t (hB0 t h0) (hB1 t h0)], after0_3]
    rw [outsAt0_B m c t h0]
    unfold ptB out0_B_2 out0_B_3 sout0_B_0 sout0_B_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (hB0 t h0) (hB1 t h0) (iblk m c 0 t) (iblk m c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, HS1⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _)
        · unfold owns; iexists _; isplitr
          swap; · iexact HS1
          ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the launch at what the
    proof data's write-backs leave and every other unscoped buffer as the operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_arg0 (by decide) |>.trans (V_main_arg0 m c), (h c).2 main_arg1 (by decide) |>.trans (V_main_arg1 m c), (h c).2 main_arg2 (by decide) |>.trans (V_main_arg2 m c)⟩) (run_main m ρ)

end Cert.KernelIdeal.Fr

end
-- ==== Proof.Spec.lean ====
/-
  The mathematics both programs compute, stated once.

  Two clouds of 8192 points in three dimensions arrive as arrays [1, 3, 8192]: coordinate `d` of point `a`
  of a cloud `x` is `x (0, d, a)`.  The squared distance between point `a` of the first cloud and point `b`
  of the second is `|p_a|² + |q_b|² − 2 ⟨p_a, q_b⟩`, clamped below at zero; the forward distance of `a` is the
  square root of the least clamped squared distance over all `b`, the backward distance of `b` the square
  root of the least over all `a`.  From the two vectors of distances and the two thresholds the result is
  [mean(fwd)/2 + mean(bwd)/2, F-score at threshold 0, F-score at threshold 1]: `Tail`, the same chain of
  operations in both programs, kept as one opaque function of the two distance vectors and the thresholds.
-/
import proofs.«136692_j54992761258145_2_alg».proof.Proof.Gen.ReferenceIdeal
import Idealize.ShloMosaic.Lib.ValueIdx

noncomputable section

namespace Cert.Chamfer

open Idealize.ShloMosaic Idealize.ShloMosaic.ValueIdx Cert.ReferenceIdeal Cert.ReferenceIdeal.Gen
open scoped BigOperators

/-- Coordinate `d` of point `a` of a cloud stored as [1, 3, 8192]. -/
def pt (x : FVec Ideal S1x3x8192 .f32) (d : Fin 3) (a : Fin 8192) : EReal := x (ix3 (0 : Fin 1) d a)

/-- The squared norm of point `a`. -/
def nsq (x : FVec Ideal S1x3x8192 .f32) (a : Fin 8192) : EReal := ∑ d : Fin 3, pt x d a * pt x d a

/-- The clamped squared distance between point `a` of the first cloud and point `b` of the second. -/
def dist2 (x0 x1 : FVec Ideal S1x3x8192 .f32) (a b : Fin 8192) : EReal :=
  max (nsq x0 a + nsq x1 b - 2 * ∑ d : Fin 3, pt x0 d a * pt x1 d b) 0

/-- The forward distance of point `a`: to its nearest neighbour in the second cloud. -/
def fwdAt (x0 x1 : FVec Ideal S1x3x8192 .f32) (a : Fin 8192) : EReal :=
  Ideal.sqrt (Finset.univ.inf fun b : Fin 8192 => dist2 x0 x1 a b)

/-- The backward distance of point `b`: to its nearest neighbour in the first cloud. -/
def bwdAt (x0 x1 : FVec Ideal S1x3x8192 .f32) (b : Fin 8192) : EReal :=
  Ideal.sqrt (Finset.univ.inf fun a : Fin 8192 => dist2 x0 x1 a b)

/-- The vector of forward distances. -/
def Fwd (x0 x1 : FVec Ideal S1x3x8192 .f32) : FVec Ideal S8192 .f32 := fun j => fwdAt x0 x1 (j 0)

/-- The vector of backward distances. -/
def Bwd (x0 x1 : FVec Ideal S1x3x8192 .f32) : FVec Ideal S8192 .f32 := fun j => bwdAt x0 x1 (j 0)

/-- From the two distance vectors and the thresholds to the three results: the half-sum of the two means, and per
    threshold the harmonic combination of the percentages of forward and of backward distances within it. -/
def Tail (fwd bwd : FVec Ideal S8192 .f32) (thr : FVec Ideal S2 .f32) : FVec Ideal S3 .f32 :=
  concatenate S3 0 [⟨S1, (broadcastInDim S1 ![] bcast_S_S1 (addf (Host.divf (Host.divf (Host.reduceAdd fwd (constant S_ .f32 0x00000000#32) reducesTo_S8192_S_d0 h_S_) (constant S_ .f32 0x46000000#32)) (constant S_ .f32 0x40000000#32)) (Host.divf (Host.divf (Host.reduceAdd bwd (constant S_ .f32 0x00000000#32) reducesTo_S8192_S_d0 h_S_) (constant S_ .f32 0x46000000#32)) (constant S_ .f32 0x40000000#32))))⟩, ⟨S2, (id (Host.divf (mulf (mulf (broadcastInDim S2 ![] bcast_S_S2 (constant S_ .f32 0x40000000#32)) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 fwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 bwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (addf (addf (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 fwd)) (broadcastInDim S2x8192 ![0, 1] bcast_S2x1_S2x8192_0_1 (broadcastInDim S2x1 ![0] bcast_S2_S2x1_0 thr))) natLt_1_32) (constantI S_ 32 0#32) reducesTo_S2x8192_S2_d1 h_S_))) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 bwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (broadcastInDim S2 ![] bcast_S_S2 (constant S_ .f32 0x322BCC77#32)))))⟩] concatenates_S1_S2_S3_d0

/-- A point with its squared norm and a one appended: the left factor of the five-term product below. -/
def augL (p : Fin 3 → EReal) : Fin 5 → EReal := ![p 0, p 1, p 2, ∑ d : Fin 3, p d * p d, 1]

/-- A point scaled by −2 with a one and its squared norm appended: the right factor; the five-term product
    `∑ k, augL p k * augR q k` is `|p|² + |q|² − 2⟨p, q⟩` when the coordinates are real numbers. -/
def augR (q : Fin 3 → EReal) : Fin 5 → EReal := ![-2 * q 0, -2 * q 1, -2 * q 2, 1, ∑ d : Fin 3, q d * q d]

/-- The whole result as a function of the three argument arrays. -/
def Out (x0 x1 : FVec Ideal S1x3x8192 .f32) (thr : FVec Ideal S2 .f32) : FVec Ideal S3 .f32 :=
  Tail (Fwd x0 x1) (Bwd x0 x1) thr

end Cert.Chamfer

end
-- ==== Proof.RefRun.lean ====
/-
  The reference program's run, read back as a function of its three arguments.

  @main is a straight line of 79 array operations. Operations 1 … 30 compute, from the two clouds, the vector of
  forward distances and the vector of backward distances (the values `val_main_v21` and `val_main_v23` of the
  two clouds); operations 31 … 78 compute from those two vectors and the thresholds the two pieces of the
  result, and operation 79 joins them: together `Cert.Chamfer.Tail` of the two vectors and the thresholds.
  The contents of a device's arrays after a line of operations is a fold (`after`); the fold over the whole
  line is the fold over its three parts in turn (`after_append`), and each part is read back over ANY starting
  contents, so that no step compares two full-size terms. `run_core`: every weakly fair execution of @main
  terminates with the result array at `Tail (val_main_v21 x0 x1) (val_main_v23 x0 x1) thr` of the argument
  arrays' launch contents `x0 x1 thr`, and the argument arrays unchanged.
-/
import proofs.«136692_j54992761258145_2_alg».proof.Proof.Spec
import proofs.«136692_j54992761258145_2_alg».proof.Proof.RefReadGen
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 30: from the two clouds to the two vectors of distances. -/
abbrev ops1 : List (HloOp τ sig (Elt F)) :=
  [ reshape main_arg0 main_v0 rfl shapeCasts_S1x3x8192_S3x8192,
    unary main_v0 main_v1 ((transpose S8192x3 [1, 0] · transposes_S3x8192_S8192x3_1_0) : (⟨S3x8192, .f32⟩ : BufTy).Contents (Elt F) → (⟨S8192x3, .f32⟩ : BufTy).Contents (Elt F)),
    reshape main_arg1 main_v2 rfl shapeCasts_S1x3x8192_S3x8192,
    unary main_v2 main_v3 ((transpose S8192x3 [1, 0] · transposes_S3x8192_S8192x3_1_0) : (⟨S3x8192, .f32⟩ : BufTy).Contents (Elt F) → (⟨S8192x3, .f32⟩ : BufTy).Contents (Elt F)),
    binary main_v1 main_v1 main_v4 (mulf : (⟨S8192x3, .f32⟩ : BufTy).Contents (Elt F) → (⟨S8192x3, .f32⟩ : BufTy).Contents (Elt F) → (⟨S8192x3, .f32⟩ : BufTy).Contents (Elt F)),
    nullary main_cst (constant S_ .f32 0x00000000#32),
    binary main_v4 main_cst main_v5 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    binary main_v3 main_v3 main_v7 (mulf : (⟨S8192x3, .f32⟩ : BufTy).Contents (Elt F) → (⟨S8192x3, .f32⟩ : BufTy).Contents (Elt F) → (⟨S8192x3, .f32⟩ : BufTy).Contents (Elt F)),
    nullary main_cst_0 (constant S_ .f32 0x00000000#32),
    binary main_v7 main_cst_0 main_v8 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v8 main_v9 (broadcastInDim S1x8192 ![1] bcast_S8192_S1x8192_1 : (⟨S8192, .f32⟩ : BufTy).Contents (Elt F) → (⟨S1x8192, .f32⟩ : BufTy).Contents (Elt F)),
    unary main_v6 main_v10 (broadcastInDim S8192x8192 ![0, 1] bcast_S8192x1_S8192x8192_0_1 : (⟨S8192x1, .f32⟩ : BufTy).Contents (Elt F) → (⟨S8192x8192, .f32⟩ : BufTy).Contents (Elt F)),
    unary main_v9 main_v11 (broadcastInDim S8192x8192 ![0, 1] bcast_S1x8192_S8192x8192_0_1 : (⟨S1x8192, .f32⟩ : BufTy).Contents (Elt F) → (⟨S8192x8192, .f32⟩ : BufTy).Contents (Elt F)),
    binary main_v10 main_v11 main_v12 (addf : (⟨S8192x8192, .f32⟩ : BufTy).Contents (Elt F) → (⟨S8192x8192, .f32⟩ : BufTy).Contents (Elt F) → (⟨S8192x8192, .f32⟩ : BufTy).Contents (Elt F)),
    unary main_v3 main_v13 ((transpose S3x8192 [1, 0] · transposes_S8192x3_S3x8192_1_0) : (⟨S8192x3, .f32⟩ : BufTy).Contents (Elt F) → (⟨S3x8192, .f32⟩ : BufTy).Contents (Elt F)),
    binary main_v1 main_v13 main_v14 ((fun l r => Host.dotGeneral dot_S8192x3_S3x8192_S8192x8192_1_0_0_1_n_n none l r) : (⟨S8192x3, .f32⟩ : BufTy).Contents (Elt F) → (⟨S3x8192, .f32⟩ : BufTy).Contents (Elt F) → (⟨S8192x8192, .f32⟩ : BufTy).Contents (Elt F)),
    nullary main_cst_1 (constant S_ .f32 0x40000000#32),
    unary main_cst_1 main_v15 (broadcastInDim S8192x8192 ![] bcast_S_S8192x8192 : (⟨S_, .f32⟩ : BufTy).Contents (Elt F) → (⟨S8192x8192, .f32⟩ : BufTy).Contents (Elt F)),
    binary main_v15 main_v14 main_v16 (mulf : (⟨S8192x8192, .f32⟩ : BufTy).Contents (Elt F) → (⟨S8192x8192, .f32⟩ : BufTy).Contents (Elt F) → (⟨S8192x8192, .f32⟩ : BufTy).Contents (Elt F)),
    binary main_v12 main_v16 main_v17 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v18 (broadcastInDim S8192x8192 ![] bcast_S_S8192x8192 : (⟨S_, .f32⟩ : BufTy).Contents (Elt F) → (⟨S8192x8192, .f32⟩ : BufTy).Contents (Elt F)),
    binary main_v17 main_v18 main_v19 (maximumf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x7F800000#32),
    binary main_v19 main_cst_3 main_v20 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (Host.sqrt : (⟨S8192, .f32⟩ : BufTy).Contents (Elt F) → (⟨S8192, .f32⟩ : BufTy).Contents (Elt F)),
    nullary main_cst_4 (constant S_ .f32 0x7F800000#32),
    binary main_v19 main_cst_4 main_v22 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    unary main_v22 main_v23 (Host.sqrt : (⟨S8192, .f32⟩ : BufTy).Contents (Elt F) → (⟨S8192, .f32⟩ : BufTy).Contents (Elt F)) ]

/-- Operations 31 … 78: from the two vectors of distances and the thresholds to the two pieces of the result. -/
abbrev ops2 : List (HloOp τ sig (Elt F)) :=
  [ nullary main_cst_5 (constant S_ .f32 0x00000000#32),
    binary main_v21 main_cst_5 main_v24 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v24 main_cst_6 main_v25 (Host.divf : (⟨S_, .f32⟩ : BufTy).Contents (Elt F) → (⟨S_, .f32⟩ : BufTy).Contents (Elt F) → (⟨S_, .f32⟩ : BufTy).Contents (Elt F)),
    nullary main_cst_7 (constant S_ .f32 0x40000000#32),
    binary main_v25 main_cst_7 main_v26 (Host.divf : (⟨S_, .f32⟩ : BufTy).Contents (Elt F) → (⟨S_, .f32⟩ : BufTy).Contents (Elt F) → (⟨S_, .f32⟩ : BufTy).Contents (Elt F)),
    nullary main_cst_8 (constant S_ .f32 0x00000000#32),
    binary main_v23 main_cst_8 main_v27 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_9 (constant S_ .f32 0x46000000#32),
    binary main_v27 main_cst_9 main_v28 (Host.divf : (⟨S_, .f32⟩ : BufTy).Contents (Elt F) → (⟨S_, .f32⟩ : BufTy).Contents (Elt F) → (⟨S_, .f32⟩ : BufTy).Contents (Elt F)),
    nullary main_cst_10 (constant S_ .f32 0x40000000#32),
    binary main_v28 main_cst_10 main_v29 (Host.divf : (⟨S_, .f32⟩ : BufTy).Contents (Elt F) → (⟨S_, .f32⟩ : BufTy).Contents (Elt F) → (⟨S_, .f32⟩ : BufTy).Contents (Elt F)),
    binary main_v26 main_v29 main_v30 (addf : (⟨S_, .f32⟩ : BufTy).Contents (Elt F) → (⟨S_, .f32⟩ : BufTy).Contents (Elt F) → (⟨S_, .f32⟩ : BufTy).Contents (Elt F)),
    unary main_v21 main_v31 (broadcastInDim S1x8192 ![1] bcast_S8192_S1x8192_1 : (⟨S8192, .f32⟩ : BufTy).Contents (Elt F) → (⟨S1x8192, .f32⟩ : BufTy).Contents (Elt F)),
    unary main_arg2 main_v32 (broadcastInDim S2x1 ![0] bcast_S2_S2x1_0 : (⟨S2, .f32⟩ : BufTy).Contents (Elt F) → (⟨S2x1, .f32⟩ : BufTy).Contents (Elt F)),
    unary main_v31 main_v33 (broadcastInDim S2x8192 ![0, 1] bcast_S1x8192_S2x8192_0_1 : (⟨S1x8192, .f32⟩ : BufTy).Contents (Elt F) → (⟨S2x8192, .f32⟩ : BufTy).Contents (Elt F)),
    unary main_v32 main_v34 (broadcastInDim S2x8192 ![0, 1] bcast_S2x1_S2x8192_0_1 : (⟨S2x1, .f32⟩ : BufTy).Contents (Elt F) → (⟨S2x8192, .f32⟩ : BufTy).Contents (Elt F)),
    binary main_v33 main_v34 main_v35 (cmpf .ole : (⟨S2x8192, .f32⟩ : BufTy).Contents (Elt F) → (⟨S2x8192, .f32⟩ : BufTy).Contents (Elt F) → (⟨S2x8192, .i1⟩ : BufTy).Contents (Elt F)),
    unary main_v35 main_v36 ((extui 32 · natLt_1_32) : (⟨S2x8192, .i1⟩ : BufTy).Contents (Elt F) → (⟨S2x8192, .i32⟩ : BufTy).Contents (Elt F)),
    nullary main_c (constantI S_ 32 0#32),
    binary main_v36 main_c main_v37 ((fun x v => Host.reduce IntOp.addi x v reducesTo_S2x8192_S2_d1 h_S_) : (⟨S2x8192, .i32⟩ : BufTy).Contents (Elt F) → (⟨S_, .i32⟩ : BufTy).Contents (Elt F) → (⟨S2, .i32⟩ : BufTy).Contents (Elt F)),
    unary main_v37 main_v38 (sitofp .f32 : (⟨S2, .i32⟩ : BufTy).Contents (Elt F) → (⟨S2, .f32⟩ : BufTy).Contents (Elt F)),
    nullary main_cst_11 (constant S_ .f32 0x3C480000#32),
    unary main_cst_11 main_v39 (broadcastInDim S2 ![] bcast_S_S2 : (⟨S_, .f32⟩ : BufTy).Contents (Elt F) → (⟨S2, .f32⟩ : BufTy).Contents (Elt F)),
    binary main_v39 main_v38 main_v40 (mulf : (⟨S2, .f32⟩ : BufTy).Contents (Elt F) → (⟨S2, .f32⟩ : BufTy).Contents (Elt F) → (⟨S2, .f32⟩ : BufTy).Contents (Elt F)),
    unary main_v23 main_v41 (broadcastInDim S1x8192 ![1] bcast_S8192_S1x8192_1 : (⟨S8192, .f32⟩ : BufTy).Contents (Elt F) → (⟨S1x8192, .f32⟩ : BufTy).Contents (Elt F)),
    unary main_arg2 main_v42 (broadcastInDim S2x1 ![0] bcast_S2_S2x1_0 : (⟨S2, .f32⟩ : BufTy).Contents (Elt F) → (⟨S2x1, .f32⟩ : BufTy).Contents (Elt F)),
    unary main_v41 main_v43 (broadcastInDim S2x8192 ![0, 1] bcast_S1x8192_S2x8192_0_1 : (⟨S1x8192, .f32⟩ : BufTy).Contents (Elt F) → (⟨S2x8192, .f32⟩ : BufTy).Contents (Elt F)),
    unary main_v42 main_v44 (broadcastInDim S2x8192 ![0, 1] bcast_S2x1_S2x8192_0_1 : (⟨S2x1, .f32⟩ : BufTy).Contents (Elt F) → (⟨S2x8192, .f32⟩ : BufTy).Contents (Elt F)),
    binary main_v43 main_v44 main_v45 (cmpf .ole : (⟨S2x8192, .f32⟩ : BufTy).Contents (Elt F) → (⟨S2x8192, .f32⟩ : BufTy).Contents (Elt F) → (⟨S2x8192, .i1⟩ : BufTy).Contents (Elt F)),
    unary main_v45 main_v46 ((extui 32 · natLt_1_32) : (⟨S2x8192, .i1⟩ : BufTy).Contents (Elt F) → (⟨S2x8192, .i32⟩ : BufTy).Contents (Elt F)),
    nullary main_c_12 (constantI S_ 32 0#32),
    binary main_v46 main_c_12 main_v47 ((fun x v => Host.reduce IntOp.addi x v reducesTo_S2x8192_S2_d1 h_S_) : (⟨S2x8192, .i32⟩ : BufTy).Contents (Elt F) → (⟨S_, .i32⟩ : BufTy).Contents (Elt F) → (⟨S2, .i32⟩ : BufTy).Contents (Elt F)),
    unary main_v47 main_v48 (sitofp .f32 : (⟨S2, .i32⟩ : BufTy).Contents (Elt F) → (⟨S2, .f32⟩ : BufTy).Contents (Elt F)),
    nullary main_cst_13 (constant S_ .f32 0x3C480000#32),
    unary main_cst_13 main_v49 (broadcastInDim S2 ![] bcast_S_S2 : (⟨S_, .f32⟩ : BufTy).Contents (Elt F) → (⟨S2, .f32⟩ : BufTy).Contents (Elt F)),
    binary main_v49 main_v48 main_v50 (mulf : (⟨S2, .f32⟩ : BufTy).Contents (Elt F) → (⟨S2, .f32⟩ : BufTy).Contents (Elt F) → (⟨S2, .f32⟩ : BufTy).Contents (Elt F)),
    nullary main_cst_14 (constant S_ .f32 0x40000000#32),
    unary main_cst_14 main_v51 (broadcastInDim S2 ![] bcast_S_S2 : (⟨S_, .f32⟩ : BufTy).Contents (Elt F) → (⟨S2, .f32⟩ : BufTy).Contents (Elt F)),
    binary main_v51 main_v40 main_v52 (mulf : (⟨S2, .f32⟩ : BufTy).Contents (Elt F) → (⟨S2, .f32⟩ : BufTy).Contents (Elt F) → (⟨S2, .f32⟩ : BufTy).Contents (Elt F)),
    binary main_v52 main_v50 main_v53 (mulf : (⟨S2, .f32⟩ : BufTy).Contents (Elt F) → (⟨S2, .f32⟩ : BufTy).Contents (Elt F) → (⟨S2, .f32⟩ : BufTy).Contents (Elt F)),
    binary main_v40 main_v50 main_v54 (addf : (⟨S2, .f32⟩ : BufTy).Contents (Elt F) → (⟨S2, .f32⟩ : BufTy).Contents (Elt F) → (⟨S2, .f32⟩ : BufTy).Contents (Elt F)),
    nullary main_cst_15 (constant S_ .f32 0x322BCC77#32),
    unary main_cst_15 main_v55 (broadcastInDim S2 ![] bcast_S_S2 : (⟨S_, .f32⟩ : BufTy).Contents (Elt F) → (⟨S2, .f32⟩ : BufTy).Contents (Elt F)),
    binary main_v54 main_v55 main_v56 (addf : (⟨S2, .f32⟩ : BufTy).Contents (Elt F) → (⟨S2, .f32⟩ : BufTy).Contents (Elt F) → (⟨S2, .f32⟩ : BufTy).Contents (Elt F)),
    binary main_v53 main_v56 main_v57 (Host.divf : (⟨S2, .f32⟩ : BufTy).Contents (Elt F) → (⟨S2, .f32⟩ : BufTy).Contents (Elt F) → (⟨S2, .f32⟩ : BufTy).Contents (Elt F)),
    unary main_v30 main_v58 (broadcastInDim S1 ![] bcast_S_S1 : (⟨S_, .f32⟩ : BufTy).Contents (Elt F) → (⟨S1, .f32⟩ : BufTy).Contents (Elt F)),
    unary main_v57 main_v59 (id : (⟨S2, .f32⟩ : BufTy).Contents (Elt F) → (⟨S2, .f32⟩ : BufTy).Contents (Elt F)) ]

/-- Operation 79: the two pieces joined. -/
abbrev ops3 : List (HloOp τ sig (Elt F)) :=
  [ binary main_v58 main_v59 main_v60 ((fun a b => concatenate S3 0 [⟨S1, a⟩, ⟨S2, b⟩] concatenates_S1_S2_S3_d0) : (⟨S1, .f32⟩ : BufTy).Contents (Elt F) → (⟨S2, .f32⟩ : BufTy).Contents (Elt F) → (⟨S3, .f32⟩ : BufTy).Contents (Elt F)) ]

set_option maxRecDepth 8192 in
set_option maxHeartbeats 4000000 in
theorem main_eq (c : Dev nD) : main (F := F) c = seq (ops1 ++ ops2 ++ ops3) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨reshape_bufs_sub .., unary_bufs_sub .., reshape_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., nullary_bufs_sub .., binary_bufs_sub .., unary_bufs_sub ..⟩
set_option maxRecDepth 8192 in
theorem ops2_sub : (ops2 : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., unary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., unary_bufs_sub ..⟩
theorem ops3_sub : (ops3 : List (HloOp τ sig (Elt F))).Forall fun op => op.bufs ⊆ tcRefs τ sig :=
  binary_bufs_sub ..

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first piece of the result, as a function of the two vectors of distances. -/
def tailHead (fwd bwd : FVec Ideal S8192 .f32) : FVec Ideal S1 .f32 :=
  (broadcastInDim S1 ![] bcast_S_S1 (addf (Host.divf (Host.divf (Host.reduceAdd fwd (constant S_ .f32 0x00000000#32) reducesTo_S8192_S_d0 h_S_) (constant S_ .f32 0x46000000#32)) (constant S_ .f32 0x40000000#32)) (Host.divf (Host.divf (Host.reduceAdd bwd (constant S_ .f32 0x00000000#32) reducesTo_S8192_S_d0 h_S_) (constant S_ .f32 0x46000000#32)) (constant S_ .f32 0x40000000#32))))

/-- The second piece of the result, as a function of the two vectors of distances and the thresholds. -/
def tailRest (fwd bwd : FVec Ideal S8192 .f32) (thr : FVec Ideal S2 .f32) : FVec Ideal S2 .f32 :=
  (id (Host.divf (mulf (mulf (broadcastInDim S2 ![] bcast_S_S2 (constant S_ .f32 0x40000000#32)) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 fwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 bwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (addf (addf (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 fwd)) (broadcastInDim S2x8192 ![0, 1] bcast_S2x1_S2x8192_0_1 (broadcastInDim S2x1 ![0] bcast_S2_S2x1_0 thr))) natLt_1_32) (constantI S_ 32 0#32) reducesTo_S2x8192_S2_d1 h_S_))) (mulf (broadcastInDim S2 ![] bcast_S_S2 (constant S_ .f32 0x3C480000#32)) (sitofp .f32 (Host.reduce IntOp.addi (extui 32 (cmpf .ole (broadcastInDim S2x8192 ![0, 1] bcast_S1x8192_S2x8192_0_1 (broadcastInDim S1x8192 ![1] bcast_S8192_S1x8192_1 bwd)) (broadcastInDim S2x8192 ![0, 1] bcast_S2x1_S2x8192_0_1 (broadcastInDim S2x1 ![0] bcast_S2_S2x1_0 thr))) natLt_1_32) (constantI S_ 32 0#32) reducesTo_S2x8192_S2_d1 h_S_)))) (broadcastInDim S2 ![] bcast_S_S2 (constant S_ .f32 0x322BCC77#32)))))

theorem tail_eq (fwd bwd : FVec Ideal S8192 .f32) (thr : FVec Ideal S2 .f32) :
    Cert.Chamfer.Tail fwd bwd thr
      = concatenate S3 0 [⟨S1, tailHead fwd bwd⟩, ⟨S2, tailRest fwd bwd thr⟩] concatenates_S1_S2_S3_d0 := by
  rfl

set_option maxRecDepth 8192 in
set_option maxHeartbeats 4000000 in
/-- The first piece after operations 31 … 78, from any contents. -/
theorem after_ops2_v58 (W : Valuation τ sig (Elt Ideal)) :
    after (ops2 (F := Ideal)) W (Proc.devRef .tc main_v58)
      = tailHead (W (Proc.devRef .tc main_v21)) (W (Proc.devRef .tc main_v23)) := by
  after_results_simp
  rfl

set_option maxRecDepth 8192 in
set_option maxHeartbeats 4000000 in
/-- The second piece after operations 31 … 78, from any contents. -/
theorem after_ops2_v59 (W : Valuation τ sig (Elt Ideal)) :
    after (ops2 (F := Ideal)) W (Proc.devRef .tc main_v59)
      = tailRest (W (Proc.devRef .tc main_v21)) (W (Proc.devRef .tc main_v23)) (W (Proc.devRef .tc main_arg2)) := by
  after_results_simp
  rfl

/-- The result after operation 79, from any contents: the two pieces joined. -/
theorem after_ops3_v60 (W : Valuation τ sig (Elt Ideal)) :
    after (ops3 (F := Ideal)) W (Proc.devRef .tc main_v60)
      = concatenate S3 0 [⟨S1, W (Proc.devRef .tc main_v58)⟩, ⟨S2, W (Proc.devRef .tc main_v59)⟩] concatenates_S1_S2_S3_d0 := by
  after_results

set_option maxRecDepth 8192 in
set_option maxHeartbeats 4000000 in
/-- The forward distances after operations 1 … 30. -/
theorem after_ops1_v21 (V : Valuation τ sig (Elt Ideal)) :
    after (ops1 (F := Ideal)) V (Proc.devRef .tc main_v21)
      = val_main_v21 (F := Ideal) (V (Proc.devRef .tc main_arg0)) (V (Proc.devRef .tc main_arg1)) := by
  after_results_simp
  rfl

set_option maxRecDepth 8192 in
set_option maxHeartbeats 4000000 in
/-- The backward distances after operations 1 … 30. -/
theorem after_ops1_v23 (V : Valuation τ sig (Elt Ideal)) :
    after (ops1 (F := Ideal)) V (Proc.devRef .tc main_v23)
      = val_main_v23 (F := Ideal) (V (Proc.devRef .tc main_arg0)) (V (Proc.devRef .tc main_arg1)) := by
  after_results_simp
  rfl

set_option maxRecDepth 8192 in
set_option maxHeartbeats 4000000 in
/-- No operation writes an argument array. -/
theorem after_ops1_args (W : Valuation τ sig (Elt Ideal)) :
    after (ops1 (F := Ideal)) W (Proc.devRef .tc main_arg0) = W (Proc.devRef .tc main_arg0)
    ∧ after (ops1 (F := Ideal)) W (Proc.devRef .tc main_arg1) = W (Proc.devRef .tc main_arg1)
    ∧ after (ops1 (F := Ideal)) W (Proc.devRef .tc main_arg2) = W (Proc.devRef .tc main_arg2) := by
  refine ⟨?_, ?_, ?_⟩ <;> (after_results_simp <;> rfl)

set_option maxRecDepth 8192 in
set_option maxHeartbeats 4000000 in
theorem after_ops2_args (W : Valuation τ sig (Elt Ideal)) :
    after (ops2 (F := Ideal)) W (Proc.devRef .tc main_arg0) = W (Proc.devRef .tc main_arg0)
    ∧ after (ops2 (F := Ideal)) W (Proc.devRef .tc main_arg1) = W (Proc.devRef .tc main_arg1)
    ∧ after (ops2 (F := Ideal)) W (Proc.devRef .tc main_arg2) = W (Proc.devRef .tc main_arg2) := by
  refine ⟨?_, ?_, ?_⟩ <;> (after_results_simp <;> rfl)

theorem after_ops3_args (W : Valuation τ sig (Elt Ideal)) :
    after (ops3 (F := Ideal)) W (Proc.devRef .tc main_arg0) = W (Proc.devRef .tc main_arg0)
    ∧ after (ops3 (F := Ideal)) W (Proc.devRef .tc main_arg1) = W (Proc.devRef .tc main_arg1)
    ∧ after (ops3 (F := Ideal)) W (Proc.devRef .tc main_arg2) = W (Proc.devRef .tc main_arg2) := by
  refine ⟨?_, ?_, ?_⟩ <;> (after_results_simp <;> rfl)

/-- The result array after the whole line, from any contents `V`. -/
theorem after_ops_v60 (V : Valuation τ sig (Elt Ideal)) :
    after (ops1 (F := Ideal) ++ ops2 ++ ops3) V (Proc.devRef .tc main_v60)
      = Cert.Chamfer.Tail (val_main_v21 (F := Ideal) (V (Proc.devRef .tc main_arg0)) (V (Proc.devRef .tc main_arg1)))
          (val_main_v23 (F := Ideal) (V (Proc.devRef .tc main_arg0)) (V (Proc.devRef .tc main_arg1))) (V (Proc.devRef .tc main_arg2)) := by
  rw [after_append, after_append, after_ops3_v60, after_ops2_v58, after_ops2_v59, after_ops1_v21, after_ops1_v23,
    (after_ops1_args V).2.2, tail_eq]

/-- The argument arrays after the whole line, from any contents `V`. -/
theorem after_ops_args (V : Valuation τ sig (Elt Ideal)) :
    after (ops1 (F := Ideal) ++ ops2 ++ ops3) V (Proc.devRef .tc main_arg0) = V (Proc.devRef .tc main_arg0)
    ∧ after (ops1 (F := Ideal) ++ ops2 ++ ops3) V (Proc.devRef .tc main_arg1) = V (Proc.devRef .tc main_arg1)
    ∧ after (ops1 (F := Ideal) ++ ops2 ++ ops3) V (Proc.devRef .tc main_arg2) = V (Proc.devRef .tc main_arg2) := by
  rw [after_append, after_append]
  refine ⟨?_, ?_, ?_⟩
  · rw [(after_ops3_args _).1, (after_ops2_args _).1, (after_ops1_args _).1]
  · rw [(after_ops3_args _).2.1, (after_ops2_args _).2.1, (after_ops1_args _).2.1]
  · rw [(after_ops3_args _).2.2, (after_ops2_args _).2.2, (after_ops1_args _).2.2]

theorem ops_sub : (ops1 ++ ops2 ++ ops3 : List (HloOp τ sig (Elt F))).Forall fun op => op.bufs ⊆ tcRefs τ sig :=
  List.forall_append.mpr ⟨List.forall_append.mpr ⟨ops1_sub, ops2_sub⟩, ops3_sub⟩

/-- On every device, from any memory with zero counters: every weakly fair execution of @main terminates with the
    result array at `Tail` of the two vectors of distances of the launch's clouds and of its thresholds, and the
    argument arrays unchanged. -/
theorem run_core (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
          = Cert.Chamfer.Tail (val_main_v21 (F := Ideal) (m ((c.tc : Thread nD τ).loc main_arg0)) (m ((c.tc : Thread nD τ).loc main_arg1)))
              (val_main_v23 (F := Ideal) (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v60).trans (after_ops_v60 _),
      (h c main_arg0).trans (after_ops_args _).1,
      (h c main_arg1).trans (after_ops_args _).2.1,
      (h c main_arg2).trans (after_ops_args _).2.2⟩)
    (run_seq scopedRefs_eq scopedSems_eq defs main (fun _ => ops1 ++ ops2 ++ ops3) main_eq (fun _ => ops_sub) m ρ)

end Cert.ReferenceIdeal.RefValue

end
-- ==== Proof.LibFiniteInputs.lean ====
/-
  Finite inputs, read out of a printed precondition.

  A precondition "every entry of `x` is finite" is written `jnp.all(jnp.abs(x) < inf)` and prints, per array, as a reduction by
  `and` from the constant 1 of the elementwise test `|x| < +∞` (the bound broadcast from a scalar constant), the per-array results
  joined by `and`. On the extended reals, where there is no NaN, the test at an entry says that neither `x` nor `-x` is `+∞`:
  the entry is a real number. `all_real`: from one array's reduction being 1, every entry of that array is a real, for any shape,
  any reduced axes and any broadcast of the bound. The joined results are split by `IntOp.andi_eq_one`.
-/
import Idealize.ShloMosaic.PureOps
import Idealize.ShloMosaic.PureOps.Ideal
import Idealize.ShloMosaic.PureOps.Ideal.Laws
import Idealize.ShloMosaic.Lib.ReduceAll

noncomputable section

namespace FiniteInputs

open Idealize.ShloMosaic

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 word of `+∞` denotes the top of the extended reals. -/
theorem ofBits_inf : Ideal.ofBits .f32 0x7F800000#32 = (⊤ : EReal) := by
  simp [Ideal.ofBits, Ideal.ieee]

/-- One entry's test: `|x| < +∞` answered 1 makes `x` a real number. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- THE ARRAY FORM. If the printed `jnp.all(jnp.abs(x) < inf)` of an array is 1 — the reduction by `and` (over any axes, into a
    result of one index, from any initial value) of the elementwise comparison of `|x|` with the broadcast word of `+∞` —, then
    every entry of `x` is a real number. -/
theorem all_real {S T U Z : Shape} [Subsingleton T.Idx] {axes : List (Fin S.rank)} {dims : Fin Z.rank → Fin S.rank}
    (x : FVec Ideal S .f32) (hb : Z.BroadcastsInDim S dims) (init : U.Idx → BitVec 1) (hred : S.ReducesTo axes T)
    (hu : 0 < U.numel) (j : T.Idx)
    (h : Host.reduce IntOp.andi (cmpf .olt (Host.absf x) (broadcastInDim S dims hb (constant (F := Ideal) Z .f32 0x7F800000#32)))
        init hred hu j = 1#1)
    (i : S.Idx) : ∃ r : ℝ, x i = (r : EReal) := by
  have e := Host.reduce_andi_all _ init hred hu j h i
  exact real_of_test (x i) e

end FiniteInputs

end
-- ==== Proof.RefRead.lean ====
/-
  The reference's two vectors of distances, index by index.

  The reference reshapes each cloud [1, 3, 8192] to [3, 8192] and transposes it to [8192, 3]: row `a`, column `d` is
  coordinate `d` of point `a` (`v1_at`, `v3_at`; `v13_at` for the second cloud transposed back). The row sums of the
  squared entries are the squared norms (`v5_at`, `v8_at`: a sum over the three coordinates started from the word of
  zero, and `0 + x = x`); the matrix product of the first cloud with the transposed second is, at (a, b), the inner
  product of point `a` and point `b` (`v14_at`). Broadcast along rows and columns, added, less twice the product
  (the word `0x40000000` is the number 2) and clamped below at zero (the word of zero), the [8192, 8192] array holds at
  (a, b) the clamped squared distance `dist2 x0 x1 a b` (`v19_at`). Every step is an identity of extended reals: no
  entry is assumed finite.
  A reduction by `min` along one axis from the word of +∞ is, at each index of the result, a fold of `min` from `⊤` over the
  reduced axis's coordinates, which is the infimum (`fold_min_top`): along the columns the least over the second cloud
  (`v20_at`), along the rows the least over the first (`v22_at`). Their square roots are the forward and the backward
  distances: `val_main_v21_eq_Fwd`, `val_main_v23_eq_Bwd`.
-/
import proofs.«136692_j54992761258145_2_alg».proof.Proof.Spec
import proofs.«136692_j54992761258145_2_alg».proof.Proof.RefReadGen
import proofs.«136692_j54992761258145_2_alg».proof.Proof.LibFiniteInputs
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Chamfer
open scoped BigOperators

/-- The single-precision word `0x40000000` (exponent field 128, significand 0) denotes the number 2. -/
theorem ofBits_two : Ideal.ofBits .f32 0x40000000#32 = 2 := by
  simp [Ideal.ofBits, Ideal.ieee]
  rw [← EReal.coe_mul]
  have h : (8388608 : ℝ) * ((2 : ℝ) ^ 22)⁻¹ = 2 := by norm_num
  rw [h]
  rfl

/-- Row `a`, column `d` of the first cloud reshaped to [3, 8192] and transposed is coordinate `d` of point `a`. -/
theorem v1_at (x0 : FVec Ideal S1x3x8192 .f32) (a : Fin 8192) (d : Fin 3) :
    val_main_v1 (F := Ideal) x0 (ix2 a d) = pt x0 d a := by
  rw [val_main_v1_apply, val_main_v0_apply]
  show x0 _ = x0 (ix3 (0 : Fin 1) d a)
  refine congrArg x0 (funext fun e => ?_)
  have ha := a.isLt
  have hd := d.isLt
  match e with
  | ⟨0, _⟩ => exact Fin.ext rfl
  | ⟨1, _⟩ => exact Fin.ext (by show (d.val * 8192 + a.val) / 8192 % 3 = d.val; omega)
  | ⟨2, _⟩ => exact Fin.ext (by show (d.val * 8192 + a.val) % 8192 = a.val; omega)

/-- The same for the second cloud. -/
theorem v3_at (x1 : FVec Ideal S1x3x8192 .f32) (b : Fin 8192) (d : Fin 3) :
    val_main_v3 (F := Ideal) x1 (ix2 b d) = pt x1 d b := by
  rw [val_main_v3_apply, val_main_v2_apply]
  show x1 _ = x1 (ix3 (0 : Fin 1) d b)
  refine congrArg x1 (funext fun e => ?_)
  have hb := b.isLt
  have hd := d.isLt
  match e with
  | ⟨0, _⟩ => exact Fin.ext rfl
  | ⟨1, _⟩ => exact Fin.ext (by show (d.val * 8192 + b.val) / 8192 % 3 = d.val; omega)
  | ⟨2, _⟩ => exact Fin.ext (by show (d.val * 8192 + b.val) % 8192 = b.val; omega)

/-- The second cloud transposed back to [3, 8192]. -/
theorem v13_at (x1 : FVec Ideal S1x3x8192 .f32) (d : Fin 3) (b : Fin 8192) :
    val_main_v13 (F := Ideal) x1 (ix2 d b) = pt x1 d b := by
  rw [val_main_v13_apply]
  have e : idx_main_v13 (ix2 d b) = ix2 b d := funext fun e => by match e with | ⟨0, _⟩ => rfl | ⟨1, _⟩ => rfl
  rw [e, v3_at]

/-- The row sums of the squared coordinates: the squared norm of point `a` of the first cloud. -/
theorem v5_at (x0 : FVec Ideal S1x3x8192 .f32) (a : Fin 8192) :
    val_main_v5 (F := Ideal) x0 (ix1 a) = nsq x0 a := by
  rw [val_main_v5_apply, val_main_cst_apply, Ideal.ofBits_def, Ideal.ofBits_zero_f32, zero_add]
  show _ = ∑ d : Fin 3, pt x0 d a * pt x0 d a
  refine Finset.sum_congr rfl fun k _ => ?_
  have e : idx_main_v5 (ix1 a) k = ix2 a k := funext fun e => by match e with | ⟨0, _⟩ => rfl | ⟨1, _⟩ => rfl
  rw [e, val_main_v4_apply, v1_at]
  rfl

/-- The squared norm of point `b` of the second cloud. -/
theorem v8_at (x1 : FVec Ideal S1x3x8192 .f32) (b : Fin 8192) :
    val_main_v8 (F := Ideal) x1 (ix1 b) = nsq x1 b := by
  rw [val_main_v8_apply, val_main_cst_0_apply, Ideal.ofBits_def, Ideal.ofBits_zero_f32, zero_add]
  show _ = ∑ d : Fin 3, pt x1 d b * pt x1 d b
  refine Finset.sum_congr rfl fun k _ => ?_
  have e : idx_main_v8 (ix1 b) k = ix2 b k := funext fun e => by match e with | ⟨0, _⟩ => rfl | ⟨1, _⟩ => rfl
  rw [e, val_main_v7_apply, v3_at]
  rfl

/-- The matrix product at (a, b): the inner product of point `a` of the first cloud and point `b` of the second. -/
theorem v14_at (x0 x1 : FVec Ideal S1x3x8192 .f32) (a b : Fin 8192) :
    val_main_v14 (F := Ideal) x0 x1 (ix2 a b) = ∑ d : Fin 3, pt x0 d a * pt x1 d b := by
  rw [val_main_v14_apply]
  refine Finset.sum_congr rfl fun k _ => ?_
  have el : lidx_main_v14 (ix2 a b) k = ix2 a k := funext fun e => by match e with | ⟨0, _⟩ => rfl | ⟨1, _⟩ => rfl
  have er : ridx_main_v14 (ix2 a b) k = ix2 k b := funext fun e => by match e with | ⟨0, _⟩ => rfl | ⟨1, _⟩ => rfl
  rw [el, er, v1_at, v13_at]

/-- The clamped squared distances at (a, b). -/
theorem v19_at (x0 x1 : FVec Ideal S1x3x8192 .f32) (a b : Fin 8192) :
    val_main_v19 (F := Ideal) x0 x1 (ix2 a b) = dist2 x0 x1 a b := by
  have e5 : idx_main_v6 (idx_main_v10 (ix2 a b)) = ix1 a := funext fun e => by match e with | ⟨0, _⟩ => rfl
  have e8 : idx_main_v9 (idx_main_v11 (ix2 a b)) = ix1 b := funext fun e => by match e with | ⟨0, _⟩ => rfl
  rw [val_main_v19_apply, val_main_v17_apply, val_main_v12_apply, val_main_v16_apply, val_main_v10_apply,
    val_main_v6_apply, val_main_v11_apply, val_main_v9_apply, val_main_v15_apply, val_main_v18_apply,
    val_main_cst_1_apply, val_main_cst_2_apply, v14_at, e5, e8, v5_at, v8_at, Ideal.ofBits_def, Ideal.ofBits_def,
    ofBits_two, Ideal.ofBits_zero_f32]
  rfl

/-- Over result index `j` of the row-wise reduction, the source index with column `k` is `(j 0, k)`. -/
theorem lift_d1 (h : S8192x8192.Reduces [1] S8192) (j : S8192.Idx) (k : Fin 8192) :
    h.lift j k = ix2 (j 0) k := by
  funext c
  match c with
  | ⟨0, _⟩ => exact Fin.ext rfl
  | ⟨1, _⟩ => exact Fin.ext rfl

/-- Over result index `j` of the column-wise reduction, the source index with row `k` is `(k, j 0)`. -/
theorem lift_d0 (h : S8192x8192.Reduces [0] S8192) (j : S8192.Idx) (k : Fin 8192) :
    h.lift j k = ix2 k (j 0) := by
  funext c
  match c with
  | ⟨0, _⟩ => exact Fin.ext rfl
  | ⟨1, _⟩ => exact Fin.ext rfl

/-- A fold of `min` from the top element over a whole finite type is the infimum. -/
theorem fold_min_top {ι : Type} [Fintype ι] (f : ι → EReal) :
    (Finset.univ : Finset ι).fold (fun x y : EReal => min x y) ⊤ f = Finset.univ.inf f := by
  apply le_antisymm
  · exact Finset.le_inf fun b hb => ((Finset.le_fold_min (s := Finset.univ) (f := f) (b := ⊤) _).mp le_rfl).2 b hb
  · exact (Finset.le_fold_min _).mpr ⟨le_top, fun b hb => Finset.inf_le hb⟩

/-- The same with the minimum written as the float operation it is at the ideal instance. -/
theorem fold_minimumf_top {ι : Type} [Fintype ι] (f : ι → EReal) :
    (Finset.univ : Finset ι).fold (FloatOps.minimumf (F := Ideal) (φ := .f32)) ⊤ f = Finset.univ.inf f :=
  fold_min_top f

/-- The row-wise least of the clamped squared distances. -/
theorem v20_at (x0 x1 : FVec Ideal S1x3x8192 .f32) (a : Fin 8192) :
    val_main_v20 (F := Ideal) x0 x1 (ix1 a) = Finset.univ.inf fun b : Fin 8192 => dist2 x0 x1 a b := by
  have h : S8192x8192.Reduces [1] S8192 := by decide
  unfold val_main_v20
  rw [Host.reduce_eq_fold_single FloatOps.minimumf _ _ reducesTo_S8192x8192_S8192_d1 h h_S_ (ix1 a), val_main_cst_3_apply,
    Ideal.ofBits_def, FiniteInputs.ofBits_inf, fold_minimumf_top]
  exact congrArg Finset.univ.inf (funext fun b =>
    (congrArg (val_main_v19 (F := Ideal) x0 x1) (lift_d1 h (ix1 a) b)).trans (v19_at x0 x1 a b))

/-- The column-wise least of the clamped squared distances. -/
theorem v22_at (x0 x1 : FVec Ideal S1x3x8192 .f32) (b : Fin 8192) :
    val_main_v22 (F := Ideal) x0 x1 (ix1 b) = Finset.univ.inf fun a : Fin 8192 => dist2 x0 x1 a b := by
  have h : S8192x8192.Reduces [0] S8192 := by decide
  unfold val_main_v22
  rw [Host.reduce_eq_fold_single FloatOps.minimumf _ _ reducesTo_S8192x8192_S8192_d0 h h_S_ (ix1 b), val_main_cst_4_apply,
    Ideal.ofBits_def, FiniteInputs.ofBits_inf, fold_minimumf_top]
  exact congrArg Finset.univ.inf (funext fun a =>
    (congrArg (val_main_v19 (F := Ideal) x0 x1) (lift_d0 h (ix1 b) a)).trans (v19_at x0 x1 a b))

/-- The reference's vector of forward distances is `Fwd`. -/
theorem val_main_v21_eq_Fwd (x0 x1 : FVec Ideal S1x3x8192 .f32) : val_main_v21 (F := Ideal) x0 x1 = Fwd x0 x1 := by
  funext j
  obtain ⟨a, rfl⟩ : ∃ a : Fin 8192, j = ix1 a := ⟨j 0, eq_ix1 j⟩
  rw [val_main_v21_apply, Ideal.hostUnary_sqrt_def, v20_at]
  rfl

/-- The reference's vector of backward distances is `Bwd`. -/
theorem val_main_v23_eq_Bwd (x0 x1 : FVec Ideal S1x3x8192 .f32) : val_main_v23 (F := Ideal) x0 x1 = Bwd x0 x1 := by
  funext j
  obtain ⟨b, rfl⟩ : ∃ b : Fin 8192, j = ix1 b := ⟨j 0, eq_ix1 j⟩
  rw [val_main_v23_apply, Ideal.hostUnary_sqrt_def, v22_at]
  rfl

end Cert.ReferenceIdeal.RefValue

end
-- ==== Proof.RefValue.lean ====
/-
  The reference's result as a function of its arguments.

  Every weakly fair execution of the reference's @main terminates; the result array then holds `Cert.Chamfer.Out` of
  the three argument arrays' launch contents — the chain `Tail` applied to the vector of forward distances, the
  vector of backward distances and the thresholds — and the argument arrays are unchanged. The run gives the result
  as `Tail` of the program's own two vectors of distances; index by index those are `Fwd` and `Bwd`.
-/
import proofs.«136692_j54992761258145_2_alg».proof.Proof.RefRun
import proofs.«136692_j54992761258145_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v60)
          = Cert.Chamfer.Out (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2) :=
  (θ_run defs _ _).mono (fun _ h c => ⟨(h c).1.trans (by rw [val_main_v21_eq_Fwd, val_main_v23_eq_Bwd]; rfl), (h c).2⟩)
    (run_core m ρ)

end Cert.ReferenceIdeal.RefValue

end
-- ==== Proof.LibInfSqrt.lean ====
/-
  Least elements, the square root, and splitting an index range, on the extended reals.

  The square root on the extended reals (`√⊥ = ⊥`, `√⊤ = ⊤`, `√r = ⊥` for a negative real `r` and the
  real square root otherwise) is monotone and sends `⊤` to `⊤`.  On a linear order a monotone map
  commutes with the minimum of two elements, hence with the least element of a finite family
  (`Finset.inf`, which is `⊤` for the empty family).  This file records that:

  * `sqrt_mono`, `sqrt_min`, `sqrt_inf`: the square root is monotone and commutes with `min` and with
    `Finset.inf`;
  * `fold_min_eq_inf`: folding `min` from `⊤` over a finite family is its `Finset.inf`;
  * `inf_halves_of_eq`: the least element over a range of `n + n` indices is the smaller of the least
    over the first `n` and the least over the last `n` (`inf_halves`: at `4096 + 4096`);
  * `inf_blocks_of_eq`: the least element over `a * b` consecutive indices is the least, over the `a`
    blocks of `b` consecutive indices, of the least within a block (`inf_blocks`: at `8 * 1024`).
-/
import Idealize.ShloMosaic.PureOps.Ideal
import Idealize.ShloMosaic.PureOps.Ideal.Laws

noncomputable section

namespace Cert.Chamfer.Math

open Idealize.ShloMosaic
open scoped BigOperators

/-! ### The square root -/

/-- The square root of the extended reals is monotone: negative numbers and `⊥` go to `⊥`, on the
    nonnegative reals it is the real square root, and `⊤` goes to `⊤`. -/
theorem sqrt_mono : Monotone Ideal.sqrt := by
  intro x y hxy
  induction x using EReal.rec with
  | bot => rw [Ideal.sqrt_bot]; exact bot_le
  | top =>
    have hy : y = ⊤ := top_le_iff.mp hxy
    rw [hy]
  | coe a =>
    induction y using EReal.rec with
    | bot => exact absurd hxy (not_le.mpr (EReal.bot_lt_coe a))
    | top => rw [Ideal.sqrt_top]; exact le_top
    | coe b =>
      have hab : a ≤ b := EReal.coe_le_coe_iff.mp hxy
      rw [Ideal.sqrt_coe, Ideal.sqrt_coe]
      by_cases ha : a < 0
      · rw [if_pos ha]; exact bot_le
      · have hb : ¬ b < 0 := fun h => ha (lt_of_le_of_lt hab h)
        rw [if_neg ha, if_neg hb]
        exact EReal.coe_le_coe_iff.mpr (Real.sqrt_le_sqrt hab)

/-- A monotone map of a linear order commutes with the minimum. -/
theorem sqrt_min (x y : EReal) : Ideal.sqrt (min x y) = min (Ideal.sqrt x) (Ideal.sqrt y) :=
  sqrt_mono.map_min

/-- The square root commutes with the least element of a finite family; for the empty family both
    sides are `⊤`. -/
theorem sqrt_inf {ι : Type*} (s : Finset ι) (f : ι → EReal) :
    Ideal.sqrt (s.inf f) = s.inf (fun i => Ideal.sqrt (f i)) := by
  induction s using Finset.cons_induction with
  | empty => rw [Finset.inf_empty, Finset.inf_empty, Ideal.sqrt_top]
  | cons a t ha ih =>
    rw [Finset.inf_cons, Finset.inf_cons, ← ih]
    exact sqrt_min (f a) (t.inf f)

/-! ### A fold of `min` -/

theorem min_top_left (x : EReal) : min ⊤ x = x := top_inf_eq x

/-- Folding `min` from `⊤` over a finite family gives its least element. -/
theorem fold_min_eq_inf {ι : Type*} (s : Finset ι) (f : ι → EReal) : s.fold min ⊤ f = s.inf f := by
  induction s using Finset.cons_induction with
  | empty => rw [Finset.fold_empty, Finset.inf_empty]
  | cons a t ha ih =>
    rw [Finset.fold_cons, Finset.inf_cons, ih]

/-! ### Splitting an index range in two halves -/

/-- The least element over `n + n` indices is the smaller of the least over the first `n` indices and
    the least over the last `n`. -/
theorem inf_halves_of_eq {n m : ℕ} (hm : m = n + n) (f : Fin m → EReal) :
    min (Finset.univ.inf fun c : Fin n => f ⟨c.val, by omega⟩)
        (Finset.univ.inf fun c : Fin n => f ⟨n + c.val, by omega⟩) = Finset.univ.inf f := by
  apply le_antisymm
  · refine Finset.le_inf fun i _ => ?_
    by_cases hi : i.val < n
    · refine le_trans (min_le_left _ _) ?_
      exact Finset.inf_le (f := fun c : Fin n => f ⟨c.val, by omega⟩) (Finset.mem_univ (⟨i.val, hi⟩ : Fin n))
    · refine le_trans (min_le_right _ _) ?_
      have hlt : i.val - n < n := by omega
      have h := Finset.inf_le (f := fun c : Fin n => f ⟨n + c.val, by omega⟩)
        (Finset.mem_univ (⟨i.val - n, hlt⟩ : Fin n))
      have hidx : (⟨n + (i.val - n), by omega⟩ : Fin m) = i := Fin.ext (by simp only; omega)
      simp only [hidx] at h
      exact h
  · refine le_min ?_ ?_
    · exact Finset.le_inf fun c _ => Finset.inf_le (Finset.mem_univ _)
    · exact Finset.le_inf fun c _ => Finset.inf_le (Finset.mem_univ _)

/-- The split of a range of `8192 = 4096 + 4096` indices in two halves, with a `min ⊤` in front of the first. -/
theorem inf_halves (f : Fin 8192 → EReal) :
    min (min ⊤ (Finset.univ.inf fun c : Fin 4096 => f ⟨c.val, by omega⟩))
        (Finset.univ.inf fun c : Fin 4096 => f ⟨4096 + c.val, by omega⟩) = Finset.univ.inf f := by
  rw [min_top_left]
  exact inf_halves_of_eq (n := 4096) (m := 8192) (by norm_num) f

/-! ### Splitting an index range in blocks -/

/-- Index `r` of block `i`, among `a` blocks of `b` consecutive indices, lies below `a * b`. -/
theorem block_lt {a b : ℕ} (i : Fin a) (r : Fin b) : b * i.val + r.val < a * b := by
  have h1 : b * i.val + r.val < b * (i.val + 1) := by
    rw [Nat.mul_succ]; exact Nat.add_lt_add_left r.isLt _
  have h2 : b * (i.val + 1) ≤ b * a := Nat.mul_le_mul_left b i.isLt
  calc b * i.val + r.val < b * (i.val + 1) := h1
    _ ≤ b * a := h2
    _ = a * b := Nat.mul_comm b a

/-- The least element over `a * b` consecutive indices is the least over the `a` blocks of the least
    within each block of `b` consecutive indices. -/
theorem inf_blocks_of_eq {a b m : ℕ} (hm : m = a * b) (g : Fin m → EReal) :
    (Finset.univ.inf fun i : Fin a => Finset.univ.inf fun r : Fin b =>
        g ⟨b * i.val + r.val, hm ▸ block_lt i r⟩) = Finset.univ.inf g := by
  apply le_antisymm
  · refine Finset.le_inf fun j _ => ?_
    have hj : j.val < a * b := hm ▸ j.isLt
    have hb : 0 < b := by
      rcases Nat.eq_zero_or_pos b with h | h
      · rw [h, Nat.mul_zero] at hj; exact absurd hj (Nat.not_lt_zero _)
      · exact h
    have hq : j.val / b < a := Nat.div_lt_of_lt_mul (by rw [Nat.mul_comm]; exact hj)
    have hr : j.val % b < b := Nat.mod_lt _ hb
    have h1 := Finset.inf_le (f := fun i : Fin a => Finset.univ.inf fun r : Fin b =>
        g ⟨b * i.val + r.val, hm ▸ block_lt i r⟩) (Finset.mem_univ (⟨j.val / b, hq⟩ : Fin a))
    have h2 := Finset.inf_le (f := fun r : Fin b =>
        g ⟨b * (⟨j.val / b, hq⟩ : Fin a).val + r.val, hm ▸ block_lt ⟨j.val / b, hq⟩ r⟩)
        (Finset.mem_univ (⟨j.val % b, hr⟩ : Fin b))
    have hidx : (⟨b * (j.val / b) + j.val % b, by rw [Nat.div_add_mod]; exact j.isLt⟩ : Fin m) = j :=
      Fin.ext (Nat.div_add_mod j.val b)
    simp only [hidx] at h2
    exact le_trans h1 h2
  · exact Finset.le_inf fun i _ => Finset.le_inf fun r _ => Finset.inf_le (Finset.mem_univ _)

/-- The split of a range of `8192 = 8 * 1024` indices in 8 blocks of 1024, with a `min ⊤` in front of
    each block's least element. -/
theorem inf_blocks (g : Fin 8192 → EReal) :
    (Finset.univ.inf fun i : Fin 8 => min ⊤ (Finset.univ.inf fun r : Fin 1024 =>
        g ⟨1024 * i.val + r.val, by omega⟩)) = Finset.univ.inf g := by
  simp only [min_top_left]
  exact inf_blocks_of_eq (a := 8) (b := 1024) (m := 8192) (by norm_num) g

end Cert.Chamfer.Math

end
-- ==== Proof.KerTail.lean ====
/-
  The kernel program's host operations after its launch.

  The launch leaves two arrays: the forward distances as one row [1, 8192], and eight rows [8, 1, 8192] of partial
  backward distances, one per block of the first cloud.  The host reshapes them to [8192] and [8, 8192], takes the
  least of the eight rows entry by entry (a reduction by `min` along axis 0 from +∞), and then applies to the two
  vectors and the thresholds the same chain of operations as the reference program: the half-sum of the two means and
  the two threshold scores.  This file says so: the result array after the host operations is `Tail` of the reshaped
  first array, the row-least of the second, and the thresholds; and it reads the reshaped first array and the row-least
  at an index.
-/
import proofs.«136692_j54992761258145_2_alg».proof.Proof.Gen.KernelIdeal.Launch
import proofs.«136692_j54992761258145_2_alg».proof.Proof.Spec
import proofs.«136692_j54992761258145_2_alg».proof.Proof.LibFiniteInputs
import proofs.«136692_j54992761258145_2_alg».proof.Proof.LibInfSqrt
import proofs.«136692_j54992761258145_2_alg».proof.Proof.RefRun
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.KTail

open Cert.KernelIdeal Cert.KernelIdeal.Gen Idealize.ShloMosaic Idealize.ShloMosaic.ValueIdx

/-- The row [1, 8192] read as a vector [8192]: entry `a` is entry (0, a). -/
theorem fwd_reshape_apply (X : FVec Ideal S1x8192 .f32) (a : Fin 8192) :
    shapeCast S8192 X shapeCasts_S1x8192_S8192 (ix1 a) = X (ix2 (0 : Fin 1) a) :=
  shapeCast_1a_a_apply X shapeCasts_S1x8192_S8192 a

/-- The least over the eight rows, at column `b`: the reduction by `min` from +∞ along axis 0 of the array
    [8, 1, 8192] read as [8, 8192] is the least of the eight entries (i, 0, b). -/
theorem bwd_least_apply (Y : FVec Ideal S8x1x8192 .f32) (b : Fin 8192) :
    Host.reduce FloatOps.minimumf (shapeCast S8x8192 Y shapeCasts_S8x1x8192_S8x8192) (constant S_ .f32 0x7F800000#32)
        reducesTo_S8x8192_S8192_d0 h_S_ (ix1 b)
      = Finset.univ.inf fun i : Fin 8 => Y (ix3 i (0 : Fin 1) b) := by
  have hR : S8x8192.Reduces [0] S8192 := by decide
  refine (Host.reduce_eq_fold_single FloatOps.minimumf _ _ reducesTo_S8x8192_S8192_d0 hR h_S_ (ix1 b)).trans ?_
  have hl : ∀ i : Fin 8, hR.lift (ix1 b) i = ix2 i b := fun i =>
    funext fun a => Fin.ext (by match a with | ⟨0, _⟩ => rfl | ⟨1, _⟩ => rfl)
  have hf : (shapeCast S8x8192 Y shapeCasts_S8x1x8192_S8x8192 ∘ hR.lift (ix1 b))
      = fun i : Fin 8 => Y (ix3 i (0 : Fin 1) b) :=
    funext fun (i : Fin 8) => by
      refine (congrArg (shapeCast S8x8192 Y shapeCasts_S8x1x8192_S8x8192) (hl i)).trans ?_
      exact shapeCast_apply Y _ _ _ (by
        rw [Shape.rowMajor_val_three, Shape.rowMajor_val_two]
        show (i.val * 1 + 0) * 8192 + b.val = i.val * 8192 + b.val
        omega)
  rw [hf]
  show Finset.univ.fold min (Ideal.ofBits .f32 0x7F800000#32) _ = _
  rw [FiniteInputs.ofBits_inf]
  exact Cert.Chamfer.Math.fold_min_eq_inf _ _

variable {F : FTy → Type} [FloatOps F]

/-- The first 52 of the host operations after the launch: the two reshapes, the least over the eight rows, and the
    operations computing the two pieces of the result. -/
abbrev opsA : List (HloOp τ sig (Elt F)) :=
  ( StableHlo.reshape main_v14_0 main_v15 rfl shapeCasts_S1x8192_S8192
  :: StableHlo.reshape main_v14_1 main_v16 rfl shapeCasts_S8x1x8192_S8x8192
  :: StableHlo.nullary main_cst_4 (constant S_ .f32 0x7F800000#32)
  :: StableHlo.binary main_v16 main_cst_4 main_v17 ((fun x v => Host.reduce FloatOps.minimumf x v reducesTo_S8x8192_S8192_d0 h_S_) : (⟨S8x8192, .f32⟩ : BufTy).Contents (Elt F) → (⟨S_, .f32⟩ : BufTy).Contents (Elt F) → (⟨S8192, .f32⟩ : BufTy).Contents (Elt F))
  :: StableHlo.nullary main_cst_5 (constant S_ .f32 0x00000000#32)
  :: StableHlo.binary main_v15 main_cst_5 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_6 (constant S_ .f32 0x46000000#32)
  :: StableHlo.binary main_v18 main_cst_6 main_v19 (Host.divf : (⟨S_, .f32⟩ : BufTy).Contents (Elt F) → (⟨S_, .f32⟩ : BufTy).Contents (Elt F) → (⟨S_, .f32⟩ : BufTy).Contents (Elt F))
  :: StableHlo.nullary main_cst_7 (constant S_ .f32 0x40000000#32)
  :: StableHlo.binary main_v19 main_cst_7 main_v20 (Host.divf : (⟨S_, .f32⟩ : BufTy).Contents (Elt F) → (⟨S_, .f32⟩ : BufTy).Contents (Elt F) → (⟨S_, .f32⟩ : BufTy).Contents (Elt F))
  :: StableHlo.nullary main_cst_8 (constant S_ .f32 0x00000000#32)
  :: StableHlo.binary main_v17 main_cst_8 main_v21 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_9 (constant S_ .f32 0x46000000#32)
  :: StableHlo.binary main_v21 main_cst_9 main_v22 (Host.divf : (⟨S_, .f32⟩ : BufTy).Contents (Elt F) → (⟨S_, .f32⟩ : BufTy).Contents (Elt F) → (⟨S_, .f32⟩ : BufTy).Contents (Elt F))
  :: StableHlo.nullary main_cst_10 (constant S_ .f32 0x40000000#32)
  :: StableHlo.binary main_v22 main_cst_10 main_v23 (Host.divf : (⟨S_, .f32⟩ : BufTy).Contents (Elt F) → (⟨S_, .f32⟩ : BufTy).Contents (Elt F) → (⟨S_, .f32⟩ : BufTy).Contents (Elt F))
  :: StableHlo.binary main_v20 main_v23 main_v24 (addf : (⟨S_, .f32⟩ : BufTy).Contents (Elt F) → (⟨S_, .f32⟩ : BufTy).Contents (Elt F) → (⟨S_, .f32⟩ : BufTy).Contents (Elt F))
  :: StableHlo.unary main_v15 main_v25 (broadcastInDim S1x8192 ![1] bcast_S8192_S1x8192_1 : (⟨S8192, .f32⟩ : BufTy).Contents (Elt F) → (⟨S1x8192, .f32⟩ : BufTy).Contents (Elt F))
  :: StableHlo.unary main_arg2 main_v26 (broadcastInDim S2x1 ![0] bcast_S2_S2x1_0 : (⟨S2, .f32⟩ : BufTy).Contents (Elt F) → (⟨S2x1, .f32⟩ : BufTy).Contents (Elt F))
  :: StableHlo.unary main_v25 main_v27 (broadcastInDim S2x8192 ![0, 1] bcast_S1x8192_S2x8192_0_1 : (⟨S1x8192, .f32⟩ : BufTy).Contents (Elt F) → (⟨S2x8192, .f32⟩ : BufTy).Contents (Elt F))
  :: StableHlo.unary main_v26 main_v28 (broadcastInDim S2x8192 ![0, 1] bcast_S2x1_S2x8192_0_1 : (⟨S2x1, .f32⟩ : BufTy).Contents (Elt F) → (⟨S2x8192, .f32⟩ : BufTy).Contents (Elt F))
  :: StableHlo.binary main_v27 main_v28 main_v29 (cmpf .ole : (⟨S2x8192, .f32⟩ : BufTy).Contents (Elt F) → (⟨S2x8192, .f32⟩ : BufTy).Contents (Elt F) → (⟨S2x8192, .i1⟩ : BufTy).Contents (Elt F))
  :: StableHlo.unary main_v29 main_v30 ((extui 32 · natLt_1_32) : (⟨S2x8192, .i1⟩ : BufTy).Contents (Elt F) → (⟨S2x8192, .i32⟩ : BufTy).Contents (Elt F))
  :: StableHlo.nullary main_c (constantI S_ 32 0#32)
  :: StableHlo.binary main_v30 main_c main_v31 ((fun x v => Host.reduce IntOp.addi x v reducesTo_S2x8192_S2_d1 h_S_) : (⟨S2x8192, .i32⟩ : BufTy).Contents (Elt F) → (⟨S_, .i32⟩ : BufTy).Contents (Elt F) → (⟨S2, .i32⟩ : BufTy).Contents (Elt F))
  :: StableHlo.unary main_v31 main_v32 (sitofp .f32 : (⟨S2, .i32⟩ : BufTy).Contents (Elt F) → (⟨S2, .f32⟩ : BufTy).Contents (Elt F))
  :: StableHlo.nullary main_cst_11 (constant S_ .f32 0x3C480000#32)
  :: StableHlo.unary main_cst_11 main_v33 (broadcastInDim S2 ![] bcast_S_S2 : (⟨S_, .f32⟩ : BufTy).Contents (Elt F) → (⟨S2, .f32⟩ : BufTy).Contents (Elt F))
  :: StableHlo.binary main_v33 main_v32 main_v34 (mulf : (⟨S2, .f32⟩ : BufTy).Contents (Elt F) → (⟨S2, .f32⟩ : BufTy).Contents (Elt F) → (⟨S2, .f32⟩ : BufTy).Contents (Elt F))
  :: StableHlo.unary main_v17 main_v35 (broadcastInDim S1x8192 ![1] bcast_S8192_S1x8192_1 : (⟨S8192, .f32⟩ : BufTy).Contents (Elt F) → (⟨S1x8192, .f32⟩ : BufTy).Contents (Elt F))
  :: StableHlo.unary main_arg2 main_v36 (broadcastInDim S2x1 ![0] bcast_S2_S2x1_0 : (⟨S2, .f32⟩ : BufTy).Contents (Elt F) → (⟨S2x1, .f32⟩ : BufTy).Contents (Elt F))
  :: StableHlo.unary main_v35 main_v37 (broadcastInDim S2x8192 ![0, 1] bcast_S1x8192_S2x8192_0_1 : (⟨S1x8192, .f32⟩ : BufTy).Contents (Elt F) → (⟨S2x8192, .f32⟩ : BufTy).Contents (Elt F))
  :: StableHlo.unary main_v36 main_v38 (broadcastInDim S2x8192 ![0, 1] bcast_S2x1_S2x8192_0_1 : (⟨S2x1, .f32⟩ : BufTy).Contents (Elt F) → (⟨S2x8192, .f32⟩ : BufTy).Contents (Elt F))
  :: StableHlo.binary main_v37 main_v38 main_v39 (cmpf .ole : (⟨S2x8192, .f32⟩ : BufTy).Contents (Elt F) → (⟨S2x8192, .f32⟩ : BufTy).Contents (Elt F) → (⟨S2x8192, .i1⟩ : BufTy).Contents (Elt F))
  :: StableHlo.unary main_v39 main_v40 ((extui 32 · natLt_1_32) : (⟨S2x8192, .i1⟩ : BufTy).Contents (Elt F) → (⟨S2x8192, .i32⟩ : BufTy).Contents (Elt F))
  :: StableHlo.nullary main_c_12 (constantI S_ 32 0#32)
  :: StableHlo.binary main_v40 main_c_12 main_v41 ((fun x v => Host.reduce IntOp.addi x v reducesTo_S2x8192_S2_d1 h_S_) : (⟨S2x8192, .i32⟩ : BufTy).Contents (Elt F) → (⟨S_, .i32⟩ : BufTy).Contents (Elt F) → (⟨S2, .i32⟩ : BufTy).Contents (Elt F))
  :: StableHlo.unary main_v41 main_v42 (sitofp .f32 : (⟨S2, .i32⟩ : BufTy).Contents (Elt F) → (⟨S2, .f32⟩ : BufTy).Contents (Elt F))
  :: StableHlo.nullary main_cst_13 (constant S_ .f32 0x3C480000#32)
  :: StableHlo.unary main_cst_13 main_v43 (broadcastInDim S2 ![] bcast_S_S2 : (⟨S_, .f32⟩ : BufTy).Contents (Elt F) → (⟨S2, .f32⟩ : BufTy).Contents (Elt F))
  :: StableHlo.binary main_v43 main_v42 main_v44 (mulf : (⟨S2, .f32⟩ : BufTy).Contents (Elt F) → (⟨S2, .f32⟩ : BufTy).Contents (Elt F) → (⟨S2, .f32⟩ : BufTy).Contents (Elt F))
  :: StableHlo.nullary main_cst_14 (constant S_ .f32 0x40000000#32)
  :: StableHlo.unary main_cst_14 main_v45 (broadcastInDim S2 ![] bcast_S_S2 : (⟨S_, .f32⟩ : BufTy).Contents (Elt F) → (⟨S2, .f32⟩ : BufTy).Contents (Elt F))
  :: StableHlo.binary main_v45 main_v34 main_v46 (mulf : (⟨S2, .f32⟩ : BufTy).Contents (Elt F) → (⟨S2, .f32⟩ : BufTy).Contents (Elt F) → (⟨S2, .f32⟩ : BufTy).Contents (Elt F))
  :: StableHlo.binary main_v46 main_v44 main_v47 (mulf : (⟨S2, .f32⟩ : BufTy).Contents (Elt F) → (⟨S2, .f32⟩ : BufTy).Contents (Elt F) → (⟨S2, .f32⟩ : BufTy).Contents (Elt F))
  :: StableHlo.binary main_v34 main_v44 main_v48 (addf : (⟨S2, .f32⟩ : BufTy).Contents (Elt F) → (⟨S2, .f32⟩ : BufTy).Contents (Elt F) → (⟨S2, .f32⟩ : BufTy).Contents (Elt F))
  :: StableHlo.nullary main_cst_15 (constant S_ .f32 0x322BCC77#32)
  :: StableHlo.unary main_cst_15 main_v49 (broadcastInDim S2 ![] bcast_S_S2 : (⟨S_, .f32⟩ : BufTy).Contents (Elt F) → (⟨S2, .f32⟩ : BufTy).Contents (Elt F))
  :: StableHlo.binary main_v48 main_v49 main_v50 (addf : (⟨S2, .f32⟩ : BufTy).Contents (Elt F) → (⟨S2, .f32⟩ : BufTy).Contents (Elt F) → (⟨S2, .f32⟩ : BufTy).Contents (Elt F))
  :: StableHlo.binary main_v47 main_v50 main_v51 (Host.divf : (⟨S2, .f32⟩ : BufTy).Contents (Elt F) → (⟨S2, .f32⟩ : BufTy).Contents (Elt F) → (⟨S2, .f32⟩ : BufTy).Contents (Elt F))
  :: StableHlo.unary main_v24 main_v52 (broadcastInDim S1 ![] bcast_S_S1 : (⟨S_, .f32⟩ : BufTy).Contents (Elt F) → (⟨S1, .f32⟩ : BufTy).Contents (Elt F))
  :: StableHlo.unary main_v51 main_v53 (id : (⟨S2, .f32⟩ : BufTy).Contents (Elt F) → (⟨S2, .f32⟩ : BufTy).Contents (Elt F))
  :: [] )

/-- The last host operation: the two pieces joined. -/
abbrev opsB : List (HloOp τ sig (Elt F)) :=
  [ StableHlo.binary main_v52 main_v53 main_v54 ((fun a b => concatenate S3 0 [⟨S1, a⟩, ⟨S2, b⟩] concatenates_S1_S2_S3_d0) : (⟨S1, .f32⟩ : BufTy).Contents (Elt F) → (⟨S2, .f32⟩ : BufTy).Contents (Elt F) → (⟨S3, .f32⟩ : BufTy).Contents (Elt F)) ]

set_option maxRecDepth 8192 in
/-- The 53 host operations are the first 52 followed by the last. -/
theorem hostOps1_split : (hostOps1 : List (HloOp τ sig (Elt F))) = opsA ++ opsB := rfl

/-- The contents after two lines of operations run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

set_option maxRecDepth 8192 in
set_option maxHeartbeats 4000000 in
/-- The first piece of the result after the first 52 operations, from any contents. -/
theorem after_opsA_v52 (W : Valuation τ sig (Elt Ideal)) :
    StableHlo.after (opsA (F := Ideal)) W (Proc.devRef .tc main_v52)
      = Cert.ReferenceIdeal.RefValue.tailHead
          (shapeCast S8192 (W (Proc.devRef .tc main_v14_0)) shapeCasts_S1x8192_S8192)
          (Host.reduce FloatOps.minimumf (shapeCast S8x8192 (W (Proc.devRef .tc main_v14_1)) shapeCasts_S8x1x8192_S8x8192)
            (constant S_ .f32 0x7F800000#32) reducesTo_S8x8192_S8192_d0 h_S_) := by
  after_results_simp
  rfl

set_option maxRecDepth 8192 in
set_option maxHeartbeats 4000000 in
/-- The second piece of the result after the first 52 operations, from any contents. -/
theorem after_opsA_v53 (W : Valuation τ sig (Elt Ideal)) :
    StableHlo.after (opsA (F := Ideal)) W (Proc.devRef .tc main_v53)
      = Cert.ReferenceIdeal.RefValue.tailRest
          (shapeCast S8192 (W (Proc.devRef .tc main_v14_0)) shapeCasts_S1x8192_S8192)
          (Host.reduce FloatOps.minimumf (shapeCast S8x8192 (W (Proc.devRef .tc main_v14_1)) shapeCasts_S8x1x8192_S8x8192)
            (constant S_ .f32 0x7F800000#32) reducesTo_S8x8192_S8192_d0 h_S_)
          (W (Proc.devRef .tc main_arg2)) := by
  after_results_simp
  rfl

/-- The result array after the last operation, from any contents: the two pieces joined. -/
theorem after_opsB_v54 (W : Valuation τ sig (Elt Ideal)) :
    StableHlo.after (opsB (F := Ideal)) W (Proc.devRef .tc main_v54)
      = concatenate S3 0 [⟨S1, W (Proc.devRef .tc main_v52)⟩, ⟨S2, W (Proc.devRef .tc main_v53)⟩] concatenates_S1_S2_S3_d0 := by
  after_results

/-- After the 53 host operations that follow the launch, the result array is the common tail applied to the reshaped
    forward row, the row-least of the eight backward rows, and the thresholds. -/
theorem tail_eq (W : Valuation τ sig (Elt Ideal)) :
    (StableHlo.after (hostOps1 (F := Ideal)) W (Proc.devRef .tc main_v54) : S3.Idx → EReal)
      = Cert.Chamfer.Tail (shapeCast S8192 (W (Proc.devRef .tc main_v14_0)) shapeCasts_S1x8192_S8192)
          (Host.reduce FloatOps.minimumf (shapeCast S8x8192 (W (Proc.devRef .tc main_v14_1)) shapeCasts_S8x1x8192_S8x8192)
            (constant S_ .f32 0x7F800000#32) reducesTo_S8x8192_S8192_d0 h_S_)
          (W (Proc.devRef .tc main_arg2)) := by
  show StableHlo.after hostOps1 W (Proc.devRef .tc main_v54) = _
  have h : StableHlo.after (hostOps1 (F := Ideal)) W = StableHlo.after opsB (StableHlo.after opsA W) := by
    rw [hostOps1_split, after_append]
  rw [h, after_opsB_v54, after_opsA_v52, after_opsA_v53, Cert.ReferenceIdeal.RefValue.tail_eq]

end Cert.KernelIdeal.KTail

end
-- ==== Proof.KerResult.lean ====
/-
  The idealized kernel program's result as the shared tail of its two launch results: after the launch the 53 host
  operations reshape the [1, 8192] result to the vector of forward distances, take the least over the 8 rows of the
  [8, 1, 8192] result as the vector of backward distances, and apply the common chain of means, threshold counts and
  the harmonic combination to them and the thresholds.
-/
import proofs.«136692_j54992761258145_2_alg».proof.Proof.FrameI.Frame
import proofs.«136692_j54992761258145_2_alg».proof.Proof.KerTail

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The buffer contents the host operations after the launch start from: the four staged arrays at what the write-backs
    left, every other buffer as the launch found it. -/
abbrev Wexit (c : Dev nD) : Valuation τ sig (Elt Ideal) :=
  Pipeline.withArrays spec0 c (V0 m c) fun w => (dats m 0 c).arrAt w cfg0.N

theorem Wexit_v14_0 (c : Dev nD) : Wexit m c (Proc.devRef .tc main_v14_0) = (dats m 0 c).arrAt 2 cfg0.N :=
  Pipeline.withArrays_arr spec0 launch0.win.arr_inj c _ _ 2
theorem Wexit_v14_1 (c : Dev nD) : Wexit m c (Proc.devRef .tc main_v14_1) = (dats m 0 c).arrAt 3 cfg0.N :=
  Pipeline.withArrays_arr spec0 launch0.win.arr_inj c _ _ 3
theorem Wexit_arg2 (c : Dev nD) : Wexit m c (Proc.devRef .tc main_arg2) = m ((c.tc : Thread nD τ).loc main_arg2) :=
  (Pipeline.withArrays_of_ne spec0 c _ _ main_arg2 (by decide)).trans (V_main_arg2 m c)

/-- The result buffer after the whole program, in terms of the two arrays the launch wrote. -/
theorem result_eq (c : Dev nD) :
    (Pipeline.afterTail₀ cfgs (dats m) 0 (V0 m) [hostOps1] c main_v54 : S3.Idx → EReal)
      = Cert.Chamfer.Tail (shapeCast S8192 ((dats m 0 c).arrAt 2 cfg0.N) shapeCasts_S1x8192_S8192)
          (Host.reduce FloatOps.minimumf (shapeCast S8x8192 ((dats m 0 c).arrAt 3 cfg0.N) shapeCasts_S8x1x8192_S8x8192) (constant S_ .f32 0x7F800000#32) reducesTo_S8x8192_S8192_d0 h_S_)
          (m ((c.tc : Thread nD τ).loc main_arg2)) := by
  have h := Cert.KernelIdeal.KTail.tail_eq (Wexit m c)
  rw [Wexit_v14_0, Wexit_v14_1, Wexit_arg2] at h
  exact h

end Cert.KernelIdeal.KValue

end
-- ==== Proof.KerPay.lean ====
/-
  What the kernel body's pure values are, entry by entry, on the extended reals.

  The body multiplies a block [5, 1024] of the first augmented array with a block [5, 4096] of the second, contracting
  the five rows of both: entry (r, c) of the product is the five-term sum ∑ k, x0 (k, r) * x1 (k, c).  It clamps the
  product below at zero, folds each row and each column of the clamped block with `min` from +∞ (the least entry of
  the row, of the column), merges these with the running least values by `min`, and at the end takes square roots,
  writing the column of row minima as a row.  Each statement below reads one of these values at one index.
-/
import proofs.«136692_j54992761258145_2_alg».proof.Proof.Gen.KernelIdeal.Skeleton
import proofs.«136692_j54992761258145_2_alg».proof.Proof.LibFiniteInputs
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.KRead

open Cert.KernelIdeal Cert.KernelIdeal.Gen Idealize.ShloMosaic Idealize.ShloMosaic.ValueIdx
open scoped BigOperators

/-- The matmul's dimension numbers contract axis 0 of both operands: the left operand's free axis 1 carries the
    output's row … -/
theorem lhsIdx_one (i : S1024x4096.Idx) (q : dot_S5x1024_S5x4096_S1024x4096_0_0_1_1_n_n.contr.Idx) :
    (dot_S5x1024_S5x4096_S1024x4096_0_0_1_1_n_n.lhsIdx i q 1).val = (i 0).val := by
  unfold DotDims.lhsIdx
  rw [dif_neg (show ¬(1 : Fin S5x1024.rank) ∈ dot_S5x1024_S5x4096_S1024x4096_0_0_1_1_n_n.lhsBatch by decide),
    dif_pos (show (1 : Fin S5x1024.rank) ∈ dot_S5x1024_S5x4096_S1024x4096_0_0_1_1_n_n.lhsNonContracting by decide)]
  rfl

/-- … and the right operand's free axis 1 the output's column. -/
theorem rhsIdx_one (i : S1024x4096.Idx) (q : dot_S5x1024_S5x4096_S1024x4096_0_0_1_1_n_n.contr.Idx) :
    (dot_S5x1024_S5x4096_S1024x4096_0_0_1_1_n_n.rhsIdx i q 1).val = (i 1).val := by
  unfold DotDims.rhsIdx
  rw [dif_neg (show ¬(1 : Fin S5x4096.rank) ∈ dot_S5x1024_S5x4096_S1024x4096_0_0_1_1_n_n.rhsBatch by decide),
    dif_pos (show (1 : Fin S5x4096.rank) ∈ dot_S5x1024_S5x4096_S1024x4096_0_0_1_1_n_n.rhsNonContracting by decide)]
  rfl

/-- At output entry (r, c) and contraction position k the left operand is read at (k, r) … -/
theorem lhsIdx_eq (r : Fin 1024) (c : Fin 4096) (k : Fin 5) :
    dot_S5x1024_S5x4096_S1024x4096_0_0_1_1_n_n.lhsIdx (ix2 r c)
      ((contrEquiv1 dot_S5x1024_S5x4096_S1024x4096_0_0_1_1_n_n 5 rfl rfl).symm k) = ix2 k r := by
  have hk := contrEquiv1_symm_val dot_S5x1024_S5x4096_S1024x4096_0_0_1_1_n_n 5 rfl rfl k
  refine funext fun a => Fin.ext ?_
  match a with
  | ⟨0, _⟩ => exact (dot_S5x1024_S5x4096_S1024x4096_0_0_1_1_n_n.lhsIdx_val_of_single rfl (ix2 r c) _).trans hk
  | ⟨1, _⟩ => exact lhsIdx_one _ _

/-- … and the right operand at (k, c). -/
theorem rhsIdx_eq (r : Fin 1024) (c : Fin 4096) (k : Fin 5) :
    dot_S5x1024_S5x4096_S1024x4096_0_0_1_1_n_n.rhsIdx (ix2 r c)
      ((contrEquiv1 dot_S5x1024_S5x4096_S1024x4096_0_0_1_1_n_n 5 rfl rfl).symm k) = ix2 k c := by
  have hk := contrEquiv1_symm_val dot_S5x1024_S5x4096_S1024x4096_0_0_1_1_n_n 5 rfl rfl k
  refine funext fun a => Fin.ext ?_
  match a with
  | ⟨0, _⟩ => exact (dot_S5x1024_S5x4096_S1024x4096_0_0_1_1_n_n.rhsIdx_val_of_single rfl (ix2 r c) _).trans hk
  | ⟨1, _⟩ => exact rhsIdx_one _ _

/-- The clamped product block at (r, c): the five-term sum of products of the two columns, clamped below at zero. -/
theorem pay3_apply (x0 : Vec Ideal S5x1024 .f32) (x1 : Vec Ideal S5x4096 .f32) (r : Fin 1024) (c : Fin 4096) :
    k0_pay3 (F := Ideal) x0 x1 (ix2 r c) = max (∑ k : Fin 5, x0 (ix2 k r) * x1 (ix2 k c)) 0 := by
  unfold k0_pay3
  simp only [shapeCast_self]
  rw [maximumf_apply, broadcast_apply]
  simp only [matmul]
  rw [Ideal.matmul_constant_zero_apply,
    ← Equiv.sum_comp (contrEquiv1 dot_S5x1024_S5x4096_S1024x4096_0_0_1_1_n_n 5 rfl rfl).symm]
  congr 1
  · refine Finset.sum_congr rfl fun k _ => ?_
    rw [lhsIdx_eq, rhsIdx_eq]
  · exact Ideal.ofBits_zero_f32

/-- A fold of `min` from +∞ over a finite set is the set's infimum. -/
theorem fold_min_inf {ι : Type} (s : Finset ι) (f : ι → EReal) :
    s.fold min (Ideal.ofBits .f32 0x7F800000#32) f = s.inf f := by
  rw [FiniteInputs.ofBits_inf]
  rfl

/-- The row minima: the fold of `min` from +∞ along axis 1 of a [1024, 4096] block, at row r, is the least entry of
    that row. -/
theorem rowMin_apply (src : FVec Ideal S1024x4096 .f32) (r : Fin 1024) :
    multiReduction (F := Ideal) .minimumf [1] S1024 src 0x7F800000#32 reduces_S1024x4096_S1024 (.inl rfl) rfl (ix1 r)
      = Finset.univ.inf fun c : Fin 4096 => src (ix2 r c) := by
  refine (multiReduction_minimumf_eq_fold src 0x7F800000#32 reduces_S1024x4096_S1024 (.inl rfl) rfl (ix1 r)).trans ?_
  refine (reduces_S1024x4096_S1024.fold_filter_drop_single _ _ src (ix1 r)).trans ?_
  have hl : ∀ c : Fin 4096, reduces_S1024x4096_S1024.lift (ix1 r) c = ix2 r c := fun c =>
    funext fun a => Fin.ext (by match a with | ⟨0, _⟩ => rfl | ⟨1, _⟩ => rfl)
  have hf : (src ∘ reduces_S1024x4096_S1024.lift (ix1 r)) = fun c : Fin 4096 => src (ix2 r c) :=
    funext fun c => congrArg src (hl c)
  rw [hf]
  exact fold_min_inf _ _

/-- The column minima: the fold along axis 0, at column c, is the least entry of that column. -/
theorem colMin_apply (src : FVec Ideal S1024x4096 .f32) (c : Fin 4096) :
    multiReduction (F := Ideal) .minimumf [0] S4096 src 0x7F800000#32 reduces_S1024x4096_S4096 (.inl rfl) rfl (ix1 c)
      = Finset.univ.inf fun r : Fin 1024 => src (ix2 r c) := by
  refine (multiReduction_minimumf_eq_fold src 0x7F800000#32 reduces_S1024x4096_S4096 (.inl rfl) rfl (ix1 c)).trans ?_
  refine (reduces_S1024x4096_S4096.fold_filter_drop_single _ _ src (ix1 c)).trans ?_
  have hl : ∀ r : Fin 1024, reduces_S1024x4096_S4096.lift (ix1 c) r = ix2 r c := fun r =>
    funext fun a => Fin.ext (by match a with | ⟨0, _⟩ => rfl | ⟨1, _⟩ => rfl)
  have hf : (src ∘ reduces_S1024x4096_S4096.lift (ix1 c)) = fun r : Fin 1024 => src (ix2 r c) :=
    funext fun r => congrArg src (hl r)
  rw [hf]
  exact fold_min_inf _ _

/-- A vector of 1024 entries written as a column [1024, 1] reads, at (r, 0), entry r. -/
theorem column_apply {α : Type} (x : S1024.Idx → α) (r : Fin 1024) :
    shapeCast S1024x1 x shapeCasts_S1024_S1024x1 (ix2 r (0 : Fin 1)) = x (ix1 r) :=
  shapeCast_apply x _ _ _ (by
    rw [Shape.rowMajor_val_two, Shape.rowMajor_val_one]
    show r.val = r.val * 1 + 0
    omega)

/-- The running row minima after one block: the old value merged by `min` with the least entry of the row of the
    clamped product block. -/
theorem pay4_apply (x0 : Vec Ideal S5x1024 .f32) (x1 : Vec Ideal S5x4096 .f32) (v : Vec Ideal S1024x1 .f32) (r : Fin 1024) :
    k0_pay4 (F := Ideal) x0 x1 v (ix2 r (0 : Fin 1))
      = min (v (ix2 r (0 : Fin 1))) (Finset.univ.inf fun c : Fin 4096 => k0_pay3 (F := Ideal) x0 x1 (ix2 r c)) := by
  unfold k0_pay4
  simp only [shapeCast_self]
  rw [minimumf_apply, column_apply, rowMin_apply]

/-- The running column minima after one block: the old value merged by `min` with the least entry of the column of the
    clamped product block. -/
theorem pay5_apply (x0 : Vec Ideal S5x1024 .f32) (x1 : Vec Ideal S5x4096 .f32) (v : Vec Ideal S1x4096 .f32) (c : Fin 4096) :
    k0_pay5 (F := Ideal) x0 x1 v (ix2 (0 : Fin 1) c)
      = min (v (ix2 (0 : Fin 1) c)) (Finset.univ.inf fun r : Fin 1024 => k0_pay3 (F := Ideal) x0 x1 (ix2 r c)) := by
  unfold k0_pay5
  simp only [shapeCast_self]
  rw [minimumf_apply, shapeCast_a_1a_apply, colMin_apply]

/-- The row minima start at +∞. -/
theorem pay1_apply (r : Fin 1024) : k0_pay1 (F := Ideal) (ix2 r (0 : Fin 1)) = ⊤ := by
  unfold k0_pay1
  simp only [shapeCast_self]
  rw [broadcast_apply]
  exact FiniteInputs.ofBits_inf

/-- The column minima start at +∞. -/
theorem pay2_apply (b : Fin 8192) : k0_pay2 (F := Ideal) (ix2 (0 : Fin 1) b) = ⊤ := by
  unfold k0_pay2
  simp only [shapeCast_self]
  rw [broadcast_apply]
  exact FiniteInputs.ofBits_inf

/-- The forward distances of a block: the square roots of the row minima, the column written as a row. -/
theorem pay6_apply (v : Vec Ideal S1024x1 .f32) (r : Fin 1024) :
    k0_pay6 (F := Ideal) v (ix2 (0 : Fin 1) r) = Ideal.sqrt (v (ix2 r (0 : Fin 1))) := by
  unfold k0_pay6
  rw [transpose_ix2_apply]
  rfl

/-- The backward distances: the square roots of the column minima, with a leading unit axis added. -/
theorem pay7_apply (v : Vec Ideal S1x8192 .f32) (b : Fin 8192) :
    k0_pay7 (F := Ideal) v (ix3 (0 : Fin 1) (0 : Fin 1) b) = Ideal.sqrt (v (ix2 (0 : Fin 1) b)) := by
  unfold k0_pay7
  rw [shapeCast_ab_1ab_apply]
  rfl

end Cert.KernelIdeal.KRead

end
-- ==== Proof.KerPieces.lean ====
/-
  What the kernel body's two cases leave in the buffers, entry by entry, on the extended reals.

  At an even grid point the body resets the two running minima to +∞ and folds the block's clamped squared distances
  in: the row-minima scratch ends, at row r, with the least entry of row r of the block; the column-minima scratch ends,
  on its first half, with the least entry of each column, and with +∞ on its second half.  At an odd point the body
  folds the block into what it finds: the row minima become the `min` of the old value and the row's least entry, the
  second half of the column minima likewise, the first half stays; and the two output blocks receive the square roots
  of the two scratch buffers.
-/
import proofs.«136692_j54992761258145_2_alg».proof.Proof.FrameI.Outs
import proofs.«136692_j54992761258145_2_alg».proof.Proof.KerPay
import proofs.«136692_j54992761258145_2_alg».proof.Proof.LibInfSqrt

set_option maxRecDepth 16384

noncomputable section

namespace Cert.KernelIdeal.KPieces

open Cert.KernelIdeal Cert.KernelIdeal.Gen Cert.KernelIdeal.Fr Cert.KernelIdeal.KRead
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open scoped BigOperators

/-- The zero offsets of a rank-2 rectangle, however spelt. -/
theorem hz2 : (![0, 0] : Fin 2 → ℕ) = fun _ => 0 := by
  funext a; match a with | ⟨0, _⟩ => rfl | ⟨1, _⟩ => rfl

/-- The zero offsets of a rank-3 rectangle. -/
theorem hz3 : (![0, 0, 0] : Fin 3 → ℕ) = fun _ => 0 := by
  funext a; match a with | ⟨0, _⟩ => rfl | ⟨1, _⟩ => rfl | ⟨2, _⟩ => rfl

/-! ## A half-row rectangle of the column-minima buffer -/

section Half

variable (off : Fin 2 → ℕ) (inb : ∀ a, off a + S1x4096.size a ≤ S1x8192.size a)

/-- Column q of the half-row rectangle that starts at column `off 1` is column `off 1 + q` of the buffer. -/
theorem half_emb (h0 : off 0 = 0) (b : Fin 8192) (q : Fin 4096) (hb : b.val = off 1 + q.val) :
    (Rect.unit (s := S1x8192) off S1x4096.size inb).emb (ix2 (0 : Fin 1) q) = (ix2 (0 : Fin 1) b : S1x8192.Idx) :=
  funext fun a => Fin.ext (by
    match a with
    | ⟨0, _⟩ => show off 0 + 1 * 0 = 0; omega
    | ⟨1, _⟩ => show off 1 + 1 * q.val = b.val; omega)

/-- A column outside [off 1, off 1 + 4096) is not in the rectangle. -/
theorem half_not_mem (b : Fin 8192) (hb : b.val < off 1 ∨ off 1 + 4096 ≤ b.val) :
    (ix2 (0 : Fin 1) b : S1x8192.Idx) ∉ (Rect.unit (s := S1x8192) off S1x4096.size inb).set := by
  rw [Rect.mem_set_unit]
  intro h
  have h1 : off 1 ≤ b.val ∧ b.val < off 1 + 4096 := h 1
  omega

variable (v : View sig .tc .vmem S1x8192 .f32) (f : v.ty.Contents (Elt Ideal)) (w : S1x4096.Idx → EReal)
  (L : List (View.Piece (Elt Ideal) S1x8192 .f32))

/-- Under a last store through the half-row rectangle, a column it covers reads the stored payload … -/
theorem read_half_in (h0 : off 0 = 0) (b : Fin 8192) (q : Fin 4096) (hb : b.val = off 1 + q.val) :
    v.read (Elt Ideal) (v.writes (Elt Ideal) f (⟨Rect.unit (s := S1x8192) off S1x4096.size inb, w⟩ :: L)) (ix2 (0 : Fin 1) b)
      = w (ix2 (0 : Fin 1) q) := by
  rw [← half_emb off inb h0 b q hb]
  exact View.read_writes_cons_emb v f (Rect.unit (s := S1x8192) off S1x4096.size inb) w L (ix2 (0 : Fin 1) q)

/-- … and, after that one store alone, a column it does not cover reads what was there. -/
theorem read_half_out (b : Fin 8192) (hb : b.val < off 1 ∨ off 1 + 4096 ≤ b.val) :
    v.read (Elt Ideal) (v.writes (Elt Ideal) f [⟨Rect.unit (s := S1x8192) off S1x4096.size inb, w⟩]) (ix2 (0 : Fin 1) b)
      = v.read (Elt Ideal) f (ix2 (0 : Fin 1) b) :=
  View.read_writes_apply_of_forall_not_mem v f _ _ fun p hp => by
    rw [List.mem_singleton] at hp; subst hp; exact half_not_mem off inb b hb

/-- The same two readings of the stores' canonical contents. -/
theorem canon_half_in (h0 : off 0 = 0) (b : Fin 8192) (q : Fin 4096) (hb : b.val = off 1 + q.val) :
    View.canon (⟨Rect.unit (s := S1x8192) off S1x4096.size inb, w⟩ :: L) (ix2 (0 : Fin 1) b) = w (ix2 (0 : Fin 1) q) := by
  rw [← half_emb off inb h0 b q hb]
  exact View.canon_cons_emb (Val := Elt Ideal) (e := .f32) (Rect.unit (s := S1x8192) off S1x4096.size inb) w L (ix2 (0 : Fin 1) q)

theorem canon_half_out (b : Fin 8192) (hb : b.val < off 1 ∨ off 1 + 4096 ≤ b.val) :
    View.canon (⟨Rect.unit (s := S1x8192) off S1x4096.size inb, w⟩ :: L) (ix2 (0 : Fin 1) b) = View.canon L (ix2 (0 : Fin 1) b) :=
  View.canon_cons_of_not_mem (Val := Elt Ideal) (e := .f32) ⟨Rect.unit (s := S1x8192) off S1x4096.size inb, w⟩ L (half_not_mem off inb b hb)

end Half

/-- The initial row minima are +∞ at every index. -/
theorem pay1_top (y : S1024x1.Idx) : k0_pay1 (F := Ideal) y = ⊤ := by
  unfold k0_pay1
  simp only [shapeCast_self]
  rw [broadcast_apply]
  exact FiniteInputs.ofBits_inf

/-- The initial column minima are +∞ at every index. -/
theorem pay2_top (y : S1x8192.Idx) : k0_pay2 (F := Ideal) y = ⊤ := by
  unfold k0_pay2
  simp only [shapeCast_self]
  rw [broadcast_apply]
  exact FiniteInputs.ofBits_inf

/-- The second grid coordinate decides where the column block starts. -/
theorem off_zero (i : grid0.Coords) : k0_off1 i 0 = 0 := by rw [k0_off1_eq]; rfl
theorem off_one (i : grid0.Coords) : k0_off1 i 1 = 4096 * (i 1).val := by rw [k0_off1_eq]; rfl

/-! ## An odd point: the row minima and the forward distances -/

/-- After an odd point the row-minima scratch holds the merge of what the point found with the block's row minima. -/
theorem soutB0_eq (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) :
    sout0_B_0 (F := Ideal) c i arg2 harg2 arg3 harg3 arg4 harg4 arg5 harg5 arg6 harg6 arg7 harg7 hc0 hc1 x0 x1 xs0 xs1 = k0_pay4 (F := Ideal) x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S5x1024) hz2, View.ld_unit_zero (S := S5x4096) hz2, View.ld_unit_zero (S := S1024x1) hz2, View.ld_unit_zero (S := S1x8192) hz2]

theorem soutB0_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) (r : Fin 1024) :
    sout0_B_0 (F := Ideal) c i arg2 harg2 arg3 harg3 arg4 harg4 arg5 harg5 arg6 harg6 arg7 harg7 hc0 hc1 x0 x1 xs0 xs1 (ix2 r (0 : Fin 1))
      = min (xs0 (ix2 r (0 : Fin 1))) (Finset.univ.inf fun q : Fin 4096 => k0_pay3 (F := Ideal) x0 x1 (ix2 r q)) := by
  rw [soutB0_eq]
  exact pay4_apply x0 x1 xs0 r

/-- The forward-distance block an odd point stores is the square root of the row minima it has just stored. -/
theorem outB2_eq (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) :
    out0_B_2 (F := Ideal) c i arg2 harg2 arg3 harg3 arg4 harg4 arg5 harg5 arg6 harg6 arg7 harg7 hc0 hc1 x0 x1 xs0 xs1 = k0_pay6 (F := Ideal) (sout0_B_0 (F := Ideal) c i arg2 harg2 arg3 harg3 arg4 harg4 arg5 harg5 arg6 harg6 arg7 harg7 hc0 hc1 x0 x1 xs0 xs1) := by
  rw [soutB0_eq]
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero hz2, View.readCov_unit_zero _ hz2]
  simp only [View.readAt_eq_ld, harg2.read_unread, harg3.read_unread, harg6.read_unread, harg7.read_unread, View.ld_unit_zero (S := S5x1024) hz2, View.ld_unit_zero (S := S5x4096) hz2, View.ld_unit_zero (S := S1024x1) hz2, View.ld_unit_zero (S := S1x8192) hz2]

theorem outB2_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) (r : Fin 1024) :
    out0_B_2 (F := Ideal) c i arg2 harg2 arg3 harg3 arg4 harg4 arg5 harg5 arg6 harg6 arg7 harg7 hc0 hc1 x0 x1 xs0 xs1 (ix2 (0 : Fin 1) r)
      = Ideal.sqrt (sout0_B_0 (F := Ideal) c i arg2 harg2 arg3 harg3 arg4 harg4 arg5 harg5 arg6 harg6 arg7 harg7 hc0 hc1 x0 x1 xs0 xs1 (ix2 r (0 : Fin 1))) := by
  rw [outB2_eq]
  exact pay6_apply _ r

/-! ## An even point: the row minima -/

theorem soutA0_eq (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec Ideal S5x1024 .f32) (x1 : Vec Ideal S5x4096 .f32) :
    sout0_A_0 (F := Ideal) c i arg2 harg2 arg3 harg3 arg4 harg4 arg5 harg5 arg6 harg6 arg7 harg7 hc0 hc1 x0 x1 = k0_pay4 (F := Ideal) x0 x1 (k0_pay1 (F := Ideal)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero hz2, View.readCov_unit_zero _ hz2]
  simp only [View.readAt_eq_ld, harg2.read_unread, harg3.read_unread, harg6.read_unread, harg7.read_unread, View.ld_unit_zero (S := S5x1024) hz2, View.ld_unit_zero (S := S5x4096) hz2, View.ld_unit_zero (S := S1024x1) hz2, View.ld_unit_zero (S := S1x8192) hz2]

theorem soutA0_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec Ideal S5x1024 .f32) (x1 : Vec Ideal S5x4096 .f32) (r : Fin 1024) :
    sout0_A_0 (F := Ideal) c i arg2 harg2 arg3 harg3 arg4 harg4 arg5 harg5 arg6 harg6 arg7 harg7 hc0 hc1 x0 x1 (ix2 r (0 : Fin 1))
      = Finset.univ.inf fun q : Fin 4096 => k0_pay3 (F := Ideal) x0 x1 (ix2 r q) := by
  rw [soutA0_eq]
  refine (pay4_apply x0 x1 _ r).trans ?_
  rw [pay1_top]
  exact Cert.Chamfer.Math.min_top_left _

/-! ## An odd point: the column minima -/

theorem soutB1_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) (hi : (i 1).val = 1) (b : Fin 8192) :
    sout0_B_1 (F := Ideal) c i arg2 harg2 arg3 harg3 arg4 harg4 arg5 harg5 arg6 harg6 arg7 harg7 hc0 hc1 x0 x1 xs0 xs1 (ix2 (0 : Fin 1) b)
      = if h : 4096 ≤ b.val then min (xs1 (ix2 (0 : Fin 1) b)) (Finset.univ.inf fun r : Fin 1024 => k0_pay3 (F := Ideal) x0 x1 (ix2 r ⟨b.val - 4096, by omega⟩))
        else xs1 (ix2 (0 : Fin 1) b) := by
  unfold sout0_B_1
  unfold kernelRun0_B
  dsimp only
  sl_unfold_run_names
  have h0 := off_zero i
  have h1 : k0_off1 i 1 = 4096 := by rw [off_one, hi]
  by_cases h : 4096 ≤ b.val
  · rw [dif_pos h, read_half_in (k0_off1 i) (k0_off1_inb i) _ _ _ _ h0 b ⟨b.val - 4096, by omega⟩ (by show b.val = k0_off1 i 1 + (b.val - 4096); omega)]
    simp only [View.readAt_eq_ld, harg2.read_unread, harg3.read_unread, harg6.read_unread, harg7.read_unread, View.ld_unit_zero (S := S5x1024) hz2, View.ld_unit_zero (S := S5x4096) hz2, View.ld_unit_zero (S := S1024x1) hz2, View.ld_unit_zero (S := S1x8192) hz2]
    refine (pay5_apply x0 x1 _ _).trans ?_
    congr 1
    exact congrArg xs1 (half_emb (k0_off1 i) (k0_off1_inb i) h0 b ⟨b.val - 4096, by omega⟩ (by show b.val = k0_off1 i 1 + (b.val - 4096); omega))
  · rw [dif_neg h, read_half_out (k0_off1 i) (k0_off1_inb i) _ _ _ b (Or.inl (by omega))]
    exact congrFun (harg7.read_unread xs1) _

/-! ## An odd point: the backward distances -/

/-- The block of backward distances an odd point stores is the square root of the column minima it leaves. -/
theorem outB3_eq (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) :
    out0_B_3 (F := Ideal) c i arg2 harg2 arg3 harg3 arg4 harg4 arg5 harg5 arg6 harg6 arg7 harg7 hc0 hc1 x0 x1 xs0 xs1 = k0_pay7 (F := Ideal) (sout0_B_1 (F := Ideal) c i arg2 harg2 arg3 harg3 arg4 harg4 arg5 harg5 arg6 harg6 arg7 harg7 hc0 hc1 x0 x1 xs0 xs1) := by
  unfold out0_B_3 sout0_B_1
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  sl_unfold_run_names
  rw [View.canon_unit_zero hz3]
  simp only [View.readAt_eq_ld, View.ld_unit_zero (S := S1x8192) hz2]

theorem outB3_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : ¬cond0_0 i) (hc1 : cond0_1 i)
    (x0 : Vec Ideal S5x1024 .f32) (x1 : Vec Ideal S5x4096 .f32) (xs0 : Vec Ideal S1024x1 .f32) (xs1 : Vec Ideal S1x8192 .f32) (b : Fin 8192) :
    out0_B_3 (F := Ideal) c i arg2 harg2 arg3 harg3 arg4 harg4 arg5 harg5 arg6 harg6 arg7 harg7 hc0 hc1 x0 x1 xs0 xs1 (ix3 (0 : Fin 1) (0 : Fin 1) b)
      = Ideal.sqrt (sout0_B_1 (F := Ideal) c i arg2 harg2 arg3 harg3 arg4 harg4 arg5 harg5 arg6 harg6 arg7 harg7 hc0 hc1 x0 x1 xs0 xs1 (ix2 (0 : Fin 1) b)) := by
  rw [outB3_eq]
  exact pay7_apply _ b

/-! ## An even point: the column minima -/

theorem soutA1_apply (c : Dev nD) (i : grid0.Coords) (arg2 : Memref sig .tc .vmem S5x1024 .f32) (harg2 : arg2.IsWhole) (arg3 : Memref sig .tc .vmem S5x4096 .f32) (harg3 : arg3.IsWhole) (arg4 : Memref sig .tc .vmem S1x1024 .f32) (harg4 : arg4.IsWhole) (arg5 : Memref sig .tc .vmem S1x1x8192 .f32) (harg5 : arg5.IsWhole) (arg6 : Memref sig .tc .vmem S1024x1 .f32) (harg6 : arg6.IsWhole) (arg7 : Memref sig .tc .vmem S1x8192 .f32) (harg7 : arg7.IsWhole) (hc0 : cond0_0 i) (hc1 : ¬cond0_1 i)
    (x0 : Vec Ideal S5x1024 .f32) (x1 : Vec Ideal S5x4096 .f32) (hi : (i 1).val = 0) (b : Fin 8192) :
    sout0_A_1 (F := Ideal) c i arg2 harg2 arg3 harg3 arg4 harg4 arg5 harg5 arg6 harg6 arg7 harg7 hc0 hc1 x0 x1 (ix2 (0 : Fin 1) b)
      = if h : b.val < 4096 then (Finset.univ.inf fun r : Fin 1024 => k0_pay3 (F := Ideal) x0 x1 (ix2 r ⟨b.val, h⟩)) else ⊤ := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_run_names
  have h0 := off_zero i
  have h1 : k0_off1 i 1 = 0 := by rw [off_one, hi]
  by_cases h : b.val < 4096
  · rw [dif_pos h, canon_half_in (k0_off1 i) (k0_off1_inb i) _ _ h0 b ⟨b.val, h⟩ (by show b.val = k0_off1 i 1 + b.val; omega)]
    simp only [View.readAt_eq_ld, harg2.read_unread, harg3.read_unread, harg6.read_unread, harg7.read_unread, View.ld_unit_zero (S := S5x1024) hz2, View.ld_unit_zero (S := S5x4096) hz2, View.ld_unit_zero (S := S1024x1) hz2, View.ld_unit_zero (S := S1x8192) hz2]
    refine (pay5_apply x0 x1 _ _).trans ?_
    rw [View.read_writes_junk_eq_canon, View.canon_unit_zero hz2]
    show min (k0_pay2 (F := Ideal) _) _ = _
    rw [pay2_top]
    exact Cert.Chamfer.Math.min_top_left _
  · rw [dif_neg h, canon_half_out (k0_off1 i) (k0_off1_inb i) _ _ b (Or.inr (by omega)), View.canon_unit_zero hz2, pay2_top]

end Cert.KernelIdeal.KPieces

end
-- ==== Proof.LibFiniteReal.lean ====
/-
  Finite extended reals.

  An extended real is *finite* (`IsReal`) when it is the image of a real number. The sums,
  products, quotients and elementary functions of extended reals have corner cases at the two
  infinities (`⊤ + ⊥ = ⊥`, `0 * ⊤ = 0`, a quotient by zero, the square root of a negative
  number); on finite arguments none of them is met, and the value is the image of the
  corresponding real expression. This file records that:

  * `IsReal` is closed under `+`, `-`, `*`, unary `-`, finite sums, `max`, the exponential,
    the square root of a nonnegative number, the reciprocal square root of a positive number,
    a quotient by a nonzero number, and the logistic function;
  * sums of squares of finite numbers are nonnegative, and a nonempty sum of positive finite
    numbers is positive;
  * a few single-precision bit patterns denote finite (positive) numbers;
  * `gn_fold`: for finite numbers, `x * (inv * g) + (b - mean * (inv * g))`
    equals `(x - mean) * inv * g + b` (an affine map applied to a normalised value, with the
    scale and the shift folded together or not). The identity fails at the infinities, where
    subtraction does not cancel; finiteness is what makes it ring arithmetic.
-/
import Idealize.ShloMosaic.PureOps.Ideal
import Idealize.ShloMosaic.PureOps.Ideal.Laws

noncomputable section

namespace Cert.LibFiniteReal

open Idealize.ShloMosaic
open scoped BigOperators

/-- An extended real that is the image of a real number. -/
def IsReal (x : EReal) : Prop := ∃ r : ℝ, x = (r : EReal)

/-! ### Closure under the ring operations -/

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-! ### Finite sums -/

/-- The image of a finite sum of reals is the sum of the images. -/
theorem sum_coe {ι : Type*} (s : Finset ι) (g : ι → ℝ) :
    (∑ i ∈ s, ((g i : ℝ) : EReal)) = ((∑ i ∈ s, g i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact IsReal.zero
  · intro a t ha ih h
    rw [Finset.sum_insert ha]
    exact (h a (Finset.mem_insert_self a t)).add (ih fun i hi => h i (Finset.mem_insert_of_mem hi))

/-! ### Maximum and exponential -/

theorem IsReal.max {x y : EReal} (hx : IsReal x) (hy : IsReal y) : IsReal (max x y) := by
  rcases max_choice x y with h | h
  · rw [h]; exact hx
  · rw [h]; exact hy

theorem IsReal.exp {x : EReal} (hx : IsReal x) : IsReal (Ideal.exp x) := by
  obtain ⟨a, rfl⟩ := hx
  exact ⟨Real.exp a, Ideal.exp_coe a⟩

theorem exp_pos_of_isReal {x : EReal} (hx : IsReal x) : 0 < Ideal.exp x := by
  obtain ⟨a, rfl⟩ := hx
  rw [Ideal.exp_coe]
  exact EReal.coe_pos.mpr (Real.exp_pos a)

/-! ### Nonnegativity and positivity -/

theorem mul_self_nonneg' {x : EReal} (hx : IsReal x) : 0 ≤ x * x := by
  obtain ⟨a, rfl⟩ := hx
  rw [← EReal.coe_mul]
  exact EReal.coe_nonneg.mpr (mul_self_nonneg a)

theorem sum_nonneg' {ι : Type*} (s : Finset ι) (f : ι → EReal) (h : ∀ i ∈ s, 0 ≤ f i) :
    0 ≤ ∑ i ∈ s, f i :=
  Finset.sum_nonneg h

/-- A nonempty sum of positive finite numbers is positive. -/
theorem sum_pos' {ι : Type*} (s : Finset ι) (f : ι → EReal) (hne : s.Nonempty)
    (hr : ∀ i ∈ s, IsReal (f i)) (hp : ∀ i ∈ s, 0 < f i) : 0 < ∑ i ∈ s, f i := by
  have hf : ∀ i ∈ s, f i = (((f i).toReal : ℝ) : EReal) := by
    intro i hi
    obtain ⟨r, hri⟩ := hr i hi
    rw [hri, EReal.toReal_coe]
  rw [Finset.sum_congr rfl hf, sum_coe]
  refine EReal.coe_pos.mpr (Finset.sum_pos ?_ hne)
  intro i hi
  have h := hp i hi
  rw [hf i hi] at h
  exact EReal.coe_pos.mp h

/-! ### Square root, reciprocal square root, quotient -/

theorem IsReal.sqrt {x : EReal} (hx : IsReal x) (h0 : 0 ≤ x) : IsReal (Ideal.sqrt x) := by
  obtain ⟨a, rfl⟩ := hx
  have ha : ¬ a < 0 := not_lt.mpr (EReal.coe_nonneg.mp h0)
  rw [Ideal.sqrt_coe, if_neg ha]
  exact ⟨Real.sqrt a, rfl⟩

theorem sqrt_nonneg' {x : EReal} (hx : IsReal x) (h0 : 0 ≤ x) : 0 ≤ Ideal.sqrt x := by
  obtain ⟨a, rfl⟩ := hx
  have ha : ¬ a < 0 := not_lt.mpr (EReal.coe_nonneg.mp h0)
  rw [Ideal.sqrt_coe, if_neg ha]
  exact EReal.coe_nonneg.mpr (Real.sqrt_nonneg a)

theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨(Real.sqrt a)⁻¹, rfl⟩

theorem IsReal.div {x y : EReal} (hx : IsReal x) (hy : IsReal y) (h0 : y ≠ 0) :
    IsReal (Ideal.div x y) := by
  obtain ⟨a, rfl⟩ := hx
  obtain ⟨b, rfl⟩ := hy
  have hb : b ≠ 0 := fun h => h0 (by rw [h, EReal.coe_zero])
  rw [Ideal.div_coe hb, ← EReal.coe_mul]
  exact ⟨a * (1 / b), rfl⟩

theorem IsReal.div_pos {x y : EReal} (hx : IsReal x) (hy : IsReal y) (h0 : 0 < y) :
    IsReal (Ideal.div x y) :=
  hx.div hy h0.ne'

/-! ### The fold of an affine map into a normalisation -/

/-- For finite numbers, scaling `x` by `inv * g` and shifting by `b - mean * (inv * g)` is the same
    as centring at `mean`, scaling by `inv`, then by `g`, and adding `b`. -/
theorem gn_fold {x mean inv g b : EReal} (hx : IsReal x) (hm : IsReal mean) (hi : IsReal inv)
    (hg : IsReal g) (hb : IsReal b) :
    x * (inv * g) + (b - mean * (inv * g)) = (x - mean) * inv * g + b := by
  obtain ⟨x', rfl⟩ := hx
  obtain ⟨m', rfl⟩ := hm
  obtain ⟨i', rfl⟩ := hi
  obtain ⟨g', rfl⟩ := hg
  obtain ⟨b', rfl⟩ := hb
  simp only [← EReal.coe_mul, ← EReal.coe_add, ← EReal.coe_sub]
  congr 1
  ring

/-! ### A maximum with a positive number; the logistic function -/

theorem max_pos_right (x : EReal) {e : EReal} (he : 0 < e) : 0 < max x e :=
  lt_max_of_lt_right he

theorem IsReal.logistic {x : EReal} (hx : IsReal x) : IsReal (Ideal.logistic x) := by
  obtain ⟨a, rfl⟩ := hx
  exact ⟨(1 + Real.exp (-a))⁻¹, Ideal.logistic_coe a⟩

/-! ### Some single-precision bit patterns

Each pattern below has sign bit `0` and an exponent field that is neither all zeros nor all ones, so
it denotes the finite positive number `(2^23 + T) * 2^(E - 150)`, `E` the exponent field and `T` the
trailing significand. -/

/-- `0x3F800000`: `E = 127`, `T = 0`, the number `1`. -/
theorem ofBits_f32_3F800000 : Ideal.ofBits .f32 0x3F800000#32 = 1 := by
  simp [Ideal.ofBits, Ideal.ieee]
  rw [← EReal.coe_mul, ← EReal.coe_one]
  congr 1
  norm_num

/-- `0x48000000`: `E = 144`, `T = 0`, the number `2^17 = 131072`. -/
theorem ofBits_f32_48000000 : Ideal.ofBits .f32 0x48000000#32 = ((131072 : ℝ) : EReal) := by
  simp [Ideal.ofBits, Ideal.ieee]
  rw [← EReal.coe_mul]
  congr 1
  norm_num

theorem isReal_ofBits_f32_48000000 : IsReal (Ideal.ofBits .f32 0x48000000#32) :=
  ⟨131072, ofBits_f32_48000000⟩

theorem ofBits_f32_48000000_pos : 0 < Ideal.ofBits .f32 0x48000000#32 := by
  rw [ofBits_f32_48000000]
  exact EReal.coe_pos.mpr (by norm_num)

theorem ofBits_f32_48000000_ne_zero : Ideal.ofBits .f32 0x48000000#32 ≠ 0 :=
  ofBits_f32_48000000_pos.ne'

/-- `0x3D000000`: `E = 122`, `T = 0`, the number `2^(-5) = 1/32`. -/
theorem ofBits_f32_3D000000 : Ideal.ofBits .f32 0x3D000000#32 = ((1 / 32 : ℝ) : EReal) := by
  simp [Ideal.ofBits, Ideal.ieee]
  rw [← EReal.coe_mul]
  congr 1
  norm_num

theorem isReal_ofBits_f32_3D000000 : IsReal (Ideal.ofBits .f32 0x3D000000#32) :=
  ⟨1 / 32, ofBits_f32_3D000000⟩

theorem ofBits_f32_3D000000_pos : 0 < Ideal.ofBits .f32 0x3D000000#32 := by
  rw [ofBits_f32_3D000000]
  exact EReal.coe_pos.mpr (by norm_num)

/-- `0x3727C5AC`: `E = 110`, `2^23 + T = 10995116`, the number `10995116 / 2^40`, the single-precision
    number nearest `10^(-5)`. -/
theorem ofBits_f32_3727C5AC :
    Ideal.ofBits .f32 0x3727C5AC#32 = ((10995116 * (2 ^ 40)⁻¹ : ℝ) : EReal) := by
  simp [Ideal.ofBits, Ideal.ieee]

theorem isReal_ofBits_f32_3727C5AC : IsReal (Ideal.ofBits .f32 0x3727C5AC#32) :=
  ⟨10995116 * (2 ^ 40)⁻¹, ofBits_f32_3727C5AC⟩

theorem ofBits_f32_3727C5AC_pos : 0 < Ideal.ofBits .f32 0x3727C5AC#32 := by
  rw [ofBits_f32_3727C5AC]
  exact EReal.coe_pos.mpr (by positivity)

/-- `0x2B8CBCCC`: `E = 87`, `2^23 + T = 9223372`, the number `9223372 / 2^63`, the single-precision
    number nearest `10^(-12)`. -/
theorem ofBits_f32_2B8CBCCC :
    Ideal.ofBits .f32 0x2B8CBCCC#32 = ((9223372 * (2 ^ 63)⁻¹ : ℝ) : EReal) := by
  simp [Ideal.ofBits, Ideal.ieee]

theorem isReal_ofBits_f32_2B8CBCCC : IsReal (Ideal.ofBits .f32 0x2B8CBCCC#32) :=
  ⟨9223372 * (2 ^ 63)⁻¹, ofBits_f32_2B8CBCCC⟩

theorem ofBits_f32_2B8CBCCC_pos : 0 < Ideal.ofBits .f32 0x2B8CBCCC#32 := by
  rw [ofBits_f32_2B8CBCCC]
  exact EReal.coe_pos.mpr (by positivity)

end Cert.LibFiniteReal
-- ==== Proof.KerPrefix.lean ====
/-
  The two five-row arrays the host builds before the kernel, entry by entry, on the extended reals.

  From a cloud stored as [1, 3, 8192] the host forms the [3, 8192] array of coordinates, the row of squared norms
  (the sum over the three coordinates of the squares, from the initial value zero) and a row of ones, and stacks
  them: the first array has rows (p₀, p₁, p₂, |p|², 1) of the first cloud; the second has rows
  (−2 q₀, −2 q₁, −2 q₂, 1, |q|²) of the second cloud.  Column `a` of the first is `augL` of point `a`, column `b` of
  the second is `augR` of point `b`.  The argument arrays themselves are left as launched.
-/
import proofs.«136692_j54992761258145_2_alg».proof.Proof.Gen.KernelIdeal.Launch
import proofs.«136692_j54992761258145_2_alg».proof.Proof.Spec
import proofs.«136692_j54992761258145_2_alg».proof.Proof.LibFiniteReal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.KRead

open Cert.KernelIdeal Cert.KernelIdeal.Gen Idealize.ShloMosaic Idealize.ShloMosaic.ValueIdx
open Idealize.ShloMosaic.TcCoe Idealize.SL.Sem Idealize.ShloMosaic.StableHlo
open scoped BigOperators

variable (m : (ℓ : Loc nD τ sig) → Buf (Elt Ideal) ℓ) (c : Dev nD)

/-- A three-operand operation's result, with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

/-- The coordinates of a cloud as a [3, 8192] array. -/
def coords (x : FVec Ideal S1x3x8192 .f32) : FVec Ideal S3x8192 .f32 := shapeCast S3x8192 x shapeCasts_S1x3x8192_S3x8192

/-- The row of squared norms. -/
def normRow (x : FVec Ideal S1x3x8192 .f32) : FVec Ideal S1x8192 .f32 :=
  broadcastInDim S1x8192 ![1] bcast_S8192_S1x8192_1
    (Host.reduceAdd (mulf (coords x) (coords x)) (constant (F := Ideal) S_ .f32 0x00000000#32) reducesTo_S3x8192_S8192_d0 h_S_)

/-- The row of ones. -/
def oneRow : FVec Ideal S1x8192 .f32 := broadcastInDim S1x8192 ![] bcast_S_S1x8192 (constant (F := Ideal) S_ .f32 0x3F800000#32)

/-- The coordinates scaled by −2. -/
def scaled (x : FVec Ideal S1x3x8192 .f32) : FVec Ideal S3x8192 .f32 :=
  mulf (broadcastInDim S3x8192 ![] bcast_S_S3x8192 (constant (F := Ideal) S_ .f32 0xC0000000#32)) (coords x)

/-- The results of a line of host operations, one operation at a time (the library's loop, with three-operand
    operations read operand by operand). -/
local macro "host_results" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

theorem v10_eq :
    (StableHlo.after (hostOps0 (F := Ideal)) (fun b => m (c, b)) (Proc.devRef .tc main_v10) : S5x8192.Idx → EReal)
      = concatenate S5x8192 0 [⟨S3x8192, coords (m ((c.tc : Thread nD τ).loc main_arg0))⟩,
          ⟨S1x8192, normRow (m ((c.tc : Thread nD τ).loc main_arg0))⟩, ⟨S1x8192, oneRow⟩]
          concatenates_S3x8192_S1x8192_S1x8192_S5x8192_d0 := by
  show StableHlo.after hostOps0 _ (Proc.devRef .tc main_v10) = _
  host_results
  rfl

set_option maxHeartbeats 4000000 in
theorem v13_eq :
    (StableHlo.after (hostOps0 (F := Ideal)) (fun b => m (c, b)) (Proc.devRef .tc main_v13) : S5x8192.Idx → EReal)
      = concatenate S5x8192 0 [⟨S3x8192, scaled (m ((c.tc : Thread nD τ).loc main_arg1))⟩,
          ⟨S1x8192, oneRow⟩, ⟨S1x8192, normRow (m ((c.tc : Thread nD τ).loc main_arg1))⟩]
          concatenates_S3x8192_S1x8192_S1x8192_S5x8192_d0 := by
  show StableHlo.after hostOps0 _ (Proc.devRef .tc main_v13) = _
  host_results
  rfl

/-! ## The stack of 3 + 1 + 1 rows, read at a row -/

section Stack
variable {α : Type} (A : S3x8192.Idx → α) (B C : S1x8192.Idx → α)

/-- Rows 0, 1, 2 of the stack are the rows of the first piece. -/
theorem stack_top (d : Fin 3) (a : Fin 8192) :
    concatenate S5x8192 0 [⟨S3x8192, A⟩, ⟨S1x8192, B⟩, ⟨S1x8192, C⟩] concatenates_S3x8192_S1x8192_S1x8192_S5x8192_d0
      (ix2 (⟨d.val, by omega⟩ : Fin 5) a) = A (ix2 d a) :=
  concatenate_apply_piece 0 [⟨S3x8192, A⟩, ⟨S1x8192, B⟩, ⟨S1x8192, C⟩] concatenates_S3x8192_S1x8192_S1x8192_S5x8192_d0 _ 0 (by show (0 : ℕ) < 3; omega) S3x8192 A rfl rfl 0 rfl (ix2 d a)
    (fun b hb => by match b with | ⟨0, _⟩ => exact absurd rfl hb | ⟨1, _⟩ => rfl) (by show 0 + d.val = d.val; omega)

/-- Row 3 is the second piece. -/
theorem stack_three (a : Fin 8192) :
    concatenate S5x8192 0 [⟨S3x8192, A⟩, ⟨S1x8192, B⟩, ⟨S1x8192, C⟩] concatenates_S3x8192_S1x8192_S1x8192_S5x8192_d0
      (ix2 (3 : Fin 5) a) = B (ix2 (0 : Fin 1) a) :=
  concatenate_apply_piece 0 [⟨S3x8192, A⟩, ⟨S1x8192, B⟩, ⟨S1x8192, C⟩] concatenates_S3x8192_S1x8192_S1x8192_S5x8192_d0 _ 1 (by show (1 : ℕ) < 3; omega) S1x8192 B rfl rfl 3 rfl (ix2 (0 : Fin 1) a)
    (fun b hb => by match b with | ⟨0, _⟩ => exact absurd rfl hb | ⟨1, _⟩ => rfl) rfl

/-- Row 4 is the third piece. -/
theorem stack_four (a : Fin 8192) :
    concatenate S5x8192 0 [⟨S3x8192, A⟩, ⟨S1x8192, B⟩, ⟨S1x8192, C⟩] concatenates_S3x8192_S1x8192_S1x8192_S5x8192_d0
      (ix2 (4 : Fin 5) a) = C (ix2 (0 : Fin 1) a) :=
  concatenate_apply_piece 0 [⟨S3x8192, A⟩, ⟨S1x8192, B⟩, ⟨S1x8192, C⟩] concatenates_S3x8192_S1x8192_S1x8192_S5x8192_d0 _ 2 (by show (2 : ℕ) < 3; omega) S1x8192 C rfl rfl 4 rfl (ix2 (0 : Fin 1) a)
    (fun b hb => by match b with | ⟨0, _⟩ => exact absurd rfl hb | ⟨1, _⟩ => rfl) rfl

end Stack

/-! ## The pieces, read at an entry -/

theorem coords_apply (x : FVec Ideal S1x3x8192 .f32) (d : Fin 3) (a : Fin 8192) :
    coords x (ix2 d a) = x (ix3 (0 : Fin 1) d a) :=
  shapeCast_1ab_ab_apply x _ d a

/-- The word 0xC0000000 is the number −2. -/
theorem ofBits_f32_C0000000 : Ideal.ofBits .f32 0xC0000000#32 = -2 := by
  simp [Ideal.ofBits, Ideal.ieee]
  rw [← EReal.coe_mul, show (2 : EReal) = ((2 : ℝ) : EReal) from rfl]
  congr 1
  norm_num

theorem scaled_apply (x : FVec Ideal S1x3x8192 .f32) (d : Fin 3) (a : Fin 8192) :
    scaled x (ix2 d a) = -2 * x (ix3 (0 : Fin 1) d a) := by
  unfold scaled
  rw [mulf_apply, coords_apply, broadcastInDim_apply _ bcast_S_S3x8192 _ (ix2 d a) ix0 (fun a' => a'.elim0), constant_apply,
    ofBits_f32_C0000000]

theorem oneRow_apply (a : Fin 8192) : oneRow (ix2 (0 : Fin 1) a) = 1 := by
  unfold oneRow
  rw [broadcastInDim_apply _ bcast_S_S1x8192 _ (ix2 (0 : Fin 1) a) ix0 (fun a' => a'.elim0), constant_apply,
    Cert.LibFiniteReal.ofBits_f32_3F800000]

theorem normRow_apply (x : FVec Ideal S1x3x8192 .f32) (a : Fin 8192) :
    normRow x (ix2 (0 : Fin 1) a) = ∑ d : Fin 3, x (ix3 (0 : Fin 1) d a) * x (ix3 (0 : Fin 1) d a) := by
  unfold normRow
  rw [broadcastInDim_apply _ bcast_S8192_S1x8192_1 _ (ix2 (0 : Fin 1) a) (ix1 a)
    (fun a' => by match a' with | ⟨0, _⟩ => rfl)]
  have hR : S3x8192.Reduces [0] S8192 := by decide
  show Ideal.hostReduceAdd reducesTo_S3x8192_S8192_d0 (mulf (coords x) (coords x)) (Ideal.ofBits .f32 0x00000000#32) (ix1 a) = _
  rw [Ideal.hostReduceAdd_single reducesTo_S3x8192_S8192_d0 hR, Ideal.ofBits_zero_f32, zero_add]
  show (∑ d : Fin 3, (mulf (coords x) (coords x)) (hR.lift (ix1 a) d)) = _
  refine Finset.sum_congr rfl fun d _ => ?_
  have hl : hR.lift (ix1 a) d = ix2 d a := funext fun b => Fin.ext (by match b with | ⟨0, _⟩ => rfl | ⟨1, _⟩ => rfl)
  rw [hl, mulf_apply, coords_apply]

/-! ## The two arrays at an entry, and the arguments -/

/-- Column `a` of the first array is the first cloud's point `a` with its squared norm and a one appended. -/
theorem v10_apply (k : Fin 5) (a : Fin 8192) :
    (StableHlo.after (hostOps0 (F := Ideal)) (fun b => m (c, b)) (Proc.devRef .tc main_v10) : S5x8192.Idx → EReal) (ix2 k a)
      = Cert.Chamfer.augL (fun d => Cert.Chamfer.pt (m ((c.tc : Thread nD τ).loc main_arg0)) d a) k := by
  rw [v10_eq]
  match k with
  | ⟨0, _⟩ => exact (stack_top _ _ _ (0 : Fin 3) a).trans (coords_apply _ 0 a)
  | ⟨1, _⟩ => exact (stack_top _ _ _ (1 : Fin 3) a).trans (coords_apply _ 1 a)
  | ⟨2, _⟩ => exact (stack_top _ _ _ (2 : Fin 3) a).trans (coords_apply _ 2 a)
  | ⟨3, _⟩ => exact (stack_three _ _ _ a).trans (normRow_apply _ a)
  | ⟨4, _⟩ => exact (stack_four _ _ _ a).trans (oneRow_apply a)

/-- Column `b` of the second array is the second cloud's point `b` scaled by −2, with a one and its squared norm
    appended. -/
theorem v13_apply (k : Fin 5) (b : Fin 8192) :
    (StableHlo.after (hostOps0 (F := Ideal)) (fun b => m (c, b)) (Proc.devRef .tc main_v13) : S5x8192.Idx → EReal) (ix2 k b)
      = Cert.Chamfer.augR (fun d => Cert.Chamfer.pt (m ((c.tc : Thread nD τ).loc main_arg1)) d b) k := by
  rw [v13_eq]
  match k with
  | ⟨0, _⟩ => exact (stack_top _ _ _ (0 : Fin 3) b).trans (scaled_apply _ 0 b)
  | ⟨1, _⟩ => exact (stack_top _ _ _ (1 : Fin 3) b).trans (scaled_apply _ 1 b)
  | ⟨2, _⟩ => exact (stack_top _ _ _ (2 : Fin 3) b).trans (scaled_apply _ 2 b)
  | ⟨3, _⟩ => exact (stack_three _ _ _ b).trans (oneRow_apply b)
  | ⟨4, _⟩ => exact (stack_four _ _ _ b).trans (normRow_apply _ b)

/-- The host operations write none of the three arguments. -/
theorem arg0_kept :
    StableHlo.after (hostOps0 (F := Ideal)) (fun b => m (c, b)) (Proc.devRef .tc main_arg0) = m ((c.tc : Thread nD τ).loc main_arg0) := by
  host_results

theorem arg1_kept :
    StableHlo.after (hostOps0 (F := Ideal)) (fun b => m (c, b)) (Proc.devRef .tc main_arg1) = m ((c.tc : Thread nD τ).loc main_arg1) := by
  host_results

theorem arg2_kept :
    StableHlo.after (hostOps0 (F := Ideal)) (fun b => m (c, b)) (Proc.devRef .tc main_arg2) = m ((c.tc : Thread nD τ).loc main_arg2) := by
  host_results

end Cert.KernelIdeal.KRead

end
-- ==== Proof.AugDot.lean ====
/-
  The five-term product.

  For points `p`, `q` of three-space with real coordinates, append to `p` its squared norm and a one,
  and to `-2 q` a one and the squared norm of `q`.  The product of the two five-term rows is then
  `p₀(-2q₀) + p₁(-2q₁) + p₂(-2q₂) + |p|²·1 + 1·|q|² = |p|² + |q|² − 2⟨p, q⟩`,
  the squared distance between `p` and `q`.  Among the extended reals multiplication does not distribute
  over addition at the infinities, so the identity is stated for finite coordinates, where it is ring
  arithmetic on the underlying reals.
-/
import Idealize.ShloMosaic.PureOps.Ideal
import Idealize.ShloMosaic.PureOps.Ideal.Laws
import proofs.«136692_j54992761258145_2_alg».proof.Proof.LibFiniteReal
import proofs.«136692_j54992761258145_2_alg».proof.Proof.Spec

noncomputable section

namespace Cert.Chamfer.Math

open Idealize.ShloMosaic
open scoped BigOperators

/-- The five-term product of the augmented rows is the squared distance, for finite coordinates. -/
theorem aug_dot (p q : Fin 3 → EReal) (hp : ∀ d, Cert.LibFiniteReal.IsReal (p d))
    (hq : ∀ d, Cert.LibFiniteReal.IsReal (q d)) :
    (∑ k : Fin 5, Cert.Chamfer.augL p k * Cert.Chamfer.augR q k)
      = (∑ d : Fin 3, p d * p d) + (∑ d : Fin 3, q d * q d) - 2 * ∑ d : Fin 3, p d * q d := by
  choose a ha using hp
  choose b hb using hq
  obtain rfl : p = fun d => ((a d : ℝ) : EReal) := funext ha
  obtain rfl : q = fun d => ((b d : ℝ) : EReal) := funext hb
  have h2 : (2 : EReal) = ((2 : ℝ) : EReal) := rfl
  simp only [Cert.Chamfer.augL, Cert.Chamfer.augR, Fin.sum_univ_five, Fin.sum_univ_three]
  have e0 : ∀ v0 v1 v2 v3 v4 : EReal, (![v0, v1, v2, v3, v4] : Fin 5 → EReal) 0 = v0 := fun _ _ _ _ _ => rfl
  have e1 : ∀ v0 v1 v2 v3 v4 : EReal, (![v0, v1, v2, v3, v4] : Fin 5 → EReal) 1 = v1 := fun _ _ _ _ _ => rfl
  have e2 : ∀ v0 v1 v2 v3 v4 : EReal, (![v0, v1, v2, v3, v4] : Fin 5 → EReal) 2 = v2 := fun _ _ _ _ _ => rfl
  have e3 : ∀ v0 v1 v2 v3 v4 : EReal, (![v0, v1, v2, v3, v4] : Fin 5 → EReal) 3 = v3 := fun _ _ _ _ _ => rfl
  have e4 : ∀ v0 v1 v2 v3 v4 : EReal, (![v0, v1, v2, v3, v4] : Fin 5 → EReal) 4 = v4 := fun _ _ _ _ _ => rfl
  simp only [e0, e1, e2, e3, e4]
  rw [h2, ← EReal.coe_one]
  simp only [← EReal.coe_neg, ← EReal.coe_mul, ← EReal.coe_add, ← EReal.coe_sub]
  congr 1
  ring

end Cert.Chamfer.Math

end
-- ==== Proof.FiniteArgs.lean ====
/-
  From the precondition to real entries.

  The precondition of the certificate says that the printed test "every entry of every argument array has
  absolute value below +∞" evaluates to 1 on each device.  The test is the conjunction of three reductions by
  `and`, one per argument array, of the elementwise comparison `|x| < +∞`.  A conjunction of one-bit words is 1
  exactly when both are, and a reduction by `and` equal to 1 makes every entry pass its test; on the extended
  reals an entry whose absolute value is below `+∞` is a real number.  Hence every entry of each of the three
  argument arrays is a real number.
-/
import proofs.«136692_j54992761258145_2_alg».proof.Defs
import proofs.«136692_j54992761258145_2_alg».proof.Proof.Gen.Pre_finite_inputs
import proofs.«136692_j54992761258145_2_alg».proof.Proof.Gen.KernelIdeal
import proofs.«136692_j54992761258145_2_alg».proof.Proof.LibFiniteInputs
import proofs.«136692_j54992761258145_2_alg».proof.Proof.LibFiniteReal
import Idealize.ShloMosaic.Lib.ValueIdx

noncomputable section

namespace Cert.KernelIdeal.FiniteArgs

open Idealize.ShloMosaic Idealize.SL.Sem

/-- The shape with no axes has exactly one index. -/
instance subsingleton_scalar_idx : Subsingleton Cert.Pre_finite_inputs.S_.Idx :=
  ⟨fun a b => funext fun d => d.elim0⟩

/-- Under the precondition, every entry of each of the three argument arrays is a real number. -/
theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ j, Cert.LibFiniteReal.IsReal (m ((c.tc : Thread Cert.KernelIdeal.nD Cert.KernelIdeal.τ).loc Cert.KernelIdeal.main_arg0) j))
    ∧ (∀ j, Cert.LibFiniteReal.IsReal (m ((c.tc : Thread Cert.KernelIdeal.nD Cert.KernelIdeal.τ).loc Cert.KernelIdeal.main_arg1) j))
    ∧ (∀ j, Cert.LibFiniteReal.IsReal (m ((c.tc : Thread Cert.KernelIdeal.nD Cert.KernelIdeal.τ).loc Cert.KernelIdeal.main_arg2) j)) := by
  have h := congrFun (hpre c) Idealize.ShloMosaic.ValueIdx.ix0
  dsimp only [Cert.Pre_finite_inputs.fn] at h
  change IntOp.andi (IntOp.andi _ _) _ = 1#1 at h
  rw [IntOp.andi_eq_one, IntOp.andi_eq_one] at h
  obtain ⟨⟨h0, h1⟩, h2⟩ := h
  exact ⟨fun j => FiniteInputs.all_real _ _ _ _ _ _ h0 j,
         fun j => FiniteInputs.all_real _ _ _ _ _ _ h1 j,
         fun j => FiniteInputs.all_real _ _ _ _ _ _ h2 j⟩

end Cert.KernelIdeal.FiniteArgs

end
-- ==== Proof.KerBlocks.lean ====
/-
  What the kernel's two input blocks hold at a grid point, and the clamped squared distance the body computes there.

  The grid has 8 × 2 points; point `t` has row block `t / 2` and column block `t % 2`.  The first window stages the
  first five-row array [5, 8192] in blocks [5, 1024] indexed by the row block, the second the second five-row array in
  blocks [5, 4096] indexed by the column block: entry (k, r) of the first block is entry (k, 1024 · (t / 2) + r) of the
  first array, entry (k, q) of the second block is entry (k, 4096 · (t % 2) + q) of the second.  Column `a` of the first
  array is point `a` of the first cloud with its squared norm and a one appended, column `b` of the second is point `b`
  of the second cloud scaled by −2 with a one and its squared norm appended; for real coordinates the five-term
  product of the two columns is |p|² + |q|² − 2⟨p, q⟩, so that entry (r, q) of the clamped product block is the clamped
  squared distance between points 1024 · (t / 2) + r and 4096 · (t % 2) + q.
-/
import proofs.«136692_j54992761258145_2_alg».proof.Proof.FrameI.Runs
import proofs.«136692_j54992761258145_2_alg».proof.Proof.KerPay
import proofs.«136692_j54992761258145_2_alg».proof.Proof.KerPrefix
import proofs.«136692_j54992761258145_2_alg».proof.Proof.AugDot
import proofs.«136692_j54992761258145_2_alg».proof.Proof.FiniteArgs
import proofs.«136692_j54992761258145_2_alg».proof.Proof.Spec
import proofs.«136692_j54992761258145_2_alg».proof.Proof.LibFiniteReal
import Idealize.ShloMosaic.Lib.Pipeline.Value
import Idealize.ShloMosaic.Lib.ValueIdx

noncomputable section

namespace Cert.KernelIdeal.KBlocks

open Cert.KernelIdeal Cert.KernelIdeal.Gen Cert.KernelIdeal.Fr Idealize.ShloMosaic Idealize.ShloMosaic.ValueIdx
open Idealize.ShloMosaic.TcCoe Idealize.SL.Sem
open scoped BigOperators

variable (m : (ℓ : Loc nD τ sig) → Buf (Elt Ideal) ℓ) (c : Dev nD)

/-- The first window's block indices at a point: row block 0 of the five rows, column block `t / 2`. -/
theorem index0 : ∀ t : Fin cfg0.N, win0_0.index t (0 : Fin 2) = 0 ∧ win0_0.index t (1 : Fin 2) = t.val / 2 :=
  (by decide +kernel : ∀ t : Fin grid0.N, win0_0.index t (0 : Fin 2) = 0 ∧ win0_0.index t (1 : Fin 2) = t.val / 2)

/-- The second window's block indices at a point: row block 0 of the five rows, column block `t % 2`. -/
theorem index1 : ∀ t : Fin cfg0.N, win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2)

/-- Entry (k, r) of the first window's block at point `t` is entry (k, 1024 · (t / 2) + r) of the first array. -/
theorem iblk0_apply (t : Fin cfg0.N) (k : Fin 5) (r : Fin 1024) :
    (iblk (F := Ideal) m c 0 t : S5x1024.Idx → EReal) (ix2 k r)
      = (V (F := Ideal) m c main_v10 : S5x8192.Idx → EReal)
          (ix2 k ⟨1024 * (t.val / 2) + r.val, by have := t.isLt; have hN : cfg0.N = 16 := N_0; omega⟩) := by
  obtain ⟨e0, e1⟩ := index0 t
  show V m c main_v10 (((cfg0.win 0).blk t).view.emb (ix2 k r)) = V m c main_v10 _
  refine congrArg (V m c main_v10) ?_
  funext a; apply Fin.ext
  match a with
  | ⟨0, _⟩ => show win0_0.index t (0 : Fin 2) * 5 + 1 * k.val = k.val; omega
  | ⟨1, _⟩ => show win0_0.index t (1 : Fin 2) * 1024 + 1 * r.val = 1024 * (t.val / 2) + r.val; omega

/-- Entry (k, q) of the second window's block at point `t` is entry (k, 4096 · (t % 2) + q) of the second array. -/
theorem iblk1_apply (t : Fin cfg0.N) (k : Fin 5) (q : Fin 4096) :
    (iblk (F := Ideal) m c 1 t : S5x4096.Idx → EReal) (ix2 k q)
      = (V (F := Ideal) m c main_v13 : S5x8192.Idx → EReal)
          (ix2 k ⟨4096 * (t.val % 2) + q.val, by omega⟩) := by
  obtain ⟨e0, e1⟩ := index1 t
  show V m c main_v13 (((cfg0.win 1).blk t).view.emb (ix2 k q)) = V m c main_v13 _
  refine congrArg (V m c main_v13) ?_
  funext a; apply Fin.ext
  match a with
  | ⟨0, _⟩ => show win0_1.index t (0 : Fin 2) * 5 + 1 * k.val = k.val; omega
  | ⟨1, _⟩ => show win0_1.index t (1 : Fin 2) * 4096 + 1 * q.val = 4096 * (t.val % 2) + q.val; omega

/-- Column `a` of the first array, as the launch finds it: point `a` of the first cloud, augmented. -/
theorem V10_apply (k : Fin 5) (a : Fin 8192) :
    (V (F := Ideal) m c main_v10 : S5x8192.Idx → EReal) (ix2 k a)
      = Cert.Chamfer.augL (fun d => Cert.Chamfer.pt (m ((c.tc : Thread nD τ).loc main_arg0)) d a) k :=
  Cert.KernelIdeal.KRead.v10_apply m c k a

/-- Column `b` of the second array, as the launch finds it: point `b` of the second cloud, augmented. -/
theorem V13_apply (k : Fin 5) (b : Fin 8192) :
    (V (F := Ideal) m c main_v13 : S5x8192.Idx → EReal) (ix2 k b)
      = Cert.Chamfer.augR (fun d => Cert.Chamfer.pt (m ((c.tc : Thread nD τ).loc main_arg1)) d b) k :=
  Cert.KernelIdeal.KRead.v13_apply m c k b

/-- A five-term sum of products of two columns, each column read entry by entry. -/
theorem sum_columns (X0 : S5x1024.Idx → EReal) (X1 : S5x4096.Idx → EReal) (L R : Fin 5 → EReal) (r : Fin 1024) (q : Fin 4096)
    (h0 : ∀ k, X0 (ix2 k r) = L k) (h1 : ∀ k, X1 (ix2 k q) = R k) :
    (∑ k : Fin 5, X0 (ix2 k r) * X1 (ix2 k q)) = ∑ k : Fin 5, L k * R k :=
  Finset.sum_congr rfl fun k _ => congr (congrArg HMul.hMul (h0 k)) (h1 k)

/-- Entry (r, q) of the clamped product of the two blocks at point `t` is the clamped squared distance between point
    1024 · (t / 2) + r of the first cloud and point 4096 · (t % 2) + q of the second, when the clouds' coordinates are
    real numbers. -/
theorem pay3_blocks
    (hx0 : ∀ j, Cert.LibFiniteReal.IsReal (m ((c.tc : Thread nD τ).loc main_arg0) j))
    (hx1 : ∀ j, Cert.LibFiniteReal.IsReal (m ((c.tc : Thread nD τ).loc main_arg1) j))
    (t : Fin cfg0.N) (r : Fin 1024) (q : Fin 4096) :
    k0_pay3 (F := Ideal) (iblk (F := Ideal) m c 0 t) (iblk (F := Ideal) m c 1 t) (ix2 r q)
      = Cert.Chamfer.dist2 (m ((c.tc : Thread nD τ).loc main_arg0)) (m ((c.tc : Thread nD τ).loc main_arg1))
          ⟨1024 * (t.val / 2) + r.val, by have := t.isLt; have hN : cfg0.N = 16 := N_0; omega⟩
          ⟨4096 * (t.val % 2) + q.val, by omega⟩ := by
  refine (Cert.KernelIdeal.KRead.pay3_apply _ _ r q).trans ?_
  refine (congrArg (fun s => max s (0 : EReal))
    (sum_columns _ _ _ _ r q (fun k => (iblk0_apply m c t k r).trans (V10_apply m c k _))
      (fun k => (iblk1_apply m c t k q).trans (V13_apply m c k _)))).trans ?_
  refine (congrArg (fun s => max s (0 : EReal))
    (Cert.Chamfer.Math.aug_dot _ _ (fun d => hx0 _) (fun d => hx1 _))).trans ?_
  rfl

end Cert.KernelIdeal.KBlocks

end
-- ==== Proof.KerPoints.lean ====
/-
  What the idealized kernel's buffers hold after each grid point, as distances between the two clouds.

  Point `t` of the 8 × 2 grid handles the rows `1024·(t/2) + r` of the first cloud against the columns `4096·(t%2) + q`
  of the second; the body's five-term products are the clamped squared distances of those points when the coordinates are
  real numbers.  After an even point the two scratch buffers hold the row-wise and the column-wise least of its block
  (the columns outside the block still at +∞); the odd point after it folds in the second block of columns and stores the
  square roots: the forward distances of its 1024 rows (the least over both halves of the columns), and for every column
  the square root of the least over its 1024 rows.
-/
import proofs.«136692_j54992761258145_2_alg».proof.Proof.FrameI.Frame
import proofs.«136692_j54992761258145_2_alg».proof.Proof.KerPieces
import proofs.«136692_j54992761258145_2_alg».proof.Proof.KerBlocks
import proofs.«136692_j54992761258145_2_alg».proof.Proof.LibInfSqrt

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem
open Cert.Chamfer Cert.Chamfer.Math Cert.LibFiniteReal

variable (m : (ℓ : Loc nD τ sig) → Buf (Elt Ideal) ℓ) (c : Dev nD)
variable (hx0 : ∀ j, IsReal (m ((c.tc : Thread nD τ).loc main_arg0) j)) (hx1 : ∀ j, IsReal (m ((c.tc : Thread nD τ).loc main_arg1) j))

theorem N16 : cfg0.N = 16 := N_0

/-- Row `r` of point `t`'s block of the first cloud. -/
def rowOf (t : Fin cfg0.N) (r : Fin 1024) : Fin 8192 := ⟨1024 * (t.val / 2) + r.val, by have := t.isLt; have hN : cfg0.N = 16 := N_0; omega⟩
/-- Column `q` of point `t`'s block of the second cloud. -/
def colOf (t : Fin cfg0.N) (q : Fin 4096) : Fin 8192 := ⟨4096 * (t.val % 2) + q.val, by omega⟩

/-- The clamped squared distance the body computes at entry (r, q) of point `t`'s block. -/
abbrev D (t : Fin cfg0.N) (r : Fin 1024) (q : Fin 4096) : EReal :=
  dist2 (m ((c.tc : Thread nD τ).loc main_arg0)) (m ((c.tc : Thread nD τ).loc main_arg1)) (rowOf t r) (colOf t q)

include hx0 hx1 in
theorem pay3_at (t : Fin cfg0.N) (r : Fin 1024) (q : Fin 4096) :
    k0_pay3 (F := Ideal) (iblk (F := Ideal) m c 0 t) (iblk (F := Ideal) m c 1 t) (ix2 r q) = D m c t r q :=
  Cert.KernelIdeal.KBlocks.pay3_blocks m c hx0 hx1 t r q

/-! ## After an even point -/

include hx0 hx1 in
/-- The running row minima after an even point: the least over the block's columns. -/
theorem rows_even (t : Fin cfg0.N) (h0 : t.val % 2 = 0) (r : Fin 1024) :
    (outsAt0 (F := Ideal) m c t.val t.isLt).2.2.1 (ix2 r (0 : Fin 1)) = Finset.univ.inf fun q : Fin 4096 => D m c t r q := by
  rw [outsAt0_A m c t h0]
  simp only [ptA]
  rw [Cert.KernelIdeal.KPieces.soutA0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h0) (hA1 t h0) (iblk m c 0 t) (iblk m c 1 t) r]
  exact Finset.inf_congr rfl fun q _ => pay3_at m c hx0 hx1 t r q

include hx0 hx1 in
/-- The running column minima after an even point: over the block's own columns the least over its rows, elsewhere +∞. -/
theorem cols_even (t : Fin cfg0.N) (h0 : t.val % 2 = 0) (b : Fin 8192) :
    (outsAt0 (F := Ideal) m c t.val t.isLt).2.2.2 (ix2 (0 : Fin 1) b)
      = if h : b.val < 4096 then (Finset.univ.inf fun r : Fin 1024 => D m c t r ⟨b.val, h⟩) else ⊤ := by
  rw [outsAt0_A m c t h0]
  simp only [ptA]
  rw [Cert.KernelIdeal.KPieces.soutA1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hA0 t h0) (hA1 t h0) (iblk m c 0 t) (iblk m c 1 t) ((coord1_eq t).trans h0) b]
  by_cases hb : b.val < 4096
  · rw [dif_pos hb, dif_pos hb]
    exact Finset.inf_congr rfl fun r _ => pay3_at m c hx0 hx1 t r _
  · rw [dif_neg hb, dif_neg hb]

/-! ## After an odd point -/

include hx0 hx1 in
/-- The forward-distance block an odd point stores: the square root of the least of what the point found and its own block's. -/
theorem fwd_odd (t : Fin cfg0.N) (h0 : ¬t.val % 2 = 0) (r : Fin 1024) :
    (outsAt0 (F := Ideal) m c t.val t.isLt).1 (ix2 (0 : Fin 1) r)
      = Ideal.sqrt (min ((outsAt0 (F := Ideal) m c (t.val - 1) (Nat.lt_of_le_of_lt (Nat.sub_le _ _) t.isLt)).2.2.1 (ix2 r (0 : Fin 1)))
          (Finset.univ.inf fun q : Fin 4096 => D m c t r q)) := by
  rw [outsAt0_B m c t h0]
  simp only [ptB]
  rw [Cert.KernelIdeal.KPieces.outB2_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h0) (hB1 t h0) (iblk m c 0 t) (iblk m c 1 t) _ _ r,
    Cert.KernelIdeal.KPieces.soutB0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h0) (hB1 t h0) (iblk m c 0 t) (iblk m c 1 t) _ _ r]
  refine congrArg Ideal.sqrt (congrArg (min _) ?_)
  exact Finset.inf_congr rfl fun q _ => pay3_at m c hx0 hx1 t r q

include hx0 hx1 in
/-- The row of partial backward distances an odd point stores. -/
theorem bwd_odd (t : Fin cfg0.N) (h0 : ¬t.val % 2 = 0) (b : Fin 8192) :
    (outsAt0 (F := Ideal) m c t.val t.isLt).2.1 (ix3 (0 : Fin 1) (0 : Fin 1) b)
      = Ideal.sqrt (if h : 4096 ≤ b.val then
            min ((outsAt0 (F := Ideal) m c (t.val - 1) (Nat.lt_of_le_of_lt (Nat.sub_le _ _) t.isLt)).2.2.2 (ix2 (0 : Fin 1) b))
              (Finset.univ.inf fun r : Fin 1024 => D m c t r ⟨b.val - 4096, by omega⟩)
          else (outsAt0 (F := Ideal) m c (t.val - 1) (Nat.lt_of_le_of_lt (Nat.sub_le _ _) t.isLt)).2.2.2 (ix2 (0 : Fin 1) b)) := by
  rw [outsAt0_B m c t h0]
  simp only [ptB]
  have h1 : ((grid0.coords t) 1).val = 1 := (coord1_eq t).trans (by omega)
  rw [Cert.KernelIdeal.KPieces.outB3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h0) (hB1 t h0) (iblk m c 0 t) (iblk m c 1 t) _ _ b,
    Cert.KernelIdeal.KPieces.soutB1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (hB0 t h0) (hB1 t h0) (iblk m c 0 t) (iblk m c 1 t) _ _ h1 b]
  refine congrArg Ideal.sqrt ?_
  by_cases hb : 4096 ≤ b.val
  · rw [dif_pos hb, dif_pos hb]
    refine congrArg (min _) ?_
    exact Finset.inf_congr rfl fun r _ => pay3_at m c hx0 hx1 t r _
  · rw [dif_neg hb, dif_neg hb]

/-! ## A row block's two points together -/

/-- The odd point of row block `i`. -/
def tOdd (i : Fin 8) : Fin cfg0.N := ⟨2 * i.val + 1, by have hN : cfg0.N = 16 := N_0; omega⟩
/-- The even point of row block `i`. -/
def tEven (i : Fin 8) : Fin cfg0.N := ⟨2 * i.val, by have hN : cfg0.N = 16 := N_0; omega⟩
/-- Row `r` of row block `i`. -/
def rowIn (i : Fin 8) (r : Fin 1024) : Fin 8192 := ⟨1024 * i.val + r.val, by omega⟩

theorem rowOf_odd (i : Fin 8) (r : Fin 1024) : rowOf (tOdd i) r = rowIn i r :=
  Fin.ext (by simp only [rowOf, tOdd, rowIn]; omega)
theorem rowOf_even (i : Fin 8) (r : Fin 1024) : rowOf (tEven i) r = rowIn i r :=
  Fin.ext (by simp only [rowOf, tEven, rowIn]; omega)
theorem colOf_odd (i : Fin 8) (q : Fin 4096) : colOf (tOdd i) q = ⟨4096 + q.val, by omega⟩ :=
  Fin.ext (by simp only [colOf, tOdd]; omega)
theorem colOf_even (i : Fin 8) (q : Fin 4096) : colOf (tEven i) q = ⟨q.val, by omega⟩ :=
  Fin.ext (by simp only [colOf, tEven]; omega)
theorem odd_not_even (i : Fin 8) : ¬(tOdd i).val % 2 = 0 := by simp only [tOdd]; omega
theorem even_even (i : Fin 8) : (tEven i).val % 2 = 0 := by simp only [tEven]; omega

/-- What the odd point of a row block found is what the even point of the same row block left. -/
theorem prev_odd (i : Fin 8) :
    outsAt0 (F := Ideal) m c ((tOdd i).val - 1) (Nat.lt_of_le_of_lt (Nat.sub_le _ _) (tOdd i).isLt)
      = outsAt0 (F := Ideal) m c (tEven i).val (tEven i).isLt := rfl

include hx0 hx1 in
/-- The forward distances of row block `i`: the least over both halves of the columns is the least over all columns. -/
theorem fwd_block (i : Fin 8) (r : Fin 1024) :
    (outsAt0 (F := Ideal) m c (tOdd i).val (tOdd i).isLt).1 (ix2 (0 : Fin 1) r)
      = fwdAt (m ((c.tc : Thread nD τ).loc main_arg0)) (m ((c.tc : Thread nD τ).loc main_arg1)) (rowIn i r) := by
  rw [fwd_odd m c hx0 hx1 (tOdd i) (odd_not_even i) r, prev_odd m c i, rows_even m c hx0 hx1 (tEven i) (even_even i) r]
  rw [show fwdAt (m ((c.tc : Thread nD τ).loc main_arg0)) (m ((c.tc : Thread nD τ).loc main_arg1)) (rowIn i r)
      = Ideal.sqrt (Finset.univ.inf fun b : Fin 8192 => dist2 (m ((c.tc : Thread nD τ).loc main_arg0)) (m ((c.tc : Thread nD τ).loc main_arg1)) (rowIn i r) b) from rfl,
    ← inf_halves (fun b => dist2 (m ((c.tc : Thread nD τ).loc main_arg0)) (m ((c.tc : Thread nD τ).loc main_arg1)) (rowIn i r) b), min_top_left]
  simp only [D, rowOf_odd, rowOf_even, colOf_odd, colOf_even]

include hx0 hx1 in
/-- Row `i` of the partial backward distances: for every column the square root of the least over row block `i`. -/
theorem bwd_block (i : Fin 8) (b : Fin 8192) :
    (outsAt0 (F := Ideal) m c (tOdd i).val (tOdd i).isLt).2.1 (ix3 (0 : Fin 1) (0 : Fin 1) b)
      = Ideal.sqrt (min ⊤ (Finset.univ.inf fun r : Fin 1024 =>
          dist2 (m ((c.tc : Thread nD τ).loc main_arg0)) (m ((c.tc : Thread nD τ).loc main_arg1)) (rowIn i r) b)) := by
  rw [bwd_odd m c hx0 hx1 (tOdd i) (odd_not_even i) b, prev_odd m c i, cols_even m c hx0 hx1 (tEven i) (even_even i) b, min_top_left]
  by_cases hb : 4096 ≤ b.val
  · have hb' : ¬b.val < 4096 := by omega
    rw [dif_pos hb, dif_neg hb', min_top_left]
    simp only [D, rowOf_odd, colOf_odd]
    have e : (⟨4096 + (b.val - 4096), by omega⟩ : Fin 8192) = b := Fin.ext (by show 4096 + (b.val - 4096) = b.val; omega)
    simp only [e]
  · have hb' : b.val < 4096 := by omega
    rw [dif_neg hb, dif_pos hb']
    simp only [D, rowOf_even, colOf_even]

end Cert.KernelIdeal.KValue

end
-- ==== Proof.KerArrays.lean ====
/-
  From blocks to arrays: what the kernel's two result arrays hold after the launch.

  The grid has 8 × 2 = 16 points; point `t` has first coordinate `t / 2`.  The [1, 8192] result is cut into eight blocks
  [1, 1024], the [8, 1, 8192] result into its eight rows [1, 1, 8192]; block (row) `i` is written back at the odd point
  `2 i + 1` and at no other, with what the body left in the output buffers there.  So the eight write-backs tile each
  array: entry `1024 i + r` of the first array is entry `r` of the first output block after point `2 i + 1`, and entry
  `(i, 0, b)` of the second is entry `(0, 0, b)` of the second output block after point `2 i + 1`.
-/
import proofs.«136692_j54992761258145_2_alg».proof.Proof.FrameI.Frame
import Idealize.ShloMosaic.Lib.Pipeline.Value
import Idealize.ShloMosaic.Lib.ValueIdx

noncomputable section

namespace Cert.KernelIdeal.KArrays

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The buffers after a position depend on the position's value only. -/
theorem outsAt0_congr (c : Dev nD) {n n' : ℕ} (h : n = n') (hn : n < cfg0.N) (hn' : n' < cfg0.N) :
    outsAt0 m c n hn = outsAt0 m c n' hn' := by
  subst h; rfl

/-- The block index of the first result at a point: block `t / 2` of the one row. -/
theorem index2 : ∀ t : Fin cfg0.N, win0_2.index t (0 : Fin 2) = 0 ∧ win0_2.index t (1 : Fin 2) = t.val / 2 :=
  (by decide +kernel : ∀ t : Fin grid0.N, win0_2.index t (0 : Fin 2) = 0 ∧ win0_2.index t (1 : Fin 2) = t.val / 2)

/-- The block index of the second result at a point: row `t / 2`. -/
theorem index3 : ∀ t : Fin cfg0.N, win0_3.index t (0 : Fin 3) = t.val / 2 ∧ win0_3.index t (1 : Fin 3) = 0 ∧ win0_3.index t (2 : Fin 3) = 0 :=
  (by decide +kernel : ∀ t : Fin grid0.N, win0_3.index t (0 : Fin 3) = t.val / 2 ∧ win0_3.index t (1 : Fin 3) = 0 ∧ win0_3.index t (2 : Fin 3) = 0)

/-! ## The first result: forward distances, [1, 8192] in eight blocks [1, 1024] -/

/-- The first result array, entry by entry: entry `j` is entry `j mod 1024` of the block stored at point `2 (j / 1024) + 1`. -/
def fwdArr (c : Dev nD) : S1x8192.Idx → Elt F .f32 := fun j =>
  (outsAt0 m c (2 * ((j 1).val / 1024) + 1)
      (by have h : (j 1).val < 8192 := (j 1).isLt; have hN : cfg0.N = 16 := N_0; omega)).1
    (ix2 (0 : Fin 1) (⟨(j 1).val % 1024, Nat.mod_lt _ (by decide)⟩ : Fin 1024))

/-- `fwdArr` at explicit coordinates. -/
theorem fwdArr_at (c : Dev nD) (i : Fin 8) (r : Fin 1024) :
    fwdArr m c (ix2 (0 : Fin 1) (⟨1024 * i.val + r.val, by have := i.isLt; have := r.isLt; omega⟩ : Fin 8192))
      = (outsAt0 m c (2 * i.val + 1) (by have := i.isLt; have hN : cfg0.N = 16 := N_0; omega)).1 (ix2 (0 : Fin 1) r) := by
  have hi := i.isLt
  have hr := r.isLt
  have hN : cfg0.N = 16 := N_0
  show (outsAt0 m c (2 * ((1024 * i.val + r.val) / 1024) + 1) _).1 (ix2 (0 : Fin 1) (⟨(1024 * i.val + r.val) % 1024, _⟩ : Fin 1024)) = _
  rw [outsAt0_congr m c (show 2 * ((1024 * i.val + r.val) / 1024) + 1 = 2 * i.val + 1 by omega) _ (by omega)]
  refine congrArg _ ?_
  refine congrArg (ix2 (0 : Fin 1)) (Fin.ext ?_)
  show (1024 * i.val + r.val) % 1024 = r.val
  omega

/-- What an odd point writes back into the first result is its block of `fwdArr`. -/
theorem flushed2_eq (c : Dev nD) (t : Fin cfg0.N) (hf : (cfg0.win 2).flush t = true) :
    (dats m 0 c).flushed 2 t = ((cfg0.win 2).blk t).view.read (Elt F) (fwdArr m c) := by
  have hodd : t.val % 2 = 1 := (flush0_2 t).mp hf
  have hN : cfg0.N = 16 := N_0
  have ht : t.val < 16 := hN ▸ t.isLt
  obtain ⟨i0, i1⟩ := index2 t
  show (cfg0.win 2).cut (grid0.coords t) ((dats m 0 c).after 2 t) = _
  rw [after0_2]
  funext y
  have hy0 : (y 0).val < 1 := (y 0).isLt
  have hy1 : (y 1).val < 1024 := (y 1).isLt
  have ej : ((cfg0.win 2).blk t).view.emb y = ix2 (0 : Fin 1) (⟨1024 * (t.val / 2) + (y 1).val, by omega⟩ : Fin 8192) := by
    funext a; apply Fin.ext
    match a with
    | ⟨0, _⟩ => show win0_2.index t (0 : Fin 2) * 1 + 1 * (y 0).val = 0; rw [i0]; omega
    | ⟨1, _⟩ => show win0_2.index t (1 : Fin 2) * 1024 + 1 * (y 1).val = 1024 * (t.val / 2) + (y 1).val; rw [i1]; omega
  show (outsAt0 m c t.val t.isLt).1 y = fwdArr m c (((cfg0.win 2).blk t).view.emb y)
  rw [ej, fwdArr_at m c ⟨t.val / 2, by omega⟩ ⟨(y 1).val, hy1⟩,
    outsAt0_congr m c (show 2 * (t.val / 2) + 1 = t.val by omega) _ t.isLt]
  refine congrArg _ (funext fun a => ?_)
  match a with
  | ⟨0, _⟩ => exact Fin.ext (by show (y 0).val = 0; omega)
  | ⟨1, _⟩ => rfl

/-- Every entry of the first result lies in the block of an odd point. -/
theorem cover2 (c : Dev nD) (i : S1x8192.Idx) :
    ∃ t : Fin cfg0.N, (cfg0.win 2).flush t = true ∧ i ∈ ((cfg0.win 2).blk t).view.set := by
  have hN : cfg0.N = 16 := N_0
  have h0 : (i 0).val < 1 := (i 0).isLt
  have h1 : (i 1).val < 8192 := (i 1).isLt
  let t : Fin cfg0.N := ⟨2 * ((i 1).val / 1024) + 1, by omega⟩
  have tv : t.val = 2 * ((i 1).val / 1024) + 1 := rfl
  obtain ⟨i0, i1⟩ := index2 t
  refine ⟨t, (flush0_2 t).mpr (by rw [tv]; omega), ?_⟩
  show i ∈ ((View.whole main_v14_0).slice (win0_2.rect t)).set
  rw [View.set_slice_whole, Rect.mem_set_unit]
  intro a
  match a with
  | ⟨0, _⟩ => show win0_2.index t (0 : Fin 2) * 1 ≤ (i 0).val ∧ (i 0).val < win0_2.index t (0 : Fin 2) * 1 + 1
              rw [i0]; omega
  | ⟨1, _⟩ => show win0_2.index t (1 : Fin 2) * 1024 ≤ (i 1).val ∧ (i 1).val < win0_2.index t (1 : Fin 2) * 1024 + 1024
              rw [i1, tv]; omega

/-- The first result array after the launch. -/
theorem final2 (c : Dev nD) : (dats m 0 c).arrAt 2 cfg0.N = fwdArr m c :=
  (dats m 0 c).arrAt_eq_of_cover 2 (fwdArr m c) (flushed2_eq m c) (cover2 c)

/-- The first result array after the launch, at explicit coordinates: entry `1024 i + r` is entry `r` of the first
    output block after point `2 i + 1`. -/
theorem final2_at (c : Dev nD) (i : Fin 8) (r : Fin 1024) :
    (dats m 0 c).arrAt 2 cfg0.N (ix2 (0 : Fin 1) (⟨1024 * i.val + r.val, by have := i.isLt; have := r.isLt; omega⟩ : Fin 8192))
      = (outsAt0 m c (2 * i.val + 1) (by have := i.isLt; have hN : cfg0.N = 16 := N_0; omega)).1 (ix2 (0 : Fin 1) r) :=
  (congrFun (final2 m c) _).trans (fwdArr_at m c i r)

/-! ## The second result: per row block the backward partial minima, [8, 1, 8192] in eight rows [1, 1, 8192] -/

/-- The second result array, entry by entry: entry `(i, 0, b)` is entry `(0, 0, b)` of the row stored at point `2 i + 1`. -/
def bwdArr (c : Dev nD) : S8x1x8192.Idx → Elt F .f32 := fun j =>
  (outsAt0 m c (2 * (j 0).val + 1)
      (by have h : (j 0).val < 8 := (j 0).isLt; have hN : cfg0.N = 16 := N_0; omega)).2.1
    (ix3 (0 : Fin 1) (0 : Fin 1) (⟨(j 2).val, (j 2).isLt⟩ : Fin 8192))

/-- `bwdArr` at explicit coordinates. -/
theorem bwdArr_at (c : Dev nD) (i : Fin 8) (b : Fin 8192) :
    bwdArr m c (ix3 i (0 : Fin 1) b)
      = (outsAt0 m c (2 * i.val + 1) (by have := i.isLt; have hN : cfg0.N = 16 := N_0; omega)).2.1 (ix3 (0 : Fin 1) (0 : Fin 1) b) := rfl

/-- What an odd point writes back into the second result is its row of `bwdArr`. -/
theorem flushed3_eq (c : Dev nD) (t : Fin cfg0.N) (hf : (cfg0.win 3).flush t = true) :
    (dats m 0 c).flushed 3 t = ((cfg0.win 3).blk t).view.read (Elt F) (bwdArr m c) := by
  have hodd : t.val % 2 = 1 := (flush0_3 t).mp hf
  have hN : cfg0.N = 16 := N_0
  have ht : t.val < 16 := hN ▸ t.isLt
  obtain ⟨i0, i1, i2⟩ := index3 t
  show (cfg0.win 3).cut (grid0.coords t) ((dats m 0 c).after 3 t) = _
  rw [after0_3]
  funext y
  have hy0 : (y 0).val < 1 := (y 0).isLt
  have hy1 : (y 1).val < 1 := (y 1).isLt
  have hy2 : (y 2).val < 8192 := (y 2).isLt
  have ej : ((cfg0.win 3).blk t).view.emb y
      = ix3 (⟨t.val / 2, by omega⟩ : Fin 8) (0 : Fin 1) (⟨(y 2).val, hy2⟩ : Fin 8192) := by
    funext a; apply Fin.ext
    match a with
    | ⟨0, _⟩ => show win0_3.index t (0 : Fin 3) * 1 + 1 * (y 0).val = t.val / 2; rw [i0]; omega
    | ⟨1, _⟩ => show win0_3.index t (1 : Fin 3) * 1 + 1 * (y 1).val = 0; rw [i1]; omega
    | ⟨2, _⟩ => show win0_3.index t (2 : Fin 3) * 8192 + 1 * (y 2).val = (y 2).val; rw [i2]; omega
  show (outsAt0 m c t.val t.isLt).2.1 y = bwdArr m c (((cfg0.win 3).blk t).view.emb y)
  rw [ej, bwdArr_at m c ⟨t.val / 2, by omega⟩ ⟨(y 2).val, hy2⟩,
    outsAt0_congr m c (show 2 * (t.val / 2) + 1 = t.val by omega) _ t.isLt]
  refine congrArg _ (funext fun a => ?_)
  match a with
  | ⟨0, _⟩ => exact Fin.ext (by show (y 0).val = 0; omega)
  | ⟨1, _⟩ => exact Fin.ext (by show (y 1).val = 0; omega)
  | ⟨2, _⟩ => rfl

/-- Every entry of the second result lies in the row of an odd point. -/
theorem cover3 (c : Dev nD) (i : S8x1x8192.Idx) :
    ∃ t : Fin cfg0.N, (cfg0.win 3).flush t = true ∧ i ∈ ((cfg0.win 3).blk t).view.set := by
  have hN : cfg0.N = 16 := N_0
  have h0 : (i 0).val < 8 := (i 0).isLt
  have h1 : (i 1).val < 1 := (i 1).isLt
  have h2 : (i 2).val < 8192 := (i 2).isLt
  let t : Fin cfg0.N := ⟨2 * (i 0).val + 1, by omega⟩
  have tv : t.val = 2 * (i 0).val + 1 := rfl
  obtain ⟨i0, i1, i2⟩ := index3 t
  refine ⟨t, (flush0_3 t).mpr (by rw [tv]; omega), ?_⟩
  show i ∈ ((View.whole main_v14_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1
              rw [i0, tv]; omega
  | ⟨1, _⟩ => show win0_3.index t (1 : Fin 3) * 1 ≤ (i 1).val ∧ (i 1).val < win0_3.index t (1 : Fin 3) * 1 + 1
              rw [i1]; omega
  | ⟨2, _⟩ => show win0_3.index t (2 : Fin 3) * 8192 ≤ (i 2).val ∧ (i 2).val < win0_3.index t (2 : Fin 3) * 8192 + 8192
              rw [i2]; omega

/-- The second result array after the launch. -/
theorem final3 (c : Dev nD) : (dats m 0 c).arrAt 3 cfg0.N = bwdArr m c :=
  (dats m 0 c).arrAt_eq_of_cover 3 (bwdArr m c) (flushed3_eq m c) (cover3 c)

/-- The second result array after the launch, at explicit coordinates: entry `(i, 0, b)` is entry `(0, 0, b)` of the
    second output block after point `2 i + 1`. -/
theorem final3_at (c : Dev nD) (i : Fin 8) (b : Fin 8192) :
    (dats m 0 c).arrAt 3 cfg0.N (ix3 i (0 : Fin 1) b)
      = (outsAt0 m c (2 * i.val + 1) (by have := i.isLt; have hN : cfg0.N = 16 := N_0; omega)).2.1 (ix3 (0 : Fin 1) (0 : Fin 1) b) :=
  (congrFun (final3 m c) _).trans (bwdArr_at m c i b)

end Cert.KernelIdeal.KArrays

end
-- ==== Proof.KerVectors.lean ====
/-
  From the two result arrays, known entry by entry, to the two vectors of distances.

  The first result array is a row [1, 8192] whose entry (0, a) is known for every a written as 1024 · i + r (block i
  of 1024 entries, position r inside it); reshaped to a vector its entry a is that value: every a below 8192 is
  1024 · (a / 1024) + a % 1024.  The second result array holds eight rows [8, 1, 8192]; entry (i, 0, b) is the square
  root of the least, over the 1024 points a of block i, of g a b.  The least of the eight rows at b is then, the
  square root being monotone and hence commuting with least elements, the square root of the least over the eight
  blocks of the least within a block: the square root of the least of g a b over all 8192 points a.
-/
import proofs.«136692_j54992761258145_2_alg».proof.Proof.KerTail
import proofs.«136692_j54992761258145_2_alg».proof.Proof.LibInfSqrt
import proofs.«136692_j54992761258145_2_alg».proof.Proof.Spec
import proofs.«136692_j54992761258145_2_alg».proof.Proof.Gen.KernelIdeal
import Idealize.ShloMosaic.Lib.ValueIdx

noncomputable section

namespace Cert.KernelIdeal.KVectors

open Cert.KernelIdeal Cert.KernelIdeal.Gen Idealize.ShloMosaic Idealize.ShloMosaic.ValueIdx

/-- The row read as a vector, from its entries given block by block. -/
theorem fwd_vec_of (A2 : FVec Ideal S1x8192 .f32) (f : Fin 8192 → EReal)
    (h : ∀ (i : Fin 8) (r : Fin 1024),
      A2 (ix2 (0 : Fin 1) (⟨1024 * i.val + r.val, by omega⟩ : Fin 8192)) = f ⟨1024 * i.val + r.val, by omega⟩) :
    shapeCast S8192 A2 shapeCasts_S1x8192_S8192 = fun j => f (j 0) := by
  funext j
  obtain ⟨a, rfl⟩ : ∃ a : Fin 8192, j = ix1 a := ⟨j 0, eq_ix1 j⟩
  refine (Cert.KernelIdeal.KTail.fwd_reshape_apply A2 a).trans ?_
  have e : (⟨1024 * (a.val / 1024) + a.val % 1024, by omega⟩ : Fin 8192) = a :=
    Fin.ext (Nat.div_add_mod a.val 1024)
  have h' := h ⟨a.val / 1024, by omega⟩ ⟨a.val % 1024, by omega⟩
  exact (congrArg (fun x => A2 (ix2 (0 : Fin 1) x)) e).symm.trans (h'.trans (congrArg f e))

/-- The least of the eight rows, from the rows' entries given as square roots of least values within a block: the
    square root of the least value over all blocks. -/
theorem bwd_vec_of (A3 : FVec Ideal S8x1x8192 .f32) (g : Fin 8192 → Fin 8192 → EReal)
    (h : ∀ (i : Fin 8) (b : Fin 8192), A3 (ix3 i (0 : Fin 1) b)
      = Ideal.sqrt (min ⊤ (Finset.univ.inf fun r : Fin 1024 => g ⟨1024 * i.val + r.val, by omega⟩ b))) :
    Host.reduce FloatOps.minimumf (shapeCast S8x8192 A3 shapeCasts_S8x1x8192_S8x8192) (constant S_ .f32 0x7F800000#32)
        reducesTo_S8x8192_S8192_d0 h_S_
      = fun j => Ideal.sqrt (Finset.univ.inf fun a : Fin 8192 => g a (j 0)) := by
  funext j
  obtain ⟨b, rfl⟩ : ∃ b : Fin 8192, j = ix1 b := ⟨j 0, eq_ix1 j⟩
  refine (Cert.KernelIdeal.KTail.bwd_least_apply A3 b).trans ?_
  have h1 : (fun i : Fin 8 => A3 (ix3 i (0 : Fin 1) b))
      = fun i : Fin 8 => Ideal.sqrt (min ⊤ (Finset.univ.inf fun r : Fin 1024 => g ⟨1024 * i.val + r.val, by omega⟩ b)) :=
    funext fun i => h i b
  refine (congrArg (Finset.inf Finset.univ) h1).trans ?_
  refine (Cert.Chamfer.Math.sqrt_inf Finset.univ
    (fun i : Fin 8 => min ⊤ (Finset.univ.inf fun r : Fin 1024 => g ⟨1024 * i.val + r.val, by omega⟩ b))).symm.trans ?_
  exact congrArg Ideal.sqrt (Cert.Chamfer.Math.inf_blocks (fun a => g a b))

/-- The reshaped first result array is the vector of forward distances. -/
theorem fwd_vec (A2 : FVec Ideal S1x8192 .f32) (x0 x1 : FVec Ideal S1x3x8192 .f32)
    (h : ∀ (i : Fin 8) (r : Fin 1024), A2 (ix2 (0 : Fin 1) (⟨1024 * i.val + r.val, by omega⟩ : Fin 8192))
      = Cert.Chamfer.fwdAt x0 x1 ⟨1024 * i.val + r.val, by omega⟩) :
    shapeCast S8192 A2 shapeCasts_S1x8192_S8192 = Cert.Chamfer.Fwd x0 x1 :=
  fwd_vec_of A2 (Cert.Chamfer.fwdAt x0 x1) h

/-- The least of the eight rows of the second result array is the vector of backward distances. -/
theorem bwd_vec (A3 : FVec Ideal S8x1x8192 .f32) (x0 x1 : FVec Ideal S1x3x8192 .f32)
    (h : ∀ (i : Fin 8) (b : Fin 8192), A3 (ix3 i (0 : Fin 1) b)
      = Ideal.sqrt (min ⊤ (Finset.univ.inf fun r : Fin 1024 => Cert.Chamfer.dist2 x0 x1 ⟨1024 * i.val + r.val, by omega⟩ b))) :
    Host.reduce FloatOps.minimumf (shapeCast S8x8192 A3 shapeCasts_S8x1x8192_S8x8192) (constant S_ .f32 0x7F800000#32)
        reducesTo_S8x8192_S8192_d0 h_S_ = Cert.Chamfer.Bwd x0 x1 :=
  bwd_vec_of A3 (fun a b => Cert.Chamfer.dist2 x0 x1 a b) h

end Cert.KernelIdeal.KVectors

end
-- ==== Proof.KerValue.lean ====
/-
  The idealized kernel program's result as a function of its arguments.

  Under the precondition every entry of the two clouds is a real number.  After the launch, entry `1024 i + r` of the
  first result array is what the odd point of row block `i` stored at `r` — the forward distance of point `1024 i + r` —
  and entry `(i, 0, b)` of the second is the square root of the least clamped squared distance from the points of row
  block `i` to point `b`.  Read as vectors by the host operations after the launch (a reshape; the least over the eight
  rows), these are the vector of forward distances and the vector of backward distances, and the remaining host
  operations are the chain `Tail` of them and the thresholds: the result is `Cert.Chamfer.Out` of the three arguments,
  which the program leaves unchanged.
-/
import proofs.«136692_j54992761258145_2_alg».proof.Defs
import proofs.«136692_j54992761258145_2_alg».proof.Proof.Gen.Pre_finite_inputs
import proofs.«136692_j54992761258145_2_alg».proof.Proof.KerResult
import proofs.«136692_j54992761258145_2_alg».proof.Proof.KerPoints
import proofs.«136692_j54992761258145_2_alg».proof.Proof.KerArrays
import proofs.«136692_j54992761258145_2_alg».proof.Proof.KerVectors
import proofs.«136692_j54992761258145_2_alg».proof.Proof.FiniteArgs

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL Idealize.SL.Sem

/-- Every weakly fair execution of the idealized kernel program from a memory whose argument arrays are finite terminates with the
    result array at `Out` of the three arguments and the arguments unchanged. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v54) = Cert.Chamfer.Out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨hx0, hx1, -⟩ := Cert.KernelIdeal.FiniteArgs.real_of_pre m hpre c
      have e2 := Cert.KernelIdeal.KVectors.fwd_vec ((dats m 0 c).arrAt 2 cfg0.N)
        (m ((c.tc : Thread nD τ).loc main_arg0)) (m ((c.tc : Thread nD τ).loc main_arg1))
        (fun i r => (Cert.KernelIdeal.KArrays.final2_at m c i r).trans (fwd_block m c hx0 hx1 i r))
      have e3 := Cert.KernelIdeal.KVectors.bwd_vec ((dats m 0 c).arrAt 3 cfg0.N)
        (m ((c.tc : Thread nD τ).loc main_arg0)) (m ((c.tc : Thread nD τ).loc main_arg1))
        (fun i b => (Cert.KernelIdeal.KArrays.final3_at m c i b).trans (bwd_block m c hx0 hx1 i b))
      exact ⟨((h c).2 main_v54 (by decide)).trans ((result_eq m c).trans (by rw [e2, e3]; rfl)),
        ((h c).2 main_arg0 (by decide)).trans (V_main_arg0 m c),
        ((h c).2 main_arg1 (by decide)).trans (V_main_arg1 m c),
        ((h c).2 main_arg2 (by decide)).trans (V_main_arg2 m c)⟩)
    (run_main (F := Ideal) m ρ)

end Cert.KernelIdeal.KValue

end
-- ==== Proof.lean ====
/-
  The certificate's five claims.

  Both kernel programs (word level and idealized) run to the end with their argument arrays unchanged: the launch's
  16 grid points are run case by case (even points reset and fold in a block, odd points fold in a block and store the
  square roots), the two running-minima buffers carried from an even point to the odd one after it.  The reference has no
  kernel: its run is its 79 host operations read back.  The idealization rewrote nothing.  At the extended reals, on
  finite inputs, both programs compute the same three numbers: the kernel's five-term products
  [p, |p|², 1] · [−2q, 1, |q|²] are the squared distances |p|² + |q|² − 2⟨p, q⟩ (real coordinates distribute); the least
  over two halves of the columns, and the least over eight blocks of rows, are the least over all; the square root is
  monotone, so it commutes with the least; and the chain from the two distance vectors to the result is the same in both.
-/
import proofs.«136692_j54992761258145_2_alg».proof.Defs
import proofs.«136692_j54992761258145_2_alg».proof.Proof.Gen.Kernel
import proofs.«136692_j54992761258145_2_alg».proof.Proof.Gen.KernelIdeal
import proofs.«136692_j54992761258145_2_alg».proof.Proof.Gen.ReferenceIdeal
import proofs.«136692_j54992761258145_2_alg».proof.Proof.Gen.Pre_finite_inputs
import proofs.«136692_j54992761258145_2_alg».proof.Proof.FrameB.Frame
import proofs.«136692_j54992761258145_2_alg».proof.Proof.FrameI.Frame
import proofs.«136692_j54992761258145_2_alg».proof.Proof.RefValue
import proofs.«136692_j54992761258145_2_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both idealized programs end with the result at the one function `Cert.Chamfer.Out` of the argument arrays. -/
theorem algebraic : Cert.algebraic_KernelIdeal_ReferenceIdeal := by
  intro m ρ m' ρ' hpre hagree
  refine ⟨fun c => Cert.Chamfer.Out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KernelIdeal.KValue.run m ρ hpre, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
